-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x1x8192x64 : Shape := ⟨4, ![1, 1, 8192, 64]⟩
abbrev S_ : Shape := ⟨0, ![]⟩

class Facts : Prop where
  bcast_S_S1x1x8192x64 : S_.BroadcastsInDim S1x1x8192x64 (![] : Fin 0 → Fin S1x1x8192x64.rank)
  reducesTo_S1x1x8192x64_S_d0_1_2_3 : S1x1x8192x64.ReducesTo [0, 1, 2, 3] S_
  h_S_ : 0 < S_.numel

variable [Facts]

def fn {F : FTy → Type} [FloatOps F] (main_arg0 : FVec F S1x1x8192x64 .f32) : IVec S_ 1 :=
  let main_v0 : FVec F S1x1x8192x64 .f32 := Host.absf main_arg0
  let main_cst : FVec F S_ .f32 := constant S_ .f32 0x7F800000#32
  let main_v1 : FVec F S1x1x8192x64 .f32 := broadcastInDim S1x1x8192x64 ![] bcast_S_S1x1x8192x64 main_cst
  let main_v2 : IVec S1x1x8192x64 1 := cmpf .olt main_v0 main_v1
  let main_c : IVec S_ 1 := constantI S_ 1 1#1
  let main_v3 : IVec S_ 1 := (fun x v => Host.reduce IntOp.andi x v reducesTo_S1x1x8192x64_S_d0_1_2_3 h_S_) main_v2 main_c
  main_v3
-- ==== Kernel.lean ====
abbrev S1x1x8192x64 : Shape := ⟨4, ![1, 1, 8192, 64]⟩
abbrev S8192x64 : Shape := ⟨2, ![8192, 64]⟩
abbrev S_ : Shape := ⟨0, ![]⟩
abbrev S8192 : Shape := ⟨1, ![8192]⟩
abbrev S8192x1 : Shape := ⟨2, ![8192, 1]⟩
abbrev S1024x64 : Shape := ⟨2, ![1024, 64]⟩
abbrev S1024x1 : Shape := ⟨2, ![1024, 1]⟩
abbrev S64x1024 : Shape := ⟨2, ![64, 1024]⟩
abbrev S1024x1024 : Shape := ⟨2, ![1024, 1024]⟩
abbrev S1024 : Shape := ⟨1, ![1024]⟩
abbrev S1x8192 : Shape := ⟨2, ![1, 8192]⟩
abbrev S1x1 : Shape := ⟨2, ![1, 1]⟩
abbrev S512x1 : Shape := ⟨2, ![512, 1]⟩
abbrev S1x512 : Shape := ⟨2, ![1, 512]⟩
abbrev S512x512 : Shape := ⟨2, ![512, 512]⟩
abbrev S512 : Shape := ⟨1, ![512]⟩
abbrev S1 : Shape := ⟨1, ![1]⟩

abbrev nBuf : Space → Nat
  | .hbm => 23
  | .vmem => 15
  | .smem => 0
  | _ => 0

abbrev bufTy : (tb : Table) → Fin (tcTables nBuf tb) → BufTy
  | .hbm, ⟨0, _⟩ => ⟨S1x1x8192x64, .f32⟩
  | .hbm, ⟨1, _⟩ => ⟨S8192x64, .f32⟩
  | .hbm, ⟨2, _⟩ => ⟨S_, .f32⟩
  | .hbm, ⟨3, _⟩ => ⟨S8192x64, .f32⟩
  | .hbm, ⟨4, _⟩ => ⟨S8192x64, .f32⟩
  | .hbm, ⟨5, _⟩ => ⟨S8192x64, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S8192x1, .f32⟩
  | .hbm, ⟨10, _⟩ => ⟨S8192x1, .f32⟩
  | .hbm, ⟨11, _⟩ => ⟨S8192x64, .bf16⟩
  | .hbm, ⟨12, _⟩ => ⟨S8192x1, .f32⟩
  | .hbm, ⟨13, _⟩ => ⟨S1x8192, .f32⟩
  | .hbm, ⟨14, _⟩ => ⟨S1x1, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .local _ .vmem, ⟨0, _⟩ => ⟨S1024x64, .bf16⟩
  | .local _ .vmem, ⟨1, _⟩ => ⟨S1024x64, .bf16⟩
  | .local _ .vmem, ⟨2, _⟩ => ⟨S1024x64, .bf16⟩
  | .local _ .vmem, ⟨3, _⟩ => ⟨S1024x64, .bf16⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | .local _ .vmem, ⟨7, _⟩ => ⟨S1024x1, .f32⟩
  | .local _ .vmem, ⟨8, _⟩ => ⟨S1024x1, .f32⟩
  | .local _ .vmem, ⟨9, _⟩ => ⟨S1024x1, .f32⟩
  | .local _ .vmem, ⟨10, _⟩ => ⟨S512x1, .f32⟩
  | .local _ .vmem, ⟨11, _⟩ => ⟨S512x1, .f32⟩
  | .local _ .vmem, ⟨12, _⟩ => ⟨S1x512, .f32⟩
  | .local _ .vmem, ⟨13, _⟩ => ⟨S1x512, .f32⟩
  | .local _ .vmem, ⟨14, _⟩ => ⟨S1x1, .f32⟩
  | _, _ => ⟨S1x1x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_call0_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v34 : BitVec 1 := Scalar.cmpi .eq arg1 c7_i32
  let v35 : BitVec 32 := Scalar.extui v34
  let c0_i32_18 : BitVec 32 := 0#32
  let v36 : BitVec 1 := Scalar.cmpi .ne v35 c0_i32_18
  v36

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![16, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

class Facts₀ : Prop where
  shapeCasts_S1x1x8192x64_S8192x64 : S1x1x8192x64.ShapeCasts S8192x64
  bcast_S_S8192x64 : S_.BroadcastsInDim S8192x64 (![] : Fin 0 → Fin S8192x64.rank)
  reducesTo_S8192x64_S8192_d1 : S8192x64.ReducesTo [1] S8192
  h_S_ : 0 < S_.numel
  bcast_S8192_S8192x1_0 : S8192.BroadcastsInDim S8192x1 (![0] : Fin 1 → Fin S8192x1.rank)
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  transposes_S1024x64_p1_0_S64x1024 : S1024x64.Transposes [1, 0] S64x1024
  broadcasts_S1024x1_S1024x1024 : S1024x1.Broadcasts S1024x1024
  reduces_S1024x1024_S1024 : S1024x1024.Reduces [1] S1024
  shapeCasts_S1024_S1024x1 : S1024.ShapeCasts S1024x1
  transposes_S8192x1_S1x8192_1_0 : S8192x1.Transposes [1, 0] S1x8192
  inb_S1x1_S1x1_0_0 : ∀ a, (![0, 0] : Fin 2 → Nat) a + S1x1.size a ≤ S1x1.size a
  h_S1x1 : 0 < S1x1.numel
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S512x1_S512x512 : S512x1.Broadcasts S512x512
  broadcasts_S1x512_S512x512 : S1x512.Broadcasts S512x512
  iota_S512x512_d0_w32 : S512x512.Iotas .tc 32 [0]
  iota_S512x512_d1_w32 : S512x512.Iotas .tc 32 [1]
  reduces_S512x512_S512 : S512x512.Reduces [1] S512
  shapeCasts_S512_S512x1 : S512.ShapeCasts S512x1
  reduces_S512x1_S1 : S512x1.Reduces [0] S1
  shapeCasts_S1_S1x1 : S1.ShapeCasts S1x1
  shapeCasts_S1x1_S1x1 : S1x1.ShapeCasts S1x1
  reducesTo_S8192x1_S_d0_1 : S8192x1.ReducesTo [0, 1] S_
  shapeCasts_S1x1_S_ : S1x1.ShapeCasts S_
  dot_S1024x64_S64x1024_S1024x1024_1_0_0_1_n_n_wf : DotDims.WF S1024x64 S64x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S8192x64.size a
  hwx0_0 : ∀ i : grid0.Coords, EltTy.bits .bf16 = 32 ∨ (Rect.block (s := S8192x64) S1024x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S8192x64.size a
  hwx0_1 : ∀ i : grid0.Coords, EltTy.bits .bf16 = 32 ∨ (Rect.block (s := S8192x64) S1024x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S8192x1.size a
  hwx0_3 : ∀ i : grid0.Coords, EltTy.bits .f32 = 32 ∨ (Rect.block (s := S8192x1) S1024x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1.size a ≤ S8192x1.size a
  hwx1_0 : ∀ i : grid1.Coords, EltTy.bits .f32 = 32 ∨ (Rect.block (s := S8192x1) S512x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512.size a ≤ S1x8192.size a
  hwx1_1 : ∀ i : grid1.Coords, EltTy.bits .f32 = 32 ∨ (Rect.block (s := S1x8192) S1x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)

variable [Facts₀]

def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf

abbrev win0_0 : Pipeline.Window sig grid0 :=
  Pipeline.Window.ofSpec (Memref.whole main_v5) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1024x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v3) S512x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S1x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1x1.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S1x1x8192x64 : Shape := ⟨4, ![1, 1, 8192, 64]⟩
abbrev S_ : Shape := ⟨0, ![]⟩
abbrev S1x1x8192 : Shape := ⟨3, ![1, 1, 8192]⟩
abbrev S1x1x8192x1 : Shape := ⟨4, ![1, 1, 8192, 1]⟩
abbrev S8192x8192 : Shape := ⟨2, ![8192, 8192]⟩
abbrev S1x1x8192x8192 : Shape := ⟨4, ![1, 1, 8192, 8192]⟩
abbrev S1x1x1x8192 : Shape := ⟨4, ![1, 1, 1, 8192]⟩
abbrev S8192x1 : Shape := ⟨2, ![8192, 1]⟩
abbrev S1x8192 : Shape := ⟨2, ![1, 8192]⟩

abbrev nBuf : Space → Nat
  | .hbm => 58
  | .vmem => 0
  | .smem => 0
  | _ => 0

abbrev bufTy : (tb : Table) → Fin (tcTables nBuf tb) → BufTy
  | .hbm, ⟨0, _⟩ => ⟨S1x1x8192x64, .f32⟩
  | .hbm, ⟨1, _⟩ => ⟨S_, .f32⟩
  | .hbm, ⟨2, _⟩ => ⟨S1x1x8192x64, .f32⟩
  | .hbm, ⟨3, _⟩ => ⟨S1x1x8192x64, .f32⟩
  | .hbm, ⟨4, _⟩ => ⟨S1x1x8192x64, .f32⟩
  | .hbm, ⟨5, _⟩ => ⟨S_, .f32⟩
  | .hbm, ⟨6, _⟩ => ⟨S1x1x8192, .f32⟩
  | .hbm, ⟨7, _⟩ => ⟨S1x1x8192x1, .f32⟩
  | .hbm, ⟨8, _⟩ => ⟨S1x1x8192x1, .f32⟩
  | .hbm, ⟨9, _⟩ => ⟨S8192x8192, .i32⟩
  | .hbm, ⟨10, _⟩ => ⟨S8192x8192, .i32⟩
  | .hbm, ⟨11, _⟩ => ⟨S_, .i32⟩
  | .hbm, ⟨12, _⟩ => ⟨S8192x8192, .i32⟩
  | .hbm, ⟨13, _⟩ => ⟨S8192x8192, .i32⟩
  | .hbm, ⟨14, _⟩ => ⟨S8192x8192, .i1⟩
  | .hbm, ⟨15, _⟩ => ⟨S8192x8192, .f32⟩
  | .hbm, ⟨16, _⟩ => ⟨S1x1x8192x8192, .f32⟩
  | .hbm, ⟨17, _⟩ => ⟨S1x1x1x8192, .f32⟩
  | .hbm, ⟨18, _⟩ => ⟨S8192x1, .f32⟩
  | .hbm, ⟨19, _⟩ => ⟨S1x8192, .f32⟩
  | .hbm, ⟨20, _⟩ => ⟨S8192x8192, .f32⟩
  | .hbm, ⟨21, _⟩ => ⟨S1x1x8192x8192, .f32⟩
  | .hbm, ⟨22, _⟩ => ⟨S1x1x8192x8192, .f32⟩
  | .hbm, ⟨23, _⟩ => ⟨S1x1x8192x8192, .f32⟩
  | .hbm, ⟨24, _⟩ => ⟨S_, .f32⟩
  | .hbm, ⟨25, _⟩ => ⟨S8192x8192, .f32⟩
  | .hbm, ⟨26, _⟩ => ⟨S8192x8192, .f32⟩
  | .hbm, ⟨27, _⟩ => ⟨S1x1x8192x8192, .f32⟩
  | .hbm, ⟨28, _⟩ => ⟨S1x1x8192x8192, .f32⟩
  | .hbm, ⟨29, _⟩ => ⟨S1x1x8192x8192, .f32⟩
  | .hbm, ⟨30, _⟩ => ⟨S1x1x8192x8192, .f32⟩
  | .hbm, ⟨31, _⟩ => ⟨S1x1x8192x8192, .f32⟩
  | .hbm, ⟨32, _⟩ => ⟨S_, .f32⟩
  | .hbm, ⟨33, _⟩ => ⟨S1x1x8192, .f32⟩
  | .hbm, ⟨34, _⟩ => ⟨S1x1x8192x1, .f32⟩
  | .hbm, ⟨35, _⟩ => ⟨S1x1x8192x8192, .f32⟩
  | .hbm, ⟨36, _⟩ => ⟨S1x1x8192x8192, .f32⟩
  | .hbm, ⟨37, _⟩ => ⟨S1x1x8192x8192, .f32⟩
  | .hbm, ⟨38, _⟩ => ⟨S1x1x8192x8192, .f32⟩
  | .hbm, ⟨39, _⟩ => ⟨S_, .f32⟩
  | .hbm, ⟨40, _⟩ => ⟨S1x1x8192, .f32⟩
  | .hbm, ⟨41, _⟩ => ⟨S1x1x8192x1, .f32⟩
  | .hbm, ⟨42, _⟩ => ⟨S1x1x8192x8192, .f32⟩
  | .hbm, ⟨43, _⟩ => ⟨S1x1x8192x8192, .f32⟩
  | .hbm, ⟨44, _⟩ => ⟨S1x1x8192x8192, .f32⟩
  | .hbm, ⟨45, _⟩ => ⟨S_, .f32⟩
  | .hbm, ⟨46, _⟩ => ⟨S1x1x8192, .f32⟩
  | .hbm, ⟨47, _⟩ => ⟨S1x1x8192, .f32⟩
  | .hbm, ⟨48, _⟩ => ⟨S1x1x8192x8192, .f32⟩
  | .hbm, ⟨49, _⟩ => ⟨S1x1x1x8192, .f32⟩
  | .hbm, ⟨50, _⟩ => ⟨S1x1x8192x8192, .f32⟩
  | .hbm, ⟨51, _⟩ => ⟨S1x1x8192x8192, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | _, _ => ⟨S1x1x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_1 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_2 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_3 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_4 : Ref sig .tc := ⟨.hbm, 52, rfl⟩
abbrev main_v41 : Ref sig .tc := ⟨.hbm, 53, rfl⟩
abbrev main_cst_5 : Ref sig .tc := ⟨.hbm, 54, rfl⟩
abbrev main_v42 : Ref sig .tc := ⟨.hbm, 55, rfl⟩
abbrev main_cst_6 : Ref sig .tc := ⟨.hbm, 56, rfl⟩
abbrev main_v43 : Ref sig .tc := ⟨.hbm, 57, rfl⟩

abbrev nD : Nat := 1
abbrev τ : Topo := Topo.v7x

variable {F : FTy → Type} [FloatOps F]

class Facts₀ : Prop where
  bcast_S_S1x1x8192x64 : S_.BroadcastsInDim S1x1x8192x64 (![] : Fin 0 → Fin S1x1x8192x64.rank)
  reducesTo_S1x1x8192x64_S1x1x8192_d3 : S1x1x8192x64.ReducesTo [3] S1x1x8192
  h_S_ : 0 < S_.numel
  bcast_S1x1x8192_S1x1x8192x1_0_1_2 : S1x1x8192.BroadcastsInDim S1x1x8192x1 (![0, 1, 2] : Fin 3 → Fin S1x1x8192x1.rank)
  bcast_S_S8192x8192 : S_.BroadcastsInDim S8192x8192 (![] : Fin 0 → Fin S8192x8192.rank)
  transposes_S1x1x8192x1_S1x1x1x8192_0_1_3_2 : S1x1x8192x1.Transposes [0, 1, 3, 2] S1x1x1x8192
  shapeCasts_S1x1x8192x1_S8192x1 : S1x1x8192x1.ShapeCasts S8192x1
  shapeCasts_S1x1x1x8192_S1x8192 : S1x1x1x8192.ShapeCasts S1x8192
  bcast_S8192x8192_S1x1x8192x8192_2_3 : S8192x8192.BroadcastsInDim S1x1x8192x8192 (![2, 3] : Fin 2 → Fin S1x1x8192x8192.rank)
  reducesTo_S1x1x8192x8192_S1x1x8192_d3 : S1x1x8192x8192.ReducesTo [3] S1x1x8192
  bcast_S1x1x8192x1_S1x1x8192x8192_0_1_2_3 : S1x1x8192x1.BroadcastsInDim S1x1x8192x8192 (![0, 1, 2, 3] : Fin 4 → Fin S1x1x8192x8192.rank)
  bcast_S1x1x8192_S1x1x1x8192_1_2_3 : S1x1x8192.BroadcastsInDim S1x1x1x8192 (![1, 2, 3] : Fin 3 → Fin S1x1x1x8192.rank)
  bcast_S1x1x1x8192_S1x1x8192x8192_0_1_2_3 : S1x1x1x8192.BroadcastsInDim S1x1x8192x8192 (![0, 1, 2, 3] : Fin 4 → Fin S1x1x8192x8192.rank)
  reducesTo_S1x1x8192x8192_S_d0_1_2_3 : S1x1x8192x8192.ReducesTo [0, 1, 2, 3] S_
  dot_S1x1x8192x64_S1x1x8192x64_S1x1x8192x8192_3_3_2_2_01_01_wf : DotDims.WF S1x1x8192x64 S1x1x8192x64 S1x1x8192x8192 [3] [3] [2] [2] [0, 1] [0, 1]
  dot_S8192x1_S1x8192_S8192x8192_1_0_0_1_n_n_wf : DotDims.WF S8192x1 S1x8192 S8192x8192 [1] [0] [0] [1] [] []

variable [Facts₀]

def dot_S1x1x8192x64_S1x1x8192x64_S1x1x8192x8192_3_3_2_2_01_01 : DotDims S1x1x8192x64 S1x1x8192x64 S1x1x8192x8192 where
  lhsContracting := [3]
  rhsContracting := [3]
  lhsNonContracting := [2]
  rhsNonContracting := [2]
  lhsBatch := [0, 1]
  rhsBatch := [0, 1]
  wf := dot_S1x1x8192x64_S1x1x8192x64_S1x1x8192x8192_3_3_2_2_01_01_wf
def dot_S8192x1_S1x8192_S8192x8192_1_0_0_1_n_n : DotDims S8192x1 S1x8192 S8192x8192 where
  lhsContracting := [1]
  rhsContracting := [0]
  lhsNonContracting := [0]
  rhsNonContracting := [1]
  lhsBatch := []
  rhsBatch := []
  wf := dot_S8192x1_S1x8192_S8192x8192_1_0_0_1_n_n_wf

class Facts : Prop extends Facts₀ where

variable [Facts]
-- ==== Proof.BFrame0Base.lean ====
/-
  The first pallas_call (the pairwise-product / running log-sum-exp kernel, grid 8 × 8): what its runs share.
  A point (i, k) reads row block i of the scaled inputs twice over (as the query rows and, at block k, as the key
  rows) and the squared norms of block i; two scratch columns carry the running maximum and the running sum along
  k; the output block is stored only at k = 7. Here: each window's block at a point as the region finds the
  arrays, the two branch conditions in closed form over the grid, and where the output window is idle.
-/
import proofs.«118869_j12807592476698_2_alg».proof.Proof.Gen.Kernel.Launch
import proofs.«118869_j12807592476698_2_alg».proof.Proof.Gen.Kernel.Skeleton
import proofs.«118869_j12807592476698_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
-- the buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

end

/-! ## The body's two branch conditions -/

/-- The first branch (reset the running maximum and sum) is taken where the key-block coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- The second branch (store the block's log-sum-exp) is taken where the key-block coordinate is 7. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from the last key block the output window is idle and not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

/-! ## The memrefs the body is called with -/

abbrev VO0_3 : View sig .tc .vmem S1024x1 .f32 := (Memref.whole cc0_stg3_0 : Memref sig .tc .vmem S1024x1 .f32).view
abbrev ms0_0 (t : Fin cfg0.N) : Memref sig .tc .vmem S1024x64 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x64 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1 .f32 := win0_3.stage (cfg0.slots t 3)
abbrev hs0_3 (t : Fin cfg0.N) : (ms0_3 t).IsWhole := hstage0_3 ((cfg0.slots t 3).cast nbuf0_3)
/-- The two scratch columns: the running maximum and the running sum. -/
abbrev scM0_0 : Memref sig .tc .vmem S1024x1 .f32 := Memref.whole cc0_scratch0
abbrev scM0_1 : Memref sig .tc .vmem S1024x1 .f32 := Memref.whole cc0_scratch1
abbrev VS0_0 : View sig .tc .vmem S1024x1 .f32 := scM0_0.view
abbrev VS0_1 : View sig .tc .vmem S1024x1 .f32 := scM0_1.view

/-- The scoped buffers the first kernel never names: the second kernel's five staging buffers, each at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f))

/-- The region's invariant with the two scratch columns as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ rest0 c) ∗ (∃ r, prngReg c r)) := by
  unfold Pipeline.ΦA rest0; rw [scopedRest0_eq]; simp only [scM0_0, scM0_1, owns_whole]; try rfl

end Cert.Kernel.Hand

end
-- ==== Proof.BFrame0Runs.lean ====
/-
  The first kernel's body, run once per control case on whole staging memrefs: the case's stores into the output
  block and into the two scratch columns are found by the run itself, as lists of pieces.
  Case A: key block 0 (the scratch columns are reset first, so what they held before is not read).
  Case B: key blocks 1 to 6 (the scratch columns hold what the point before left).
  Case C: key block 7 (as B, and the output block is stored).
-/
import proofs.«118869_j12807592476698_2_alg».proof.Proof.BFrame0Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun0_A (c : Dev nD) (i : grid0.Coords) (arg2 : Memref sig .tc .vmem S1024x64 .bf16) (harg2 : arg2.IsWhole) (arg3 : Memref sig .tc .vmem S1024x64 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i)
    (x0 : Vec F S1024x64 .bf16) (x1 : Vec F S1024x64 .bf16) (x2 : Vec F S1024x1 .f32) :
    Σ' (L3 : List (View.Piece (Elt F) S1024x1 .f32)) (LS0 : List (View.Piece (Elt F) S1024x1 .f32)), { LS1 : List (View.Piece (Elt F) S1024x1 .f32) //
      ∀ (xi3 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__dot_lse_kernel i arg2 harg2 arg3 harg3 arg4 harg4 arg5 harg5 arg6 harg6 arg7 harg7) K } := by
  refine ⟨[], ?_, ?_, fun xi3 E K => ?run⟩
  case run =>
    simp only [cc0__dot_lse_kernel_eq_skeleton]; unfold cc0__dot_lse_kernel_skel
    simp only [k0_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

set_option maxHeartbeats 4000000 in
noncomputable def kernelRun0_B (c : Dev nD) (i : grid0.Coords) (arg2 : Memref sig .tc .vmem S1024x64 .bf16) (harg2 : arg2.IsWhole) (arg3 : Memref sig .tc .vmem S1024x64 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i)
    (x0 : Vec F S1024x64 .bf16) (x1 : Vec F S1024x64 .bf16) (x2 : Vec F S1024x1 .f32) (xs0 : Vec F S1024x1 .f32) (xs1 : Vec F S1024x1 .f32) :
    Σ' (L3 : List (View.Piece (Elt F) S1024x1 .f32)) (LS0 : List (View.Piece (Elt F) S1024x1 .f32)), { LS1 : List (View.Piece (Elt F) S1024x1 .f32) //
      ∀ (xi3 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__dot_lse_kernel i arg2 harg2 arg3 harg3 arg4 harg4 arg5 harg5 arg6 harg6 arg7 harg7) K } := by
  refine ⟨[], ?_, ?_, fun xi3 E K => ?run⟩
  case run =>
    simp only [cc0__dot_lse_kernel_eq_skeleton]; unfold cc0__dot_lse_kernel_skel
    simp only [k0_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

set_option maxHeartbeats 4000000 in
noncomputable def kernelRun0_C (c : Dev nD) (i : grid0.Coords) (arg2 : Memref sig .tc .vmem S1024x64 .bf16) (harg2 : arg2.IsWhole) (arg3 : Memref sig .tc .vmem S1024x64 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 : Vec F S1024x64 .bf16) (x1 : Vec F S1024x64 .bf16) (x2 : Vec F S1024x1 .f32) (xs0 : Vec F S1024x1 .f32) (xs1 : Vec F S1024x1 .f32) :
    Σ' (L3 : List (View.Piece (Elt F) S1024x1 .f32)) (LS0 : List (View.Piece (Elt F) S1024x1 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__dot_lse_kernel i arg2 harg2 arg3 harg3 arg4 harg4 arg5 harg5 arg6 harg6 arg7 harg7) K } := by
  refine ⟨?_, ?_, ?_, fun E K => ?run⟩
  case run =>
    simp only [cc0__dot_lse_kernel_eq_skeleton]; unfold cc0__dot_lse_kernel_skel
    simp only [k0_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    iexists _; iexact HS1

end Cert.Kernel.Hand

end
-- ==== Proof.BFrame0.lean ====
/-
  The first pallas_call: what its output block and its two scratch columns hold after each grid point, the proof
  data, and the body obligation.
  Points run (i, k) with k fastest. At k = 0 the scratch columns are reset inside the body before they are read, so
  the point's result does not depend on what they held; at k > 0 they hold what the point before left. The output
  block is stored at k = 7 only; elsewhere its staging buffer is handed back untouched.
-/
import proofs.«118869_j12807592476698_2_alg».proof.Proof.BFrame0Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## What one point leaves, per case: (the output block's buffer, the running maximum, the running sum) -/

/-- A point with k = 0. -/
def stA (c : Dev nD) (t : Fin cfg0.N) (h0 : t.val % 8 = 0) (h1 : ¬t.val % 8 = 7) : (Vec F S1024x1 .f32 × Vec F S1024x1 .f32 × Vec F S1024x1 .f32) :=
  (VO0_3.read (Elt F) (VO0_3.writes (Elt F) VO0_3.junk (kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk0 V c 0 t) (iblk0 V c 1 t) (iblk0 V c 2 t)).1), VS0_0.read (Elt F) (VS0_0.writes (Elt F) VS0_0.junk (kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk0 V c 0 t) (iblk0 V c 1 t) (iblk0 V c 2 t)).2.1), VS0_1.read (Elt F) (VS0_1.writes (Elt F) VS0_1.junk (kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk0 V c 0 t) (iblk0 V c 1 t) (iblk0 V c 2 t)).2.2.1))

/-- A point with 0 < k < 7, from the scratch columns the point before left. -/
def stB (c : Dev nD) (t : Fin cfg0.N) (h0 : ¬t.val % 8 = 0) (h1 : ¬t.val % 8 = 7) (xs0 xs1 : Vec F S1024x1 .f32) : (Vec F S1024x1 .f32 × Vec F S1024x1 .f32 × Vec F S1024x1 .f32) :=
  (VO0_3.read (Elt F) (VO0_3.writes (Elt F) VO0_3.junk (kernelRun0_B c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) xs0 xs1).1), VS0_0.read (Elt F) (VS0_0.writes (Elt F) VS0_0.junk (kernelRun0_B c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) xs0 xs1).2.1), VS0_1.read (Elt F) (VS0_1.writes (Elt F) VS0_1.junk (kernelRun0_B c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) xs0 xs1).2.2.1))

/-- A point with k = 7, from the scratch columns the point before left. -/
def stC (c : Dev nD) (t : Fin cfg0.N) (h0 : ¬t.val % 8 = 0) (h1 : t.val % 8 = 7) (xs0 xs1 : Vec F S1024x1 .f32) : (Vec F S1024x1 .f32 × Vec F S1024x1 .f32 × Vec F S1024x1 .f32) :=
  (VO0_3.read (Elt F) (VO0_3.writes (Elt F) VO0_3.junk (kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (iblk0 V c 2 t) xs0 xs1).1), VS0_0.read (Elt F) (VS0_0.writes (Elt F) VS0_0.junk (kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (iblk0 V c 2 t) xs0 xs1).2.1), VS0_1.read (Elt F) (VS0_1.writes (Elt F) VS0_1.junk (kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (iblk0 V c 2 t) xs0 xs1).2.2.1))

/-! ## The stores of each case cover the buffers they are read back from -/

theorem scoverA_0 (c : Dev nD) (t : Fin cfg0.N) (h0 : t.val % 8 = 0) (h1 : ¬t.val % 8 = 7) (y : S1024x1.Idx) :
    ∃ pc ∈ (kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk0 V c 0 t) (iblk0 V c 1 t) (iblk0 V c 2 t)).2.1, y ∈ pc.1.set :=
  View.cover_of_tiledL (kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk0 V c 0 t) (iblk0 V c 1 t) (iblk0 V c 2 t)).2.1 S1024x1.size (by sl_kernel_rfl) y
theorem scoverA_1 (c : Dev nD) (t : Fin cfg0.N) (h0 : t.val % 8 = 0) (h1 : ¬t.val % 8 = 7) (y : S1024x1.Idx) :
    ∃ pc ∈ (kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk0 V c 0 t) (iblk0 V c 1 t) (iblk0 V c 2 t)).2.2.1, y ∈ pc.1.set :=
  View.cover_of_tiledL (kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk0 V c 0 t) (iblk0 V c 1 t) (iblk0 V c 2 t)).2.2.1 S1024x1.size (by sl_kernel_rfl) y
theorem scoverB_0 (c : Dev nD) (t : Fin cfg0.N) (h0 : ¬t.val % 8 = 0) (h1 : ¬t.val % 8 = 7) (xs0 xs1 : Vec F S1024x1 .f32) (y : S1024x1.Idx) :
    ∃ pc ∈ (kernelRun0_B c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) xs0 xs1).2.1, y ∈ pc.1.set :=
  View.cover_of_tiledL (kernelRun0_B c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) xs0 xs1).2.1 S1024x1.size (by sl_kernel_rfl) y
theorem scoverB_1 (c : Dev nD) (t : Fin cfg0.N) (h0 : ¬t.val % 8 = 0) (h1 : ¬t.val % 8 = 7) (xs0 xs1 : Vec F S1024x1 .f32) (y : S1024x1.Idx) :
    ∃ pc ∈ (kernelRun0_B c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) xs0 xs1).2.2.1, y ∈ pc.1.set :=
  View.cover_of_tiledL (kernelRun0_B c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) xs0 xs1).2.2.1 S1024x1.size (by sl_kernel_rfl) y
theorem scoverC_0 (c : Dev nD) (t : Fin cfg0.N) (h0 : ¬t.val % 8 = 0) (h1 : t.val % 8 = 7) (xs0 xs1 : Vec F S1024x1 .f32) (y : S1024x1.Idx) :
    ∃ pc ∈ (kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (iblk0 V c 2 t) xs0 xs1).2.1, y ∈ pc.1.set :=
  View.cover_of_tiledL (kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (iblk0 V c 2 t) xs0 xs1).2.1 S1024x1.size (by sl_kernel_rfl) y
theorem scoverC_1 (c : Dev nD) (t : Fin cfg0.N) (h0 : ¬t.val % 8 = 0) (h1 : t.val % 8 = 7) (xs0 xs1 : Vec F S1024x1 .f32) (y : S1024x1.Idx) :
    ∃ pc ∈ (kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (iblk0 V c 2 t) xs0 xs1).2.2.1, y ∈ pc.1.set :=
  View.cover_of_tiledL (kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (iblk0 V c 2 t) xs0 xs1).2.2.1 S1024x1.size (by sl_kernel_rfl) y
theorem coverC_3 (c : Dev nD) (t : Fin cfg0.N) (h0 : ¬t.val % 8 = 0) (h1 : t.val % 8 = 7) (xs0 xs1 : Vec F S1024x1 .f32) (y : S1024x1.Idx) :
    ∃ pc ∈ (kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (iblk0 V c 2 t) xs0 xs1).1, y ∈ pc.1.set :=
  View.cover_of_tiledL (kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (iblk0 V c 2 t) xs0 xs1).1 S1024x1.size (by sl_kernel_rfl) y

/-! ## What the buffers hold after each point -/

/-- After the point at position `n`: the case the position selects, a later point of a row of blocks run from the
    scratch columns the position before left. -/
def outsAt0 (c : Dev nD) : (n : ℕ) → n < cfg0.N → (Vec F S1024x1 .f32 × Vec F S1024x1 .f32 × Vec F S1024x1 .f32)
  | 0, hn => stA V c ⟨0, hn⟩ (Nat.zero_mod _) (by show ¬ (0 % 8 = 7); decide)
  | n + 1, hn =>
    if h0 : (n + 1) % 8 = 0 then
      if h1 : (n + 1) % 8 = 7 then False.elim (by omega)
      else stA V c ⟨n + 1, hn⟩ h0 h1
    else
      if h1 : (n + 1) % 8 = 7 then
        stC V c ⟨n + 1, hn⟩ h0 h1 (outsAt0 c n (Nat.lt_of_succ_lt hn)).2.1 (outsAt0 c n (Nat.lt_of_succ_lt hn)).2.2
      else
        stB V c ⟨n + 1, hn⟩ h0 h1 (outsAt0 c n (Nat.lt_of_succ_lt hn)).2.1 (outsAt0 c n (Nat.lt_of_succ_lt hn)).2.2

theorem outsAt0_A (c : Dev nD) (t : Fin cfg0.N) (h0 : t.val % 8 = 0) (h1 : ¬t.val % 8 = 7) :
    outsAt0 V c t.val t.isLt = stA V c t h0 h1 := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 V c t.val t.isLt = stB V c t h0 h1 (outsAt0 V c (t.val - 1) (Nat.lt_of_le_of_lt (Nat.sub_le _ _) t.isLt)).2.1
      (outsAt0 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 V c t.val t.isLt = stC V c t h0 h1 (outsAt0 V c (t.val - 1) (Nat.lt_of_le_of_lt (Nat.sub_le _ _) t.isLt)).2.1
      (outsAt0 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: at the start the scratch columns hold anything; afterwards they hold
    what the position before left. The second kernel's staging buffers and the generator register ride along. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.1) ∗ owns (c : Thread nD τ) scM0_1 fullShare ((outsAt0 V c n hn).2.2) ∗ rest0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.1) ∗ owns (c : Thread nD τ) scM0_1 fullShare ((outsAt0 V c n hn).2.2) ∗ rest0 c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.1) ∗ owns (c : Thread nD τ) scM0_1 fullShare ((outsAt0 V c (n - 1) (by omega)).2.2) ∗ rest0 c) ∗ (∃ r, prngReg c r)) := by
  cases n with
  | zero => exact absurd rfl hz
  | succ n => rfl

/-! ## The proof data -/

/-- The arrays as the region finds them; the inputs' buffers at their blocks, the output's at `outsAt0`; the two
    windows on the one scaled-input array each hold half of it. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS V c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

theorem leaves_in0 (c : Dev nD) (t : Fin cfg0.N) : (dat0 V c).leavesExact 0 t = owns (c : Thread nD τ) (ms0_0 t) fullShare (iblk0 V c 0 t) := by
  unfold Dat.leavesExact; rw [liveAt0_0 t, after0_0]
theorem leaves_in1 (c : Dev nD) (t : Fin cfg0.N) : (dat0 V c).leavesExact 1 t = owns (c : Thread nD τ) (ms0_1 t) fullShare (iblk0 V c 1 t) := by
  unfold Dat.leavesExact; rw [liveAt0_1 t, after0_1]
theorem leaves_in2 (c : Dev nD) (t : Fin cfg0.N) : (dat0 V c).leavesExact 2 t = owns (c : Thread nD τ) (ms0_2 t) fullShare (iblk0 V c 2 t) := by
  unfold Dat.leavesExact; rw [liveAt0_2 t, after0_2]

set_option maxHeartbeats 4800000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  rw [leaves_in0, leaves_in1, leaves_in2]
  have hN : t.val < 64 := lt_of_lt_of_eq t.isLt (show cfg0.N = 64 from N_0)
  by_cases h0 : t.val % 8 = 0
  · have h1 : ¬ t.val % 8 = 7 := by omega
    rw [Dat.leavesExact_idle (dat0 V c) 3 t (idleAt0_3 t (fun h => h1 ((hcond0_1 t).mp h))) (noFlush0_3 t (fun h => h1 ((hcond0_1 t).mp h)))]
    rw [outsAt0_A V c t h0 h1]
    unfold stA; (try dsimp only)
    have hΦ : (dat0 V c).Φ t.castSucc ⊢ (iprop(iprop((∃ d, owns (c : Thread nD τ) scM0_0 fullShare d) ∗ (∃ d, owns (c : Thread nD τ) scM0_1 fullShare d) ∗ rest0 c) ∗ (∃ r, prngReg c r)) : sProp 𝕄) := by
      rw [PhiS_castSucc V c t]
      by_cases hz : t.val = 0
      · rw [PhiS_zero V c _ _ hz, PhiA0_eq]
      · rw [PhiS_pos V c _ _ hz]
        iintro ⟨⟨HS0, HS1, Hr⟩, Hg⟩
        isplitl [HS0 HS1 Hr]
        · isplitl [HS0]; · iexists _; iexact HS0
          isplitl [HS1]; · iexists _; iexact HS1
          iexact Hr
        iexact Hg
    iintro ⟨HΦ, Ho, ⟨%d0, H0⟩, ⟨%d1, H1⟩, ⟨%d2, H2⟩, ⟨%d3, H3⟩⟩
    ihave HΦ' := hΦ $$ HΦ
    icases HΦ' with ⟨⟨HS0, HS1, Hr⟩, Hg⟩
    iapply ((kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk0 V c 0 t) (iblk0 V c 1 t) (iblk0 V c 2 t)).2.2.2 _ Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, ⟨%es0, HS0⟩, ⟨%es1, HS1⟩⟩
    isplitl [HS0 HS1 Hr Hg]
    · isplitl [HS0 HS1 Hr]
      · isplitl [HS0]
        · unfold owns; iexists _; isplitr
          swap; · iexact HS0
          ipureintro; exact View.read_writes_of_cover _ _ _ _ _ (scoverA_0 V c t h0 h1)
        isplitl [HS1]
        · unfold owns; iexists _; isplitr
          swap; · iexact HS1
          ipureintro; exact View.read_writes_of_cover _ _ _ _ _ (scoverA_1 V c t h0 h1)
        iexact Hr
      iexact Hg
    isplitl [Ho]; · iexact Ho
    isplitl [H0]; · iexact H0
    isplitl [H1]; · iexact H1
    isplitl [H2]; · iexact H2
    iexists _; iexact H3
  · have hz : t.val ≠ 0 := fun e => h0 (by rw [e])
    by_cases h1 : t.val % 8 = 7
    · rw [show (dat0 V c).leavesExact 3 t = owns (c : Thread nD τ) (ms0_3 t) fullShare ((dat0 V c).after 3 t) from by
        unfold Dat.leavesExact; rw [liveAt0_3 t ((hcond0_1 t).mpr h1)], after0_3]
      rw [outsAt0_C V c t h0 h1]
      unfold stC; (try dsimp only)
      rw [PhiS_castSucc V c t, PhiS_pos V c _ _ hz]
      iintro ⟨⟨⟨HS0, HS1, Hr⟩, Hg⟩, Ho, ⟨%d0, H0⟩, ⟨%d1, H1⟩, ⟨%d2, H2⟩, ⟨%d3, H3⟩⟩
      iapply ((kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (iblk0 V c 2 t) _ _).2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, ⟨%e3, H3⟩, ⟨%es0, HS0⟩, ⟨%es1, HS1⟩⟩
      isplitl [HS0 HS1 Hr Hg]
      · isplitl [HS0 HS1 Hr]
        · isplitl [HS0]
          · unfold owns; iexists _; isplitr
            swap; · iexact HS0
            ipureintro; exact View.read_writes_of_cover _ _ _ _ _ (scoverC_0 V c t h0 h1 _ _)
          isplitl [HS1]
          · unfold owns; iexists _; isplitr
            swap; · iexact HS1
            ipureintro; exact View.read_writes_of_cover _ _ _ _ _ (scoverC_1 V c t h0 h1 _ _)
          iexact Hr
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverC_3 V c t h0 h1 _ _)
    · rw [Dat.leavesExact_idle (dat0 V c) 3 t (idleAt0_3 t (fun h => h1 ((hcond0_1 t).mp h))) (noFlush0_3 t (fun h => h1 ((hcond0_1 t).mp h)))]
      rw [outsAt0_B V c t h0 h1]
      unfold stB; (try dsimp only)
      rw [PhiS_castSucc V c t, PhiS_pos V c _ _ hz]
      iintro ⟨⟨⟨HS0, HS1, Hr⟩, Hg⟩, Ho, ⟨%d0, H0⟩, ⟨%d1, H1⟩, ⟨%d2, H2⟩, ⟨%d3, H3⟩⟩
      iapply ((kernelRun0_B c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) _ _).2.2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hr Hg]
      · isplitl [HS0 HS1 Hr]
        · isplitl [HS0]
          · unfold owns; iexists _; isplitr
            swap; · iexact HS0
            ipureintro; exact View.read_writes_of_cover _ _ _ _ _ (scoverB_0 V c t h0 h1 _ _)
          isplitl [HS1]
          · unfold owns; iexists _; isplitr
            swap; · iexact HS1
            ipureintro; exact View.read_writes_of_cover _ _ _ _ _ (scoverB_1 V c t h0 h1 _ _)
          iexact Hr
        iexact Hg
      isplitl [Ho]; · iexact Ho
      isplitl [H0]; · iexact H0
      isplitl [H1]; · iexact H1
      isplitl [H2]; · iexact H2
      iexists _; iexact H3

theorem body_obligation0 (c : Dev nD) : BodyObligation (dat0 (F := F) V c) (defs₀ (F := F)) Variants.none () Set.univ := fun t => by
  rw [bigSep_W0, bigSep_W0]
  exact sound_body V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives it back: the scratch columns' contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 64 := N_0; omega
  rw [show (dat0 V c).Φ (Fin.last cfg0.N) = PhiS V c (Fin.last cfg0.N).val (Nat.le_of_lt_succ (Fin.last cfg0.N).isLt) from rfl, PhiS_pos V c _ _ ht, PhiA0_eq]
  iintro ⟨⟨HS0, HS1, Hr⟩, Hg⟩
  isplitl [HS0 HS1 Hr]
  · isplitl [HS0]; · iexists _; iexact HS0
    isplitl [HS1]; · iexists _; iexact HS1
    iexact Hr
  iexact Hg

end

end Cert.Kernel.Hand

end
-- ==== Proof.BShare0.lean ====
/-
  The first kernel reads the scaled-input array through two windows (as query rows and as key rows). Each window
  holds half of that array; here: the three distinct buffers behind the four windows, each held whole, are the
  four windows' holdings — the shared buffer split into its two halves — and back.
-/
import proofs.«118869_j12807592476698_2_alg».proof.Proof.BFrame0Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem arrays_iff0 (c : Dev nD) (dat : Dat τ (Elt F) Unit ℕ (UR sig nD τ) ℕ cfg0 c)
    (hq0 : dat.q 0 = fullShare.left) (hq1 : dat.q 1 = fullShare.right) (hq2 : dat.q 2 = fullShare)
    (Vv : (b : Ref sig .tc) → Buf (Elt F) ((c : Thread nD τ).loc b))
    (Fa : (w : Fin cfg0.W) → Buf (Elt F) ((cfg0.win w).arr.view.loc (c : Thread nD τ)))
    (hF : ∀ w, Fa w = Vv (Pipeline.arrRef spec0 w)) :
    (Pipeline.arrBufs spec0 c Vv : sProp 𝕄) ⊣⊢ dat.arrays Fa := by
  unfold Pipeline.arrBufs Dat.arrays
  rw [bigSep_eq_bigSepL_of_eq [main_v5, main_v4, main_v6] (by decide) (by decide), bigSep_W0]
  rw [show (bigSepL [main_v5, main_v4, main_v6] fun b => (((c : Thread nD τ).loc b) ↦{fullShare} Vv b : sProp 𝕄))
      = iprop((((c : Thread nD τ).loc main_v5) ↦{fullShare} Vv main_v5) ∗ (((c : Thread nD τ).loc main_v4) ↦{fullShare} Vv main_v4) ∗ (((c : Thread nD τ).loc main_v6) ↦{fullShare} Vv main_v6)) from rfl]
  have s0 : dat.share 0 = fullShare.left := by unfold Dat.share; rw [hq0]; rfl
  have s1 : dat.share 1 = fullShare.right := by unfold Dat.share; rw [hq1]; rfl
  have s2 : dat.share 2 = fullShare := by unfold Dat.share; rw [hq2]; rfl
  have s3 : dat.share 3 = fullShare := by unfold Dat.share; rfl
  rw [s0, s1, s2, s3, (arr_whole0 0).set_eq_univ, (arr_whole0 2).set_eq_univ, (arr_whole0 3).set_eq_univ,
    hF 0, hF 1, hF 2, hF 3]
  constructor
  · iintro ⟨H5, H4, H6⟩
    ihave H := (pointsTo_share (PosShare.mem_left_op_right fullShare)).1 $$ H5
    icases H with ⟨Ha, Hb⟩
    isplitl [Ha]; · iexact Ha
    isplitl [Hb]; · iexact Hb
    isplitl [H4]; · iexact H4
    iexact H6
  · iintro ⟨Ha, Hb, H4, H6⟩
    isplitl [Ha Hb]
    · iapply (pointsTo_share (PosShare.mem_left_op_right fullShare)).2
      isplitl [Ha]; · iexact Ha
      iexact Hb
    isplitl [H4]; · iexact H4
    iexact H6

end Cert.Kernel.Hand

end
-- ==== Proof.BFrame1Runs.lean ====
/-
  The second pallas_call of the kernel program (custom_call 1, `cc1__ir_log_sum_kernel`, pipeline 1, a 16×16 grid),
  at ANY float instance: what its body does on whole staging buffers, in each case of its one conditional.

  The body keeps ONE output block, a 1×1 accumulator whose index never moves. Under the condition "both grid
  coordinates are 0" it first stores the zero block there; then, at every point, it reads the point's column block
  `a` (512×1) and row block `b` (1×512), reads the accumulator back, and stores the accumulator plus the sum, over the
  point's 512×512 tile, of the logarithms of the tile's entries (the payload `k1_pay2`). So there are two cases:
    A — the condition holds (the first point only): the accumulator read back is the zero block just stored;
    B — it does not (every later point): the accumulator read back is what the buffer held on entry.
  Nothing the body computes is transcribed: each case's run is stated over the pieces the body's stores leave in
  the output buffer, found by running it.
-/
import proofs.«118869_j12807592476698_2_alg».proof.Proof.Gen.Kernel.Launch
import proofs.«118869_j12807592476698_2_alg».proof.Proof.Gen.Kernel.Skeleton
import proofs.«118869_j12807592476698_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's branch condition -/

/-- The condition of the body's one conditional, from the grid coordinates: both coordinates are 0. -/
abbrev cond1_0 (i : grid1.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- It holds at the first point only — decided over the 256 points of the grid. -/
theorem hcond1_0 : ∀ t : Fin cfg1.N, cond1_0 (grid1.coords t) ↔ t.val % 256 = 0 :=
  (by decide +kernel : ∀ t : Fin grid1.N, cond1_0 (grid1.coords t) ↔ t.val % 256 = 0)

/-! ## The staging memrefs -/

/-- The output window's one staging buffer, through which its contents are stated. -/
abbrev VO1_2 : View sig .tc .vmem S1x1 .f32 := (Memref.whole cc1_stg2_0 : Memref sig .tc .vmem S1x1 .f32).view
/-- Each window's current staging memref at point `t`, spelled as the pipeline passes it, and its wholeness. -/
abbrev ms1_0 (t : Fin cfg1.N) : Memref sig .tc .vmem S512x1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1 .f32 := win1_2.stage (cfg1.slots t 2)
abbrev hs1_2 (t : Fin cfg1.N) : (ms1_2 t).IsWhole := hstage1_2 ((cfg1.slots t 2).cast nbuf1_2)

/-! ## The body in each case -/

set_option maxHeartbeats 1000000 in
/-- CASE A (the condition holds: the first point). On whole staging memrefs — the two inputs' at contents `x0`, `x1`,
    the output's at anything — the body runs to the continuation holding the inputs' as they were and the output's
    buffer with the body's stores written, as pieces, last first: the pieces are the witness. -/
noncomputable def kernelRun1_A (c : Dev nD) (i : grid1.Coords) (arg2 : Memref sig .tc .vmem S512x1 .f32) (harg2 : arg2.IsWhole) (arg3 : Memref sig .tc .vmem S1x512 .f32) (harg3 : arg3.IsWhole) (arg4 : Memref sig .tc .vmem S1x1 .f32) (harg4 : arg4.IsWhole) (hc0 : cond1_0 i)
    (x0 : Vec F S512x1 .f32) (x1 : Vec F S1x512 .f32) :
    { L2 : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc1__ir_log_sum_kernel i arg2 harg2 arg3 harg3 arg4 harg4) K } := by
  refine ⟨?_, fun E K => ?run⟩
  case run =>
    simp only [cc1__ir_log_sum_kernel_eq_skeleton]; unfold cc1__ir_log_sum_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

set_option maxHeartbeats 1000000 in
/-- CASE B (the condition fails: every later point). As case A, the output's buffer now at its running contents
    `xo`, which the body reads before it covers the block. -/
noncomputable def kernelRun1_B (c : Dev nD) (i : grid1.Coords) (arg2 : Memref sig .tc .vmem S512x1 .f32) (harg2 : arg2.IsWhole) (arg3 : Memref sig .tc .vmem S1x512 .f32) (harg3 : arg3.IsWhole) (arg4 : Memref sig .tc .vmem S1x1 .f32) (harg4 : arg4.IsWhole) (hc0 : ¬cond1_0 i)
    (x0 : Vec F S512x1 .f32) (x1 : Vec F S1x512 .f32) (xo2 : Vec F S1x1 .f32) :
    { L2 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc1__ir_log_sum_kernel i arg2 harg2 arg3 harg3 arg4 harg4) K } := by
  refine ⟨?_, fun E K => ?run⟩
  case run =>
    simp only [cc1__ir_log_sum_kernel_eq_skeleton]; unfold cc1__ir_log_sum_kernel_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Kernel.Hand

end
-- ==== Proof.BFrame1.lean ====
/-
  The second pallas_call of the kernel program (custom_call 1, `cc1__ir_log_sum_kernel`, pipeline 1, a 16×16 grid),
  at ANY float instance and at ANY contents `V` of the core's buffers when the region is entered: its proof data and
  its body obligation.

  The one output block is a 1×1 accumulator whose index never moves and which is written back after the last point
  only. So what its staging buffer holds after point `t` is defined by recursion on the point (`outsAt1`): at the
  first point what case A of the body leaves (the zero block stored, read back, and the first tile's sum of
  logarithms added); at every later point what case B leaves over the contents the point before left — the buffer
  is not written back in between, so the body finds there exactly what it left. The two inputs' buffers hold their
  blocks at every point, fetched there or not (an unfetched block's index has not moved). The body obligation is
  then a case split on the point: the first point runs case A, every other point case B.
-/
import proofs.«118869_j12807592476698_2_alg».proof.Proof.BFrame1Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Regions
-- the TensorCore's buffer contents when the region is entered: a parameter
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s and whose body leaves the block in place: the window is uncut and never idle, and
    where it is not fetched its index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for input window 1. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves in the output's buffer -/

/-- Case A's pieces tile the 1×1 block, so they cover it. -/
theorem cover1_A_2 (c : Dev nD) (i : grid1.Coords) (arg2 : Memref sig .tc .vmem S512x1 .f32) (harg2 : arg2.IsWhole) (arg3 : Memref sig .tc .vmem S1x512 .f32) (harg3 : arg3.IsWhole) (arg4 : Memref sig .tc .vmem S1x1 .f32) (harg4 : arg4.IsWhole) (hc0 : cond1_0 i)
    (x0 : Vec F S512x1 .f32) (x1 : Vec F S1x512 .f32) (y : S1x1.Idx) :
    ∃ pc ∈ (kernelRun1_A c i arg2 harg2 arg3 harg3 arg4 harg4 hc0 x0 x1).1, y ∈ pc.1.set :=
  View.cover_of_tiledL (kernelRun1_A c i arg2 harg2 arg3 harg3 arg4 harg4 hc0 x0 x1).1 S1x1.size (by sl_kernel_rfl) y

/-- What case A leaves in the output's staging buffer: its pieces read back (over anything: they cover). -/
def out1_A_2 (c : Dev nD) (i : grid1.Coords) (arg2 : Memref sig .tc .vmem S512x1 .f32) (harg2 : arg2.IsWhole) (arg3 : Memref sig .tc .vmem S1x512 .f32) (harg3 : arg3.IsWhole) (arg4 : Memref sig .tc .vmem S1x1 .f32) (harg4 : arg4.IsWhole) (hc0 : cond1_0 i)
    (x0 : Vec F S512x1 .f32) (x1 : Vec F S1x512 .f32) : Vec F S1x1 .f32 :=
  VO1_2.read (Elt F) (VO1_2.writes (Elt F) VO1_2.junk (kernelRun1_A c i arg2 harg2 arg3 harg3 arg4 harg4 hc0 x0 x1).1)

/-- Case B's pieces tile the 1×1 block, so they cover it. -/
theorem cover1_B_2 (c : Dev nD) (i : grid1.Coords) (arg2 : Memref sig .tc .vmem S512x1 .f32) (harg2 : arg2.IsWhole) (arg3 : Memref sig .tc .vmem S1x512 .f32) (harg3 : arg3.IsWhole) (arg4 : Memref sig .tc .vmem S1x1 .f32) (harg4 : arg4.IsWhole) (hc0 : ¬cond1_0 i)
    (x0 : Vec F S512x1 .f32) (x1 : Vec F S1x512 .f32) (xo2 : Vec F S1x1 .f32) (y : S1x1.Idx) :
    ∃ pc ∈ (kernelRun1_B c i arg2 harg2 arg3 harg3 arg4 harg4 hc0 x0 x1 xo2).1, y ∈ pc.1.set :=
  View.cover_of_tiledL (kernelRun1_B c i arg2 harg2 arg3 harg3 arg4 harg4 hc0 x0 x1 xo2).1 S1x1.size (by sl_kernel_rfl) y

/-- What case B leaves in the output's staging buffer. -/
def out1_B_2 (c : Dev nD) (i : grid1.Coords) (arg2 : Memref sig .tc .vmem S512x1 .f32) (harg2 : arg2.IsWhole) (arg3 : Memref sig .tc .vmem S1x512 .f32) (harg3 : arg3.IsWhole) (arg4 : Memref sig .tc .vmem S1x1 .f32) (harg4 : arg4.IsWhole) (hc0 : ¬cond1_0 i)
    (x0 : Vec F S512x1 .f32) (x1 : Vec F S1x512 .f32) (xo2 : Vec F S1x1 .f32) : Vec F S1x1 .f32 :=
  VO1_2.read (Elt F) (VO1_2.writes (Elt F) VO1_2.junk (kernelRun1_B c i arg2 harg2 arg3 harg3 arg4 harg4 hc0 x0 x1 xo2).1)

/-! ## What the output holds after each point -/

/-- THE ACCUMULATION. What the output's staging buffer holds after the body at position `n`: at the first point
    case A's contents; at a later point case B's, over what this leaves at `n - 1`. (The condition holds at no later
    point; the definition follows the closed form all the same.) -/
def outsAt1 (c : Dev nD) : (n : ℕ) → n < cfg1.N → Vec F S1x1 .f32
  | 0, hn => out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) ((hcond1_0 ⟨0, hn⟩).mpr (Nat.zero_mod _)) (iblk1 V c 0 ⟨0, hn⟩) (iblk1 V c 1 ⟨0, hn⟩)
  | n + 1, hn =>
    if h0 : (n + 1) % 256 = 0 then
      out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) ((hcond1_0 ⟨n + 1, hn⟩).mpr h0) (iblk1 V c 0 ⟨n + 1, hn⟩) (iblk1 V c 1 ⟨n + 1, hn⟩)
    else
      out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (fun h => h0 ((hcond1_0 ⟨n + 1, hn⟩).mp h)) (iblk1 V c 0 ⟨n + 1, hn⟩) (iblk1 V c 1 ⟨n + 1, hn⟩) (outsAt1 c n (Nat.lt_of_succ_lt hn))

/-- `outsAt1` at a point of case A: that case's contents. -/
theorem outsAt1_A (c : Dev nD) (t : Fin cfg1.N) (h0 : t.val % 256 = 0) :
    outsAt1 V c t.val t.isLt = out1_A_2 c (grid1.coords t) (ms1_0 t) (hs1_0 t) (ms1_1 t) (hs1_1 t) (ms1_2 t) (hs1_2 t) ((hcond1_0 t).mpr h0) (iblk1 V c 0 t) (iblk1 V c 1 t) := by
  obtain ⟨n, hn⟩ := t
  cases n with
  | zero => exact rfl
  | succ n => exact (dif_pos h0).trans rfl

/-- `outsAt1` at a point of case B: that case's contents, over what the point before left. -/
theorem outsAt1_B (c : Dev nD) (t : Fin cfg1.N) (h0 : ¬t.val % 256 = 0) :
    outsAt1 V c t.val t.isLt = out1_B_2 c (grid1.coords t) (ms1_0 t) (hs1_0 t) (ms1_1 t) (hs1_1 t) (ms1_2 t) (hs1_2 t) (fun h => h0 ((hcond1_0 t).mp h)) (iblk1 V c 0 t) (iblk1 V c 1 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 1 on core `c`: the arrays as the region finds them (`V`); after the body at point `t`
    each input's buffer at its block and the output's at `outsAt1`; the invariant the scoped rest and the generator
    register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => outsAt1 V c t.val t.isLt
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- The proof data's invariant, at every position. -/
theorem Phi_eq1 (c : Dev nD) (t : Fin (cfg1.N + 1)) : (dat1 V c).Φ t = Pipeline.ΦA spec1 c := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = outsAt1 V c t.val t.isLt := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
/-- At a point of case B the output's staging buffer holds what the body left at the point before: the point is not
    the first, the buffer was not written back in between (it is written back after the last point only), the
    window is live and uncut. -/
theorem before1_2_B (c : Dev nD) (t : Fin cfg1.N) (h0 : ¬t.val % 256 = 0) (d) :
    (dat1 V c).before 2 t d = outsAt1 V c (t.val - 1) (Nat.lt_of_le_of_lt (Nat.sub_le _ _) t.isLt) := by
  have hN : t.val < 256 := lt_of_lt_of_eq t.isLt (show cfg1.N = 256 from N_1)
  rw [Dat.before_out_kept _ 2 rfl t (by omega) (Bool.eq_false_iff.mpr fun h => by have := (flush1_2 _).mp h; dsimp only at this; omega)
    (fun _ => rfl) (fun _ _ => rfl)]
  dsimp only [dat1]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

set_option maxHeartbeats 800000 in
/-- The body at any point: the inputs' memrefs hold their blocks; the closed form says which case the point is in;
    in case B the output's buffer holds what the point before left; so that case's run applies; the invariant
    passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  have hN : t.val < 256 := lt_of_lt_of_eq t.isLt (show cfg1.N = 256 from N_1)
  by_cases h0 : t.val % 256 = 0
  · rw [outsAt1_A V c t h0]
    unfold out1_A_2
    iintro ⟨HΦ, Ho, ⟨%d0, H0⟩, ⟨%d1, H1⟩, ⟨%d2, H2⟩⟩
    iapply ((kernelRun1_A c (grid1.coords t) _ _ _ _ _ _ ((hcond1_0 t).mpr h0) (iblk1 V c 0 t) (iblk1 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover1_A_2 c _ _ _ _ _ _ _ _ _ _)
  · rw [outsAt1_B V c t h0]
    simp only [before1_2_B V c t h0]
    unfold out1_B_2
    iintro ⟨HΦ, Ho, ⟨%d0, H0⟩, ⟨%d1, H1⟩, ⟨%d2, H2⟩⟩
    iapply ((kernelRun1_B c (grid1.coords t) _ _ _ _ _ _ (fun h => h0 ((hcond1_0 t).mp h)) (iblk1 V c 0 t) (iblk1 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover1_B_2 c _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.Kernel.Hand

end
-- ==== Proof.BRun.lean ====
/-
  The whole program's run: three stretches of host operations, the first kernel, one host operation, the second
  kernel, the closing host operations. Between two items each core holds every unscoped buffer whole at known
  contents: the launch memory pushed through the host stretches, the first kernel's result array at what its
  write-backs leave, then the second kernel's. Every weakly fair execution terminates; the scalar result ends at the
  closing stretch's value over those contents, and the argument array is untouched.
-/
import proofs.«118869_j12807592476698_2_alg».proof.Proof.BFrame0
import proofs.«118869_j12807592476698_2_alg».proof.Proof.BShare0
import proofs.«118869_j12807592476698_2_alg».proof.Proof.BFrame1
import proofs.«118869_j12807592476698_2_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev W0 (c : Dev nD) : Valuation τ sig (Elt F) := fun b => m (c, b)
abbrev W1 (c : Dev nD) : Valuation τ sig (Elt F) := StableHlo.after hostOps0 (W0 m c)
abbrev W2 (c : Dev nD) : Valuation τ sig (Elt F) := StableHlo.after hostOps0_1 (W1 m c)
abbrev W3 (c : Dev nD) : Valuation τ sig (Elt F) := StableHlo.after hostOps0_2 (W2 m c)
/-- What the first kernel finds. -/
abbrev VA : (c : Dev nD) → (b : Ref sig .tc) → Buf (Elt F) ((c : Thread nD τ).loc b) := fun c b => W3 m c b
/-- The first kernel's result array after its write-backs. -/
def X6 (c : Dev nD) : Buf (Elt F) ((c : Thread nD τ).loc main_v6) := (dat0 (VA m) c).arrAt 3 cfg0.N
def W4 (c : Dev nD) : Valuation τ sig (Elt F) := Function.update (W3 m c) (Proc.devRef .tc main_v6) (X6 m c)
abbrev W5 (c : Dev nD) : Valuation τ sig (Elt F) := StableHlo.after hostOps1 (W4 m c)
/-- What the second kernel finds. -/
abbrev VB : (c : Dev nD) → (b : Ref sig .tc) → Buf (Elt F) ((c : Thread nD τ).loc b) := fun c b => W5 m c b
/-- The second kernel's result after its one write-back. -/
def X8 (c : Dev nD) : Buf (Elt F) ((c : Thread nD τ).loc main_v8) := (dat1 (VB m) c).arrAt 2 cfg1.N
def W6 (c : Dev nD) : Valuation τ sig (Elt F) := Function.update (W5 m c) (Proc.devRef .tc main_v8) (X8 m c)
abbrev W7 (c : Dev nD) : Valuation τ sig (Elt F) := StableHlo.after hostOps2 (W6 m c)

theorem W4_v6 (c : Dev nD) : W4 m c (Proc.devRef .tc main_v6) = X6 m c := by unfold W4; exact Function.update_self ..
theorem W4_of_ne (c : Dev nD) (b : Ref sig .tc) (hb : b ≠ main_v6) : W4 m c (Proc.devRef .tc b) = W3 m c (Proc.devRef .tc b) := by
  unfold W4; exact Function.update_of_ne (StableHlo.devRef_ne_of_ne hb) ..
theorem W6_v8 (c : Dev nD) : W6 m c (Proc.devRef .tc main_v8) = X8 m c := by unfold W6; exact Function.update_self ..
theorem W6_of_ne (c : Dev nD) (b : Ref sig .tc) (hb : b ≠ main_v8) : W6 m c (Proc.devRef .tc b) = W5 m c (Proc.devRef .tc b) := by
  unfold W6; exact Function.update_of_ne (StableHlo.devRef_ne_of_ne hb) ..

/-- No item writes the argument array. -/
theorem W7_main_arg0 (c : Dev nD) : W7 m c (Proc.devRef .tc main_arg0) = m ((c : Thread nD τ).loc main_arg0) :=
  (StableHlo.after_of_writes_sub hostOps2 _ hostOps2_writes (by decide : main_arg0 ∉ hostOps2_W)).trans <|
  (W6_of_ne m c main_arg0 (by decide)).trans <|
  (StableHlo.after_of_writes_sub hostOps1 _ hostOps1_writes (by decide : main_arg0 ∉ hostOps1_W)).trans <|
  (W4_of_ne m c main_arg0 (by decide)).trans <|
  (StableHlo.after_of_writes_sub hostOps0_2 _ hostOps0_2_writes (by decide : main_arg0 ∉ hostOps0_2_W)).trans <|
  (StableHlo.after_of_writes_sub hostOps0_1 _ hostOps0_1_writes (by decide : main_arg0 ∉ hostOps0_1_W)).trans <|
  (StableHlo.after_of_writes_sub hostOps0 _ hostOps0_writes (by decide : main_arg0 ∉ hostOps0_W)).trans rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (VA m) c
  | ⟨1, _⟩ => fun c => dat1 (VB m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W7 m c) ∗ ∃ r, prngReg c r)

/-! ## The two kernels as items -/

/-- The first kernel's arrays at exit: the inputs as entered, the result array at its write-backs. -/
theorem hF0 (c : Dev nD) (w : Fin cfg0.W) : (dat0 (VA m) c).arrAt w cfg0.N = W4 m c (Proc.devRef .tc (Pipeline.arrRef spec0 w)) :=
  match w with
  | ⟨0, _⟩ => (((dat0 (VA m) c).arrAt_in 0 rfl _).trans (A_eq0 (VA m) c 0)).trans (W4_of_ne m c main_v5 (by decide)).symm
  | ⟨1, _⟩ => (((dat0 (VA m) c).arrAt_in 1 rfl _).trans (A_eq0 (VA m) c 1)).trans (W4_of_ne m c main_v5 (by decide)).symm
  | ⟨2, _⟩ => (((dat0 (VA m) c).arrAt_in 2 rfl _).trans (A_eq0 (VA m) c 2)).trans (W4_of_ne m c main_v4 (by decide)).symm
  | ⟨3, _⟩ => (W4_v6 m c).symm

set_option backward.isDefEq.respectTransparency.types false in
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (VA m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    rw [Pipeline.ownSems0_none]
    have hub := Pipeline.unscopedBufs_split₀ (Ix := Unit) (Name := ℕ) (U := UR sig nD τ) (Lvl := ℕ) cfgs 0 winFacts₀0.arr_unscoped c (VA m c)
    rw [Pipeline.unscopedBufs_held] at hub
    have hsplit := (arrays_iff0 c (dat0 (VA m) c) rfl rfl rfl (VA m c) ((dat0 (VA m) c).arrAt · 0) (fun w => A_eq0 (VA m) c w)).1
    have hsp : (StableHlo.held (c : Thread nD τ) (Pipeline.ucRefs τ sig) (W3 m c) : sProp 𝕄)
        ⊢ iprop((dat0 (VA m) c).arrays ((dat0 (VA m) c).arrAt · 0) ∗ Pipeline.unscopedRest spec0 c (VA m c)) := by
      rw [hub]; exact sep_mono hsplit .rfl
    iintro ⟨⟨Hub, Hp, HO⟩, -, -⟩
    ihave H := hsp $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (VA m) c)
    unfold Pipeline.ΦA
    iintro ⟨Hp, -, Hr⟩
    isplitl [Hr]; · iexact Hr
    iexact Hp
  hout c := by
    rw [Pipeline.ownSems0_none]
    refine (hout0 (VA m) c).trans ?_
    unfold Pipeline.ΦA
    iintro ⟨Hr, Hp⟩
    isplitl [Hp]; · iexact Hp
    isplitr; · iempintro
    iexact Hr
  hexit c := by
    have hub := Pipeline.unscopedBufs_split₀ (Ix := Unit) (Name := ℕ) (U := UR sig nD τ) (Lvl := ℕ) cfgs 0 winFacts₀0.arr_unscoped c (fun b => W4 m c (Proc.devRef .tc b))
    rw [Pipeline.unscopedBufs_held] at hub
    have hjoin := (arrays_iff0 c (dat0 (VA m) c) rfl rfl rfl (fun b => W4 m c (Proc.devRef .tc b)) ((dat0 (VA m) c).arrAt · cfg0.N) (fun w => hF0 m c w)).2
    have hrest : (Pipeline.unscopedRest (Ix := Unit) (Name := ℕ) (U := UR sig nD τ) (Lvl := ℕ) spec0 c (VA m c) : sProp 𝕄)
        = Pipeline.unscopedRest spec0 c (fun b => W4 m c (Proc.devRef .tc b)) := by
      unfold Pipeline.unscopedRest
      exact bigSep_congr fun b hb => by
        have e := W4_of_ne m c b (fun e => (Finset.mem_sdiff.mp hb).2 (Finset.mem_image.mpr ⟨3, Finset.mem_univ _, e ▸ rfl⟩))
        show (((c : Thread nD τ).loc b) ↦{fullShare} W3 m c (Proc.devRef .tc b) : sProp 𝕄) = (((c : Thread nD τ).loc b) ↦{fullShare} W4 m c (Proc.devRef .tc b))
        rw [e]
    have hj : iprop((dat0 (VA m) c).arrays ((dat0 (VA m) c).arrAt · cfg0.N) ∗ Pipeline.unscopedRest (Ix := Unit) (Name := ℕ) (U := UR sig nD τ) (Lvl := ℕ) spec0 c (VA m c))
        ⊢ (StableHlo.held (c : Thread nD τ) (Pipeline.ucRefs τ sig) (W4 m c) : sProp 𝕄) := by
      rw [hub, hrest]; exact sep_mono hjoin .rfl
    iintro ⟨Ha, HO, HY, Hrest⟩
    imodintro
    isplitl [Ha Hrest]
    · iapply hj
      isplitl [Ha]; · iexact Ha
      iexact Hrest
    isplitl [HY]; · iexact HY
    unfold Pipeline.Dat.owesAt Pipeline.owesWithin
    icases HO with ⟨%W, -, HO⟩; iexists W; iexact HO

theorem hF1 (c : Dev nD) (w : Fin cfg1.W) : (dat1 (VB m) c).arrAt w cfg1.N = W6 m c (Proc.devRef .tc (Pipeline.arrRef spec1 w)) :=
  match w with
  | ⟨0, _⟩ => (((dat1 (VB m) c).arrAt_in 0 rfl _).trans (A_eq1 (VB m) c 0)).trans (W6_of_ne m c main_v3 (by decide)).symm
  | ⟨1, _⟩ => (((dat1 (VB m) c).arrAt_in 1 rfl _).trans (A_eq1 (VB m) c 1)).trans (W6_of_ne m c main_v7 (by decide)).symm
  | ⟨2, _⟩ => (W6_v8 m c).symm
theorem hrest1 (c : Dev nD) : ∀ b, b ∉ Finset.univ.image (Pipeline.arrRef spec1) → W6 m c (Proc.devRef .tc b) = VB m c b :=
  fun b hb => W6_of_ne m c b fun e => hb (Finset.mem_image.mpr ⟨2, Finset.mem_univ _, e ▸ rfl⟩)

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VB m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (VB m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VB m c) fun w => A_eq1 (VB m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from Phi_eq1 (VB m) c 0]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from Phi_eq1 (VB m) c _]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VB m c) (fun b => W6 m c (Proc.devRef .tc b)) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as items, and the launch -/

abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m),
    .host (hseg hostOps2 hostOps2_sub hostOps2_fresh (W6 m)) ]

theorem main_run (c : Dev nD) : main (F := F) c = Pipeline.Seg.run (segs m) := by
  rw [main_chain c, Pipeline.Seg.run_eq_chain]; rfl

set_option backward.isDefEq.respectTransparency.types false in
/-- Every weakly fair execution of the program terminates; the scalar result buffer ends at the closing host
    stretch's value over the two kernels' result arrays, and the argument array ends as launched. -/
theorem run_main : θ_run defs (onTc (τ := τ) (main (F := F))) ⟨m, fun _ => 0, ρ⟩ (fun r => ∀ c : Dev nD,
      r.2.mem ((c.tc : Thread nD τ).loc main_v13) = W7 m c (Proc.devRef .tc main_v13)
      ∧ r.2.mem ((c.tc : Thread nD τ).loc main_arg0) = m ((c.tc : Thread nD τ).loc main_arg0)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m c) ∗ R c) ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c =>
      ⟨h c _ (mem_uc main_v13 (by decide)), (h c _ (mem_uc main_arg0 (by decide))).trans (W7_main_arg0 m c)⟩)

end Cert.Kernel.Hand

end
-- ==== Proof.IFrame0Base.lean ====
/-
  The first pallas_call (the pairwise-product / running log-sum-exp kernel, grid 8 × 8): what its runs share.
  A point (i, k) reads row block i of the scaled inputs twice over (as the query rows and, at block k, as the key
  rows) and the squared norms of block i; two scratch columns carry the running maximum and the running sum along
  k; the output block is stored only at k = 7. Here: each window's block at a point as the region finds the
  arrays, the two branch conditions in closed form over the grid, and where the output window is idle.
-/
import proofs.«118869_j12807592476698_2_alg».proof.Proof.Gen.KernelIdeal.Launch
import proofs.«118869_j12807592476698_2_alg».proof.Proof.Gen.KernelIdeal.Skeleton
import proofs.«118869_j12807592476698_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
-- the buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

end

/-! ## The body's two branch conditions -/

/-- The first branch (reset the running maximum and sum) is taken where the key-block coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- The second branch (store the block's log-sum-exp) is taken where the key-block coordinate is 7. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from the last key block the output window is idle and not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

/-! ## The memrefs the body is called with -/

abbrev VO0_3 : View sig .tc .vmem S1024x1 .f32 := (Memref.whole cc0_stg3_0 : Memref sig .tc .vmem S1024x1 .f32).view
abbrev ms0_0 (t : Fin cfg0.N) : Memref sig .tc .vmem S1024x64 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x64 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1 .f32 := win0_3.stage (cfg0.slots t 3)
abbrev hs0_3 (t : Fin cfg0.N) : (ms0_3 t).IsWhole := hstage0_3 ((cfg0.slots t 3).cast nbuf0_3)
/-- The two scratch columns: the running maximum and the running sum. -/
abbrev scM0_0 : Memref sig .tc .vmem S1024x1 .f32 := Memref.whole cc0_scratch0
abbrev scM0_1 : Memref sig .tc .vmem S1024x1 .f32 := Memref.whole cc0_scratch1
abbrev VS0_0 : View sig .tc .vmem S1024x1 .f32 := scM0_0.view
abbrev VS0_1 : View sig .tc .vmem S1024x1 .f32 := scM0_1.view

/-- The scoped buffers the first kernel never names: the second kernel's five staging buffers, each at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f))

/-- The region's invariant with the two scratch columns as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ rest0 c) ∗ (∃ r, prngReg c r)) := by
  unfold Pipeline.ΦA rest0; rw [scopedRest0_eq]; simp only [scM0_0, scM0_1, owns_whole]; try rfl

end Cert.KernelIdeal.Hand

end
-- ==== Proof.IFrame0Runs.lean ====
/-
  The first kernel's body, run once per control case on whole staging memrefs: the case's stores into the output
  block and into the two scratch columns are found by the run itself, as lists of pieces.
  Case A: key block 0 (the scratch columns are reset first, so what they held before is not read).
  Case B: key blocks 1 to 6 (the scratch columns hold what the point before left).
  Case C: key block 7 (as B, and the output block is stored).
-/
import proofs.«118869_j12807592476698_2_alg».proof.Proof.IFrame0Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun0_A (c : Dev nD) (i : grid0.Coords) (arg2 : Memref sig .tc .vmem S1024x64 .bf16) (harg2 : arg2.IsWhole) (arg3 : Memref sig .tc .vmem S1024x64 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i)
    (x0 : Vec F S1024x64 .bf16) (x1 : Vec F S1024x64 .bf16) (x2 : Vec F S1024x1 .f32) :
    Σ' (L3 : List (View.Piece (Elt F) S1024x1 .f32)) (LS0 : List (View.Piece (Elt F) S1024x1 .f32)), { LS1 : List (View.Piece (Elt F) S1024x1 .f32) //
      ∀ (xi3 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__dot_lse_kernel i arg2 harg2 arg3 harg3 arg4 harg4 arg5 harg5 arg6 harg6 arg7 harg7) K } := by
  refine ⟨[], ?_, ?_, fun xi3 E K => ?run⟩
  case run =>
    simp only [cc0__dot_lse_kernel_eq_skeleton]; unfold cc0__dot_lse_kernel_skel
    simp only [k0_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

set_option maxHeartbeats 4000000 in
noncomputable def kernelRun0_B (c : Dev nD) (i : grid0.Coords) (arg2 : Memref sig .tc .vmem S1024x64 .bf16) (harg2 : arg2.IsWhole) (arg3 : Memref sig .tc .vmem S1024x64 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i)
    (x0 : Vec F S1024x64 .bf16) (x1 : Vec F S1024x64 .bf16) (x2 : Vec F S1024x1 .f32) (xs0 : Vec F S1024x1 .f32) (xs1 : Vec F S1024x1 .f32) :
    Σ' (L3 : List (View.Piece (Elt F) S1024x1 .f32)) (LS0 : List (View.Piece (Elt F) S1024x1 .f32)), { LS1 : List (View.Piece (Elt F) S1024x1 .f32) //
      ∀ (xi3 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__dot_lse_kernel i arg2 harg2 arg3 harg3 arg4 harg4 arg5 harg5 arg6 harg6 arg7 harg7) K } := by
  refine ⟨[], ?_, ?_, fun xi3 E K => ?run⟩
  case run =>
    simp only [cc0__dot_lse_kernel_eq_skeleton]; unfold cc0__dot_lse_kernel_skel
    simp only [k0_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

set_option maxHeartbeats 4000000 in
noncomputable def kernelRun0_C (c : Dev nD) (i : grid0.Coords) (arg2 : Memref sig .tc .vmem S1024x64 .bf16) (harg2 : arg2.IsWhole) (arg3 : Memref sig .tc .vmem S1024x64 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 : Vec F S1024x64 .bf16) (x1 : Vec F S1024x64 .bf16) (x2 : Vec F S1024x1 .f32) (xs0 : Vec F S1024x1 .f32) (xs1 : Vec F S1024x1 .f32) :
    Σ' (L3 : List (View.Piece (Elt F) S1024x1 .f32)) (LS0 : List (View.Piece (Elt F) S1024x1 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__dot_lse_kernel i arg2 harg2 arg3 harg3 arg4 harg4 arg5 harg5 arg6 harg6 arg7 harg7) K } := by
  refine ⟨?_, ?_, ?_, fun E K => ?run⟩
  case run =>
    simp only [cc0__dot_lse_kernel_eq_skeleton]; unfold cc0__dot_lse_kernel_skel
    simp only [k0_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    iexists _; iexact HS1

end Cert.KernelIdeal.Hand

end
-- ==== Proof.IFrame0.lean ====
/-
  The first pallas_call: what its output block and its two scratch columns hold after each grid point, the proof
  data, and the body obligation.
  Points run (i, k) with k fastest. At k = 0 the scratch columns are reset inside the body before they are read, so
  the point's result does not depend on what they held; at k > 0 they hold what the point before left. The output
  block is stored at k = 7 only; elsewhere its staging buffer is handed back untouched.
-/
import proofs.«118869_j12807592476698_2_alg».proof.Proof.IFrame0Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## What one point leaves, per case: (the output block's buffer, the running maximum, the running sum) -/

/-- A point with k = 0. -/
def stA (c : Dev nD) (t : Fin cfg0.N) (h0 : t.val % 8 = 0) (h1 : ¬t.val % 8 = 7) : (Vec F S1024x1 .f32 × Vec F S1024x1 .f32 × Vec F S1024x1 .f32) :=
  (VO0_3.read (Elt F) (VO0_3.writes (Elt F) VO0_3.junk (kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk0 V c 0 t) (iblk0 V c 1 t) (iblk0 V c 2 t)).1), VS0_0.read (Elt F) (VS0_0.writes (Elt F) VS0_0.junk (kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk0 V c 0 t) (iblk0 V c 1 t) (iblk0 V c 2 t)).2.1), VS0_1.read (Elt F) (VS0_1.writes (Elt F) VS0_1.junk (kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk0 V c 0 t) (iblk0 V c 1 t) (iblk0 V c 2 t)).2.2.1))

/-- A point with 0 < k < 7, from the scratch columns the point before left. -/
def stB (c : Dev nD) (t : Fin cfg0.N) (h0 : ¬t.val % 8 = 0) (h1 : ¬t.val % 8 = 7) (xs0 xs1 : Vec F S1024x1 .f32) : (Vec F S1024x1 .f32 × Vec F S1024x1 .f32 × Vec F S1024x1 .f32) :=
  (VO0_3.read (Elt F) (VO0_3.writes (Elt F) VO0_3.junk (kernelRun0_B c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) xs0 xs1).1), VS0_0.read (Elt F) (VS0_0.writes (Elt F) VS0_0.junk (kernelRun0_B c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) xs0 xs1).2.1), VS0_1.read (Elt F) (VS0_1.writes (Elt F) VS0_1.junk (kernelRun0_B c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) xs0 xs1).2.2.1))

/-- A point with k = 7, from the scratch columns the point before left. -/
def stC (c : Dev nD) (t : Fin cfg0.N) (h0 : ¬t.val % 8 = 0) (h1 : t.val % 8 = 7) (xs0 xs1 : Vec F S1024x1 .f32) : (Vec F S1024x1 .f32 × Vec F S1024x1 .f32 × Vec F S1024x1 .f32) :=
  (VO0_3.read (Elt F) (VO0_3.writes (Elt F) VO0_3.junk (kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (iblk0 V c 2 t) xs0 xs1).1), VS0_0.read (Elt F) (VS0_0.writes (Elt F) VS0_0.junk (kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (iblk0 V c 2 t) xs0 xs1).2.1), VS0_1.read (Elt F) (VS0_1.writes (Elt F) VS0_1.junk (kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (iblk0 V c 2 t) xs0 xs1).2.2.1))

/-! ## The stores of each case cover the buffers they are read back from -/

theorem scoverA_0 (c : Dev nD) (t : Fin cfg0.N) (h0 : t.val % 8 = 0) (h1 : ¬t.val % 8 = 7) (y : S1024x1.Idx) :
    ∃ pc ∈ (kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk0 V c 0 t) (iblk0 V c 1 t) (iblk0 V c 2 t)).2.1, y ∈ pc.1.set :=
  View.cover_of_tiledL (kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk0 V c 0 t) (iblk0 V c 1 t) (iblk0 V c 2 t)).2.1 S1024x1.size (by sl_kernel_rfl) y
theorem scoverA_1 (c : Dev nD) (t : Fin cfg0.N) (h0 : t.val % 8 = 0) (h1 : ¬t.val % 8 = 7) (y : S1024x1.Idx) :
    ∃ pc ∈ (kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk0 V c 0 t) (iblk0 V c 1 t) (iblk0 V c 2 t)).2.2.1, y ∈ pc.1.set :=
  View.cover_of_tiledL (kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk0 V c 0 t) (iblk0 V c 1 t) (iblk0 V c 2 t)).2.2.1 S1024x1.size (by sl_kernel_rfl) y
theorem scoverB_0 (c : Dev nD) (t : Fin cfg0.N) (h0 : ¬t.val % 8 = 0) (h1 : ¬t.val % 8 = 7) (xs0 xs1 : Vec F S1024x1 .f32) (y : S1024x1.Idx) :
    ∃ pc ∈ (kernelRun0_B c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) xs0 xs1).2.1, y ∈ pc.1.set :=
  View.cover_of_tiledL (kernelRun0_B c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) xs0 xs1).2.1 S1024x1.size (by sl_kernel_rfl) y
theorem scoverB_1 (c : Dev nD) (t : Fin cfg0.N) (h0 : ¬t.val % 8 = 0) (h1 : ¬t.val % 8 = 7) (xs0 xs1 : Vec F S1024x1 .f32) (y : S1024x1.Idx) :
    ∃ pc ∈ (kernelRun0_B c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) xs0 xs1).2.2.1, y ∈ pc.1.set :=
  View.cover_of_tiledL (kernelRun0_B c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) xs0 xs1).2.2.1 S1024x1.size (by sl_kernel_rfl) y
theorem scoverC_0 (c : Dev nD) (t : Fin cfg0.N) (h0 : ¬t.val % 8 = 0) (h1 : t.val % 8 = 7) (xs0 xs1 : Vec F S1024x1 .f32) (y : S1024x1.Idx) :
    ∃ pc ∈ (kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (iblk0 V c 2 t) xs0 xs1).2.1, y ∈ pc.1.set :=
  View.cover_of_tiledL (kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (iblk0 V c 2 t) xs0 xs1).2.1 S1024x1.size (by sl_kernel_rfl) y
theorem scoverC_1 (c : Dev nD) (t : Fin cfg0.N) (h0 : ¬t.val % 8 = 0) (h1 : t.val % 8 = 7) (xs0 xs1 : Vec F S1024x1 .f32) (y : S1024x1.Idx) :
    ∃ pc ∈ (kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (iblk0 V c 2 t) xs0 xs1).2.2.1, y ∈ pc.1.set :=
  View.cover_of_tiledL (kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (iblk0 V c 2 t) xs0 xs1).2.2.1 S1024x1.size (by sl_kernel_rfl) y
theorem coverC_3 (c : Dev nD) (t : Fin cfg0.N) (h0 : ¬t.val % 8 = 0) (h1 : t.val % 8 = 7) (xs0 xs1 : Vec F S1024x1 .f32) (y : S1024x1.Idx) :
    ∃ pc ∈ (kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (iblk0 V c 2 t) xs0 xs1).1, y ∈ pc.1.set :=
  View.cover_of_tiledL (kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (iblk0 V c 2 t) xs0 xs1).1 S1024x1.size (by sl_kernel_rfl) y

/-! ## What the buffers hold after each point -/

/-- After the point at position `n`: the case the position selects, a later point of a row of blocks run from the
    scratch columns the position before left. -/
def outsAt0 (c : Dev nD) : (n : ℕ) → n < cfg0.N → (Vec F S1024x1 .f32 × Vec F S1024x1 .f32 × Vec F S1024x1 .f32)
  | 0, hn => stA V c ⟨0, hn⟩ (Nat.zero_mod _) (by show ¬ (0 % 8 = 7); decide)
  | n + 1, hn =>
    if h0 : (n + 1) % 8 = 0 then
      if h1 : (n + 1) % 8 = 7 then False.elim (by omega)
      else stA V c ⟨n + 1, hn⟩ h0 h1
    else
      if h1 : (n + 1) % 8 = 7 then
        stC V c ⟨n + 1, hn⟩ h0 h1 (outsAt0 c n (Nat.lt_of_succ_lt hn)).2.1 (outsAt0 c n (Nat.lt_of_succ_lt hn)).2.2
      else
        stB V c ⟨n + 1, hn⟩ h0 h1 (outsAt0 c n (Nat.lt_of_succ_lt hn)).2.1 (outsAt0 c n (Nat.lt_of_succ_lt hn)).2.2

theorem outsAt0_A (c : Dev nD) (t : Fin cfg0.N) (h0 : t.val % 8 = 0) (h1 : ¬t.val % 8 = 7) :
    outsAt0 V c t.val t.isLt = stA V c t h0 h1 := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 V c t.val t.isLt = stB V c t h0 h1 (outsAt0 V c (t.val - 1) (Nat.lt_of_le_of_lt (Nat.sub_le _ _) t.isLt)).2.1
      (outsAt0 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 V c t.val t.isLt = stC V c t h0 h1 (outsAt0 V c (t.val - 1) (Nat.lt_of_le_of_lt (Nat.sub_le _ _) t.isLt)).2.1
      (outsAt0 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: at the start the scratch columns hold anything; afterwards they hold
    what the position before left. The second kernel's staging buffers and the generator register ride along. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.1) ∗ owns (c : Thread nD τ) scM0_1 fullShare ((outsAt0 V c n hn).2.2) ∗ rest0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.1) ∗ owns (c : Thread nD τ) scM0_1 fullShare ((outsAt0 V c n hn).2.2) ∗ rest0 c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.1) ∗ owns (c : Thread nD τ) scM0_1 fullShare ((outsAt0 V c (n - 1) (by omega)).2.2) ∗ rest0 c) ∗ (∃ r, prngReg c r)) := by
  cases n with
  | zero => exact absurd rfl hz
  | succ n => rfl

/-! ## The proof data -/

/-- The arrays as the region finds them; the inputs' buffers at their blocks, the output's at `outsAt0`; the two
    windows on the one scaled-input array each hold half of it. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS V c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

theorem leaves_in0 (c : Dev nD) (t : Fin cfg0.N) : (dat0 V c).leavesExact 0 t = owns (c : Thread nD τ) (ms0_0 t) fullShare (iblk0 V c 0 t) := by
  unfold Dat.leavesExact; rw [liveAt0_0 t, after0_0]
theorem leaves_in1 (c : Dev nD) (t : Fin cfg0.N) : (dat0 V c).leavesExact 1 t = owns (c : Thread nD τ) (ms0_1 t) fullShare (iblk0 V c 1 t) := by
  unfold Dat.leavesExact; rw [liveAt0_1 t, after0_1]
theorem leaves_in2 (c : Dev nD) (t : Fin cfg0.N) : (dat0 V c).leavesExact 2 t = owns (c : Thread nD τ) (ms0_2 t) fullShare (iblk0 V c 2 t) := by
  unfold Dat.leavesExact; rw [liveAt0_2 t, after0_2]

set_option maxHeartbeats 4800000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  rw [leaves_in0, leaves_in1, leaves_in2]
  have hN : t.val < 64 := lt_of_lt_of_eq t.isLt (show cfg0.N = 64 from N_0)
  by_cases h0 : t.val % 8 = 0
  · have h1 : ¬ t.val % 8 = 7 := by omega
    rw [Dat.leavesExact_idle (dat0 V c) 3 t (idleAt0_3 t (fun h => h1 ((hcond0_1 t).mp h))) (noFlush0_3 t (fun h => h1 ((hcond0_1 t).mp h)))]
    rw [outsAt0_A V c t h0 h1]
    unfold stA; (try dsimp only)
    have hΦ : (dat0 V c).Φ t.castSucc ⊢ (iprop(iprop((∃ d, owns (c : Thread nD τ) scM0_0 fullShare d) ∗ (∃ d, owns (c : Thread nD τ) scM0_1 fullShare d) ∗ rest0 c) ∗ (∃ r, prngReg c r)) : sProp 𝕄) := by
      rw [PhiS_castSucc V c t]
      by_cases hz : t.val = 0
      · rw [PhiS_zero V c _ _ hz, PhiA0_eq]
      · rw [PhiS_pos V c _ _ hz]
        iintro ⟨⟨HS0, HS1, Hr⟩, Hg⟩
        isplitl [HS0 HS1 Hr]
        · isplitl [HS0]; · iexists _; iexact HS0
          isplitl [HS1]; · iexists _; iexact HS1
          iexact Hr
        iexact Hg
    iintro ⟨HΦ, Ho, ⟨%d0, H0⟩, ⟨%d1, H1⟩, ⟨%d2, H2⟩, ⟨%d3, H3⟩⟩
    ihave HΦ' := hΦ $$ HΦ
    icases HΦ' with ⟨⟨HS0, HS1, Hr⟩, Hg⟩
    iapply ((kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk0 V c 0 t) (iblk0 V c 1 t) (iblk0 V c 2 t)).2.2.2 _ Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, ⟨%es0, HS0⟩, ⟨%es1, HS1⟩⟩
    isplitl [HS0 HS1 Hr Hg]
    · isplitl [HS0 HS1 Hr]
      · isplitl [HS0]
        · unfold owns; iexists _; isplitr
          swap; · iexact HS0
          ipureintro; exact View.read_writes_of_cover _ _ _ _ _ (scoverA_0 V c t h0 h1)
        isplitl [HS1]
        · unfold owns; iexists _; isplitr
          swap; · iexact HS1
          ipureintro; exact View.read_writes_of_cover _ _ _ _ _ (scoverA_1 V c t h0 h1)
        iexact Hr
      iexact Hg
    isplitl [Ho]; · iexact Ho
    isplitl [H0]; · iexact H0
    isplitl [H1]; · iexact H1
    isplitl [H2]; · iexact H2
    iexists _; iexact H3
  · have hz : t.val ≠ 0 := fun e => h0 (by rw [e])
    by_cases h1 : t.val % 8 = 7
    · rw [show (dat0 V c).leavesExact 3 t = owns (c : Thread nD τ) (ms0_3 t) fullShare ((dat0 V c).after 3 t) from by
        unfold Dat.leavesExact; rw [liveAt0_3 t ((hcond0_1 t).mpr h1)], after0_3]
      rw [outsAt0_C V c t h0 h1]
      unfold stC; (try dsimp only)
      rw [PhiS_castSucc V c t, PhiS_pos V c _ _ hz]
      iintro ⟨⟨⟨HS0, HS1, Hr⟩, Hg⟩, Ho, ⟨%d0, H0⟩, ⟨%d1, H1⟩, ⟨%d2, H2⟩, ⟨%d3, H3⟩⟩
      iapply ((kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (iblk0 V c 2 t) _ _).2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, ⟨%e3, H3⟩, ⟨%es0, HS0⟩, ⟨%es1, HS1⟩⟩
      isplitl [HS0 HS1 Hr Hg]
      · isplitl [HS0 HS1 Hr]
        · isplitl [HS0]
          · unfold owns; iexists _; isplitr
            swap; · iexact HS0
            ipureintro; exact View.read_writes_of_cover _ _ _ _ _ (scoverC_0 V c t h0 h1 _ _)
          isplitl [HS1]
          · unfold owns; iexists _; isplitr
            swap; · iexact HS1
            ipureintro; exact View.read_writes_of_cover _ _ _ _ _ (scoverC_1 V c t h0 h1 _ _)
          iexact Hr
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverC_3 V c t h0 h1 _ _)
    · rw [Dat.leavesExact_idle (dat0 V c) 3 t (idleAt0_3 t (fun h => h1 ((hcond0_1 t).mp h))) (noFlush0_3 t (fun h => h1 ((hcond0_1 t).mp h)))]
      rw [outsAt0_B V c t h0 h1]
      unfold stB; (try dsimp only)
      rw [PhiS_castSucc V c t, PhiS_pos V c _ _ hz]
      iintro ⟨⟨⟨HS0, HS1, Hr⟩, Hg⟩, Ho, ⟨%d0, H0⟩, ⟨%d1, H1⟩, ⟨%d2, H2⟩, ⟨%d3, H3⟩⟩
      iapply ((kernelRun0_B c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) _ _).2.2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hr Hg]
      · isplitl [HS0 HS1 Hr]
        · isplitl [HS0]
          · unfold owns; iexists _; isplitr
            swap; · iexact HS0
            ipureintro; exact View.read_writes_of_cover _ _ _ _ _ (scoverB_0 V c t h0 h1 _ _)
          isplitl [HS1]
          · unfold owns; iexists _; isplitr
            swap; · iexact HS1
            ipureintro; exact View.read_writes_of_cover _ _ _ _ _ (scoverB_1 V c t h0 h1 _ _)
          iexact Hr
        iexact Hg
      isplitl [Ho]; · iexact Ho
      isplitl [H0]; · iexact H0
      isplitl [H1]; · iexact H1
      isplitl [H2]; · iexact H2
      iexists _; iexact H3

theorem body_obligation0 (c : Dev nD) : BodyObligation (dat0 (F := F) V c) (defs₀ (F := F)) Variants.none () Set.univ := fun t => by
  rw [bigSep_W0, bigSep_W0]
  exact sound_body V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives it back: the scratch columns' contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 64 := N_0; omega
  rw [show (dat0 V c).Φ (Fin.last cfg0.N) = PhiS V c (Fin.last cfg0.N).val (Nat.le_of_lt_succ (Fin.last cfg0.N).isLt) from rfl, PhiS_pos V c _ _ ht, PhiA0_eq]
  iintro ⟨⟨HS0, HS1, Hr⟩, Hg⟩
  isplitl [HS0 HS1 Hr]
  · isplitl [HS0]; · iexists _; iexact HS0
    isplitl [HS1]; · iexists _; iexact HS1
    iexact Hr
  iexact Hg

end

end Cert.KernelIdeal.Hand

end
-- ==== Proof.IShare0.lean ====
/-
  The first kernel reads the scaled-input array through two windows (as query rows and as key rows). Each window
  holds half of that array; here: the three distinct buffers behind the four windows, each held whole, are the
  four windows' holdings — the shared buffer split into its two halves — and back.
-/
import proofs.«118869_j12807592476698_2_alg».proof.Proof.IFrame0Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem arrays_iff0 (c : Dev nD) (dat : Dat τ (Elt F) Unit ℕ (UR sig nD τ) ℕ cfg0 c)
    (hq0 : dat.q 0 = fullShare.left) (hq1 : dat.q 1 = fullShare.right) (hq2 : dat.q 2 = fullShare)
    (Vv : (b : Ref sig .tc) → Buf (Elt F) ((c : Thread nD τ).loc b))
    (Fa : (w : Fin cfg0.W) → Buf (Elt F) ((cfg0.win w).arr.view.loc (c : Thread nD τ)))
    (hF : ∀ w, Fa w = Vv (Pipeline.arrRef spec0 w)) :
    (Pipeline.arrBufs spec0 c Vv : sProp 𝕄) ⊣⊢ dat.arrays Fa := by
  unfold Pipeline.arrBufs Dat.arrays
  rw [bigSep_eq_bigSepL_of_eq [main_v5, main_v4, main_v6] (by decide) (by decide), bigSep_W0]
  rw [show (bigSepL [main_v5, main_v4, main_v6] fun b => (((c : Thread nD τ).loc b) ↦{fullShare} Vv b : sProp 𝕄))
      = iprop((((c : Thread nD τ).loc main_v5) ↦{fullShare} Vv main_v5) ∗ (((c : Thread nD τ).loc main_v4) ↦{fullShare} Vv main_v4) ∗ (((c : Thread nD τ).loc main_v6) ↦{fullShare} Vv main_v6)) from rfl]
  have s0 : dat.share 0 = fullShare.left := by unfold Dat.share; rw [hq0]; rfl
  have s1 : dat.share 1 = fullShare.right := by unfold Dat.share; rw [hq1]; rfl
  have s2 : dat.share 2 = fullShare := by unfold Dat.share; rw [hq2]; rfl
  have s3 : dat.share 3 = fullShare := by unfold Dat.share; rfl
  rw [s0, s1, s2, s3, (arr_whole0 0).set_eq_univ, (arr_whole0 2).set_eq_univ, (arr_whole0 3).set_eq_univ,
    hF 0, hF 1, hF 2, hF 3]
  constructor
  · iintro ⟨H5, H4, H6⟩
    ihave H := (pointsTo_share (PosShare.mem_left_op_right fullShare)).1 $$ H5
    icases H with ⟨Ha, Hb⟩
    isplitl [Ha]; · iexact Ha
    isplitl [Hb]; · iexact Hb
    isplitl [H4]; · iexact H4
    iexact H6
  · iintro ⟨Ha, Hb, H4, H6⟩
    isplitl [Ha Hb]
    · iapply (pointsTo_share (PosShare.mem_left_op_right fullShare)).2
      isplitl [Ha]; · iexact Ha
      iexact Hb
    isplitl [H4]; · iexact H4
    iexact H6

end Cert.KernelIdeal.Hand

end
-- ==== Proof.IFrame1Runs.lean ====
/-
  The second pallas_call of the kernel program (custom_call 1, `cc1__ir_log_sum_kernel`, pipeline 1, a 16×16 grid),
  at ANY float instance: what its body does on whole staging buffers, in each case of its one conditional.

  The body keeps ONE output block, a 1×1 accumulator whose index never moves. Under the condition "both grid
  coordinates are 0" it first stores the zero block there; then, at every point, it reads the point's column block
  `a` (512×1) and row block `b` (1×512), reads the accumulator back, and stores the accumulator plus the sum, over the
  point's 512×512 tile, of the logarithms of the tile's entries (the payload `k1_pay2`). So there are two cases:
    A — the condition holds (the first point only): the accumulator read back is the zero block just stored;
    B — it does not (every later point): the accumulator read back is what the buffer held on entry.
  Nothing the body computes is transcribed: each case's run is stated over the pieces the body's stores leave in
  the output buffer, found by running it.
-/
import proofs.«118869_j12807592476698_2_alg».proof.Proof.Gen.KernelIdeal.Launch
import proofs.«118869_j12807592476698_2_alg».proof.Proof.Gen.KernelIdeal.Skeleton
import proofs.«118869_j12807592476698_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's branch condition -/

/-- The condition of the body's one conditional, from the grid coordinates: both coordinates are 0. -/
abbrev cond1_0 (i : grid1.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- It holds at the first point only — decided over the 256 points of the grid. -/
theorem hcond1_0 : ∀ t : Fin cfg1.N, cond1_0 (grid1.coords t) ↔ t.val % 256 = 0 :=
  (by decide +kernel : ∀ t : Fin grid1.N, cond1_0 (grid1.coords t) ↔ t.val % 256 = 0)

/-! ## The staging memrefs -/

/-- The output window's one staging buffer, through which its contents are stated. -/
abbrev VO1_2 : View sig .tc .vmem S1x1 .f32 := (Memref.whole cc1_stg2_0 : Memref sig .tc .vmem S1x1 .f32).view
/-- Each window's current staging memref at point `t`, spelled as the pipeline passes it, and its wholeness. -/
abbrev ms1_0 (t : Fin cfg1.N) : Memref sig .tc .vmem S512x1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1 .f32 := win1_2.stage (cfg1.slots t 2)
abbrev hs1_2 (t : Fin cfg1.N) : (ms1_2 t).IsWhole := hstage1_2 ((cfg1.slots t 2).cast nbuf1_2)

/-! ## The body in each case -/

set_option maxHeartbeats 1000000 in
/-- CASE A (the condition holds: the first point). On whole staging memrefs — the two inputs' at contents `x0`, `x1`,
    the output's at anything — the body runs to the continuation holding the inputs' as they were and the output's
    buffer with the body's stores written, as pieces, last first: the pieces are the witness. -/
noncomputable def kernelRun1_A (c : Dev nD) (i : grid1.Coords) (arg2 : Memref sig .tc .vmem S512x1 .f32) (harg2 : arg2.IsWhole) (arg3 : Memref sig .tc .vmem S1x512 .f32) (harg3 : arg3.IsWhole) (arg4 : Memref sig .tc .vmem S1x1 .f32) (harg4 : arg4.IsWhole) (hc0 : cond1_0 i)
    (x0 : Vec F S512x1 .f32) (x1 : Vec F S1x512 .f32) :
    { L2 : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc1__ir_log_sum_kernel i arg2 harg2 arg3 harg3 arg4 harg4) K } := by
  refine ⟨?_, fun E K => ?run⟩
  case run =>
    simp only [cc1__ir_log_sum_kernel_eq_skeleton]; unfold cc1__ir_log_sum_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

set_option maxHeartbeats 1000000 in
/-- CASE B (the condition fails: every later point). As case A, the output's buffer now at its running contents
    `xo`, which the body reads before it covers the block. -/
noncomputable def kernelRun1_B (c : Dev nD) (i : grid1.Coords) (arg2 : Memref sig .tc .vmem S512x1 .f32) (harg2 : arg2.IsWhole) (arg3 : Memref sig .tc .vmem S1x512 .f32) (harg3 : arg3.IsWhole) (arg4 : Memref sig .tc .vmem S1x1 .f32) (harg4 : arg4.IsWhole) (hc0 : ¬cond1_0 i)
    (x0 : Vec F S512x1 .f32) (x1 : Vec F S1x512 .f32) (xo2 : Vec F S1x1 .f32) :
    { L2 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc1__ir_log_sum_kernel i arg2 harg2 arg3 harg3 arg4 harg4) K } := by
  refine ⟨?_, fun E K => ?run⟩
  case run =>
    simp only [cc1__ir_log_sum_kernel_eq_skeleton]; unfold cc1__ir_log_sum_kernel_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.Hand

end
-- ==== Proof.IFrame1.lean ====
/-
  The second pallas_call of the kernel program (custom_call 1, `cc1__ir_log_sum_kernel`, pipeline 1, a 16×16 grid),
  at ANY float instance and at ANY contents `V` of the core's buffers when the region is entered: its proof data and
  its body obligation.

  The one output block is a 1×1 accumulator whose index never moves and which is written back after the last point
  only. So what its staging buffer holds after point `t` is defined by recursion on the point (`outsAt1`): at the
  first point what case A of the body leaves (the zero block stored, read back, and the first tile's sum of
  logarithms added); at every later point what case B leaves over the contents the point before left — the buffer
  is not written back in between, so the body finds there exactly what it left. The two inputs' buffers hold their
  blocks at every point, fetched there or not (an unfetched block's index has not moved). The body obligation is
  then a case split on the point: the first point runs case A, every other point case B.
-/
import proofs.«118869_j12807592476698_2_alg».proof.Proof.IFrame1Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Regions
-- the TensorCore's buffer contents when the region is entered: a parameter
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s and whose body leaves the block in place: the window is uncut and never idle, and
    where it is not fetched its index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for input window 1. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves in the output's buffer -/

/-- Case A's pieces tile the 1×1 block, so they cover it. -/
theorem cover1_A_2 (c : Dev nD) (i : grid1.Coords) (arg2 : Memref sig .tc .vmem S512x1 .f32) (harg2 : arg2.IsWhole) (arg3 : Memref sig .tc .vmem S1x512 .f32) (harg3 : arg3.IsWhole) (arg4 : Memref sig .tc .vmem S1x1 .f32) (harg4 : arg4.IsWhole) (hc0 : cond1_0 i)
    (x0 : Vec F S512x1 .f32) (x1 : Vec F S1x512 .f32) (y : S1x1.Idx) :
    ∃ pc ∈ (kernelRun1_A c i arg2 harg2 arg3 harg3 arg4 harg4 hc0 x0 x1).1, y ∈ pc.1.set :=
  View.cover_of_tiledL (kernelRun1_A c i arg2 harg2 arg3 harg3 arg4 harg4 hc0 x0 x1).1 S1x1.size (by sl_kernel_rfl) y

/-- What case A leaves in the output's staging buffer: its pieces read back (over anything: they cover). -/
def out1_A_2 (c : Dev nD) (i : grid1.Coords) (arg2 : Memref sig .tc .vmem S512x1 .f32) (harg2 : arg2.IsWhole) (arg3 : Memref sig .tc .vmem S1x512 .f32) (harg3 : arg3.IsWhole) (arg4 : Memref sig .tc .vmem S1x1 .f32) (harg4 : arg4.IsWhole) (hc0 : cond1_0 i)
    (x0 : Vec F S512x1 .f32) (x1 : Vec F S1x512 .f32) : Vec F S1x1 .f32 :=
  VO1_2.read (Elt F) (VO1_2.writes (Elt F) VO1_2.junk (kernelRun1_A c i arg2 harg2 arg3 harg3 arg4 harg4 hc0 x0 x1).1)

/-- Case B's pieces tile the 1×1 block, so they cover it. -/
theorem cover1_B_2 (c : Dev nD) (i : grid1.Coords) (arg2 : Memref sig .tc .vmem S512x1 .f32) (harg2 : arg2.IsWhole) (arg3 : Memref sig .tc .vmem S1x512 .f32) (harg3 : arg3.IsWhole) (arg4 : Memref sig .tc .vmem S1x1 .f32) (harg4 : arg4.IsWhole) (hc0 : ¬cond1_0 i)
    (x0 : Vec F S512x1 .f32) (x1 : Vec F S1x512 .f32) (xo2 : Vec F S1x1 .f32) (y : S1x1.Idx) :
    ∃ pc ∈ (kernelRun1_B c i arg2 harg2 arg3 harg3 arg4 harg4 hc0 x0 x1 xo2).1, y ∈ pc.1.set :=
  View.cover_of_tiledL (kernelRun1_B c i arg2 harg2 arg3 harg3 arg4 harg4 hc0 x0 x1 xo2).1 S1x1.size (by sl_kernel_rfl) y

/-- What case B leaves in the output's staging buffer. -/
def out1_B_2 (c : Dev nD) (i : grid1.Coords) (arg2 : Memref sig .tc .vmem S512x1 .f32) (harg2 : arg2.IsWhole) (arg3 : Memref sig .tc .vmem S1x512 .f32) (harg3 : arg3.IsWhole) (arg4 : Memref sig .tc .vmem S1x1 .f32) (harg4 : arg4.IsWhole) (hc0 : ¬cond1_0 i)
    (x0 : Vec F S512x1 .f32) (x1 : Vec F S1x512 .f32) (xo2 : Vec F S1x1 .f32) : Vec F S1x1 .f32 :=
  VO1_2.read (Elt F) (VO1_2.writes (Elt F) VO1_2.junk (kernelRun1_B c i arg2 harg2 arg3 harg3 arg4 harg4 hc0 x0 x1 xo2).1)

/-! ## What the output holds after each point -/

/-- THE ACCUMULATION. What the output's staging buffer holds after the body at position `n`: at the first point
    case A's contents; at a later point case B's, over what this leaves at `n - 1`. (The condition holds at no later
    point; the definition follows the closed form all the same.) -/
def outsAt1 (c : Dev nD) : (n : ℕ) → n < cfg1.N → Vec F S1x1 .f32
  | 0, hn => out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) ((hcond1_0 ⟨0, hn⟩).mpr (Nat.zero_mod _)) (iblk1 V c 0 ⟨0, hn⟩) (iblk1 V c 1 ⟨0, hn⟩)
  | n + 1, hn =>
    if h0 : (n + 1) % 256 = 0 then
      out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) ((hcond1_0 ⟨n + 1, hn⟩).mpr h0) (iblk1 V c 0 ⟨n + 1, hn⟩) (iblk1 V c 1 ⟨n + 1, hn⟩)
    else
      out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (fun h => h0 ((hcond1_0 ⟨n + 1, hn⟩).mp h)) (iblk1 V c 0 ⟨n + 1, hn⟩) (iblk1 V c 1 ⟨n + 1, hn⟩) (outsAt1 c n (Nat.lt_of_succ_lt hn))

/-- `outsAt1` at a point of case A: that case's contents. -/
theorem outsAt1_A (c : Dev nD) (t : Fin cfg1.N) (h0 : t.val % 256 = 0) :
    outsAt1 V c t.val t.isLt = out1_A_2 c (grid1.coords t) (ms1_0 t) (hs1_0 t) (ms1_1 t) (hs1_1 t) (ms1_2 t) (hs1_2 t) ((hcond1_0 t).mpr h0) (iblk1 V c 0 t) (iblk1 V c 1 t) := by
  obtain ⟨n, hn⟩ := t
  cases n with
  | zero => exact rfl
  | succ n => exact (dif_pos h0).trans rfl

/-- `outsAt1` at a point of case B: that case's contents, over what the point before left. -/
theorem outsAt1_B (c : Dev nD) (t : Fin cfg1.N) (h0 : ¬t.val % 256 = 0) :
    outsAt1 V c t.val t.isLt = out1_B_2 c (grid1.coords t) (ms1_0 t) (hs1_0 t) (ms1_1 t) (hs1_1 t) (ms1_2 t) (hs1_2 t) (fun h => h0 ((hcond1_0 t).mp h)) (iblk1 V c 0 t) (iblk1 V c 1 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 1 on core `c`: the arrays as the region finds them (`V`); after the body at point `t`
    each input's buffer at its block and the output's at `outsAt1`; the invariant the scoped rest and the generator
    register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => outsAt1 V c t.val t.isLt
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- The proof data's invariant, at every position. -/
theorem Phi_eq1 (c : Dev nD) (t : Fin (cfg1.N + 1)) : (dat1 V c).Φ t = Pipeline.ΦA spec1 c := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = outsAt1 V c t.val t.isLt := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
/-- At a point of case B the output's staging buffer holds what the body left at the point before: the point is not
    the first, the buffer was not written back in between (it is written back after the last point only), the
    window is live and uncut. -/
theorem before1_2_B (c : Dev nD) (t : Fin cfg1.N) (h0 : ¬t.val % 256 = 0) (d) :
    (dat1 V c).before 2 t d = outsAt1 V c (t.val - 1) (Nat.lt_of_le_of_lt (Nat.sub_le _ _) t.isLt) := by
  have hN : t.val < 256 := lt_of_lt_of_eq t.isLt (show cfg1.N = 256 from N_1)
  rw [Dat.before_out_kept _ 2 rfl t (by omega) (Bool.eq_false_iff.mpr fun h => by have := (flush1_2 _).mp h; dsimp only at this; omega)
    (fun _ => rfl) (fun _ _ => rfl)]
  dsimp only [dat1]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

set_option maxHeartbeats 800000 in
/-- The body at any point: the inputs' memrefs hold their blocks; the closed form says which case the point is in;
    in case B the output's buffer holds what the point before left; so that case's run applies; the invariant
    passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  have hN : t.val < 256 := lt_of_lt_of_eq t.isLt (show cfg1.N = 256 from N_1)
  by_cases h0 : t.val % 256 = 0
  · rw [outsAt1_A V c t h0]
    unfold out1_A_2
    iintro ⟨HΦ, Ho, ⟨%d0, H0⟩, ⟨%d1, H1⟩, ⟨%d2, H2⟩⟩
    iapply ((kernelRun1_A c (grid1.coords t) _ _ _ _ _ _ ((hcond1_0 t).mpr h0) (iblk1 V c 0 t) (iblk1 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover1_A_2 c _ _ _ _ _ _ _ _ _ _)
  · rw [outsAt1_B V c t h0]
    simp only [before1_2_B V c t h0]
    unfold out1_B_2
    iintro ⟨HΦ, Ho, ⟨%d0, H0⟩, ⟨%d1, H1⟩, ⟨%d2, H2⟩⟩
    iapply ((kernelRun1_B c (grid1.coords t) _ _ _ _ _ _ (fun h => h0 ((hcond1_0 t).mp h)) (iblk1 V c 0 t) (iblk1 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover1_B_2 c _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.KernelIdeal.Hand

end
-- ==== Proof.IRun.lean ====
/-
  The whole program's run: three stretches of host operations, the first kernel, one host operation, the second
  kernel, the closing host operations. Between two items each core holds every unscoped buffer whole at known
  contents: the launch memory pushed through the host stretches, the first kernel's result array at what its
  write-backs leave, then the second kernel's. Every weakly fair execution terminates; the scalar result ends at the
  closing stretch's value over those contents, and the argument array is untouched.
-/
import proofs.«118869_j12807592476698_2_alg».proof.Proof.IFrame0
import proofs.«118869_j12807592476698_2_alg».proof.Proof.IShare0
import proofs.«118869_j12807592476698_2_alg».proof.Proof.IFrame1
import proofs.«118869_j12807592476698_2_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev W0 (c : Dev nD) : Valuation τ sig (Elt F) := fun b => m (c, b)
abbrev W1 (c : Dev nD) : Valuation τ sig (Elt F) := StableHlo.after hostOps0 (W0 m c)
abbrev W2 (c : Dev nD) : Valuation τ sig (Elt F) := StableHlo.after hostOps0_1 (W1 m c)
abbrev W3 (c : Dev nD) : Valuation τ sig (Elt F) := StableHlo.after hostOps0_2 (W2 m c)
/-- What the first kernel finds. -/
abbrev VA : (c : Dev nD) → (b : Ref sig .tc) → Buf (Elt F) ((c : Thread nD τ).loc b) := fun c b => W3 m c b
/-- The first kernel's result array after its write-backs. -/
def X6 (c : Dev nD) : Buf (Elt F) ((c : Thread nD τ).loc main_v6) := (dat0 (VA m) c).arrAt 3 cfg0.N
def W4 (c : Dev nD) : Valuation τ sig (Elt F) := Function.update (W3 m c) (Proc.devRef .tc main_v6) (X6 m c)
abbrev W5 (c : Dev nD) : Valuation τ sig (Elt F) := StableHlo.after hostOps1 (W4 m c)
/-- What the second kernel finds. -/
abbrev VB : (c : Dev nD) → (b : Ref sig .tc) → Buf (Elt F) ((c : Thread nD τ).loc b) := fun c b => W5 m c b
/-- The second kernel's result after its one write-back. -/
def X8 (c : Dev nD) : Buf (Elt F) ((c : Thread nD τ).loc main_v8) := (dat1 (VB m) c).arrAt 2 cfg1.N
def W6 (c : Dev nD) : Valuation τ sig (Elt F) := Function.update (W5 m c) (Proc.devRef .tc main_v8) (X8 m c)
abbrev W7 (c : Dev nD) : Valuation τ sig (Elt F) := StableHlo.after hostOps2 (W6 m c)

theorem W4_v6 (c : Dev nD) : W4 m c (Proc.devRef .tc main_v6) = X6 m c := by unfold W4; exact Function.update_self ..
theorem W4_of_ne (c : Dev nD) (b : Ref sig .tc) (hb : b ≠ main_v6) : W4 m c (Proc.devRef .tc b) = W3 m c (Proc.devRef .tc b) := by
  unfold W4; exact Function.update_of_ne (StableHlo.devRef_ne_of_ne hb) ..
theorem W6_v8 (c : Dev nD) : W6 m c (Proc.devRef .tc main_v8) = X8 m c := by unfold W6; exact Function.update_self ..
theorem W6_of_ne (c : Dev nD) (b : Ref sig .tc) (hb : b ≠ main_v8) : W6 m c (Proc.devRef .tc b) = W5 m c (Proc.devRef .tc b) := by
  unfold W6; exact Function.update_of_ne (StableHlo.devRef_ne_of_ne hb) ..

/-- No item writes the argument array. -/
theorem W7_main_arg0 (c : Dev nD) : W7 m c (Proc.devRef .tc main_arg0) = m ((c : Thread nD τ).loc main_arg0) :=
  (StableHlo.after_of_writes_sub hostOps2 _ hostOps2_writes (by decide : main_arg0 ∉ hostOps2_W)).trans <|
  (W6_of_ne m c main_arg0 (by decide)).trans <|
  (StableHlo.after_of_writes_sub hostOps1 _ hostOps1_writes (by decide : main_arg0 ∉ hostOps1_W)).trans <|
  (W4_of_ne m c main_arg0 (by decide)).trans <|
  (StableHlo.after_of_writes_sub hostOps0_2 _ hostOps0_2_writes (by decide : main_arg0 ∉ hostOps0_2_W)).trans <|
  (StableHlo.after_of_writes_sub hostOps0_1 _ hostOps0_1_writes (by decide : main_arg0 ∉ hostOps0_1_W)).trans <|
  (StableHlo.after_of_writes_sub hostOps0 _ hostOps0_writes (by decide : main_arg0 ∉ hostOps0_W)).trans rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (VA m) c
  | ⟨1, _⟩ => fun c => dat1 (VB m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W7 m c) ∗ ∃ r, prngReg c r)

/-! ## The two kernels as items -/

/-- The first kernel's arrays at exit: the inputs as entered, the result array at its write-backs. -/
theorem hF0 (c : Dev nD) (w : Fin cfg0.W) : (dat0 (VA m) c).arrAt w cfg0.N = W4 m c (Proc.devRef .tc (Pipeline.arrRef spec0 w)) :=
  match w with
  | ⟨0, _⟩ => (((dat0 (VA m) c).arrAt_in 0 rfl _).trans (A_eq0 (VA m) c 0)).trans (W4_of_ne m c main_v5 (by decide)).symm
  | ⟨1, _⟩ => (((dat0 (VA m) c).arrAt_in 1 rfl _).trans (A_eq0 (VA m) c 1)).trans (W4_of_ne m c main_v5 (by decide)).symm
  | ⟨2, _⟩ => (((dat0 (VA m) c).arrAt_in 2 rfl _).trans (A_eq0 (VA m) c 2)).trans (W4_of_ne m c main_v4 (by decide)).symm
  | ⟨3, _⟩ => (W4_v6 m c).symm

set_option backward.isDefEq.respectTransparency.types false in
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (VA m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    rw [Pipeline.ownSems0_none]
    have hub := Pipeline.unscopedBufs_split₀ (Ix := Unit) (Name := ℕ) (U := UR sig nD τ) (Lvl := ℕ) cfgs 0 winFacts₀0.arr_unscoped c (VA m c)
    rw [Pipeline.unscopedBufs_held] at hub
    have hsplit := (arrays_iff0 c (dat0 (VA m) c) rfl rfl rfl (VA m c) ((dat0 (VA m) c).arrAt · 0) (fun w => A_eq0 (VA m) c w)).1
    have hsp : (StableHlo.held (c : Thread nD τ) (Pipeline.ucRefs τ sig) (W3 m c) : sProp 𝕄)
        ⊢ iprop((dat0 (VA m) c).arrays ((dat0 (VA m) c).arrAt · 0) ∗ Pipeline.unscopedRest spec0 c (VA m c)) := by
      rw [hub]; exact sep_mono hsplit .rfl
    iintro ⟨⟨Hub, Hp, HO⟩, -, -⟩
    ihave H := hsp $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (VA m) c)
    unfold Pipeline.ΦA
    iintro ⟨Hp, -, Hr⟩
    isplitl [Hr]; · iexact Hr
    iexact Hp
  hout c := by
    rw [Pipeline.ownSems0_none]
    refine (hout0 (VA m) c).trans ?_
    unfold Pipeline.ΦA
    iintro ⟨Hr, Hp⟩
    isplitl [Hp]; · iexact Hp
    isplitr; · iempintro
    iexact Hr
  hexit c := by
    have hub := Pipeline.unscopedBufs_split₀ (Ix := Unit) (Name := ℕ) (U := UR sig nD τ) (Lvl := ℕ) cfgs 0 winFacts₀0.arr_unscoped c (fun b => W4 m c (Proc.devRef .tc b))
    rw [Pipeline.unscopedBufs_held] at hub
    have hjoin := (arrays_iff0 c (dat0 (VA m) c) rfl rfl rfl (fun b => W4 m c (Proc.devRef .tc b)) ((dat0 (VA m) c).arrAt · cfg0.N) (fun w => hF0 m c w)).2
    have hrest : (Pipeline.unscopedRest (Ix := Unit) (Name := ℕ) (U := UR sig nD τ) (Lvl := ℕ) spec0 c (VA m c) : sProp 𝕄)
        = Pipeline.unscopedRest spec0 c (fun b => W4 m c (Proc.devRef .tc b)) := by
      unfold Pipeline.unscopedRest
      exact bigSep_congr fun b hb => by
        have e := W4_of_ne m c b (fun e => (Finset.mem_sdiff.mp hb).2 (Finset.mem_image.mpr ⟨3, Finset.mem_univ _, e ▸ rfl⟩))
        show (((c : Thread nD τ).loc b) ↦{fullShare} W3 m c (Proc.devRef .tc b) : sProp 𝕄) = (((c : Thread nD τ).loc b) ↦{fullShare} W4 m c (Proc.devRef .tc b))
        rw [e]
    have hj : iprop((dat0 (VA m) c).arrays ((dat0 (VA m) c).arrAt · cfg0.N) ∗ Pipeline.unscopedRest (Ix := Unit) (Name := ℕ) (U := UR sig nD τ) (Lvl := ℕ) spec0 c (VA m c))
        ⊢ (StableHlo.held (c : Thread nD τ) (Pipeline.ucRefs τ sig) (W4 m c) : sProp 𝕄) := by
      rw [hub, hrest]; exact sep_mono hjoin .rfl
    iintro ⟨Ha, HO, HY, Hrest⟩
    imodintro
    isplitl [Ha Hrest]
    · iapply hj
      isplitl [Ha]; · iexact Ha
      iexact Hrest
    isplitl [HY]; · iexact HY
    unfold Pipeline.Dat.owesAt Pipeline.owesWithin
    icases HO with ⟨%W, -, HO⟩; iexists W; iexact HO

theorem hF1 (c : Dev nD) (w : Fin cfg1.W) : (dat1 (VB m) c).arrAt w cfg1.N = W6 m c (Proc.devRef .tc (Pipeline.arrRef spec1 w)) :=
  match w with
  | ⟨0, _⟩ => (((dat1 (VB m) c).arrAt_in 0 rfl _).trans (A_eq1 (VB m) c 0)).trans (W6_of_ne m c main_v3 (by decide)).symm
  | ⟨1, _⟩ => (((dat1 (VB m) c).arrAt_in 1 rfl _).trans (A_eq1 (VB m) c 1)).trans (W6_of_ne m c main_v7 (by decide)).symm
  | ⟨2, _⟩ => (W6_v8 m c).symm
theorem hrest1 (c : Dev nD) : ∀ b, b ∉ Finset.univ.image (Pipeline.arrRef spec1) → W6 m c (Proc.devRef .tc b) = VB m c b :=
  fun b hb => W6_of_ne m c b fun e => hb (Finset.mem_image.mpr ⟨2, Finset.mem_univ _, e ▸ rfl⟩)

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VB m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (VB m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VB m c) fun w => A_eq1 (VB m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from Phi_eq1 (VB m) c 0]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from Phi_eq1 (VB m) c _]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VB m c) (fun b => W6 m c (Proc.devRef .tc b)) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as items, and the launch -/

abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m),
    .host (hseg hostOps2 hostOps2_sub hostOps2_fresh (W6 m)) ]

theorem main_run (c : Dev nD) : main (F := F) c = Pipeline.Seg.run (segs m) := by
  rw [main_chain c, Pipeline.Seg.run_eq_chain]; rfl

set_option backward.isDefEq.respectTransparency.types false in
/-- Every weakly fair execution of the program terminates; the scalar result buffer ends at the closing host
    stretch's value over the two kernels' result arrays, and the argument array ends as launched. -/
theorem run_main : θ_run defs (onTc (τ := τ) (main (F := F))) ⟨m, fun _ => 0, ρ⟩ (fun r => ∀ c : Dev nD,
      r.2.mem ((c.tc : Thread nD τ).loc main_v13) = W7 m c (Proc.devRef .tc main_v13)
      ∧ r.2.mem ((c.tc : Thread nD τ).loc main_arg0) = m ((c.tc : Thread nD τ).loc main_arg0)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m c) ∗ R c) ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c =>
      ⟨h c _ (mem_uc main_v13 (by decide)), (h c _ (mem_uc main_arg0 (by decide))).trans (W7_main_arg0 m c)⟩)

end Cert.KernelIdeal.Hand

end
-- ==== Proof.IPieces0.lean ====
/-
  What each control case of the first kernel leaves, in the skeleton's payload terms: the new running maximum is
  the payload of the maximum store, the new running sum the payload of the sum store — at a row of blocks' first
  point over the reset columns (−∞ and 0), later over what the point before left — and at the last point the
  output block is the maximum plus the log of the sum.
-/
import proofs.«118869_j12807592476698_2_alg».proof.Proof.IFrame0
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

theorem hz2 : (![0, 0] : Fin 2 → Nat) = fun _ => 0 := funext fun a => by fin_cases a <;> rfl

/-- A whole-column load after one whole-column store reads the stored payload. -/
theorem rc1 {κ : Kind} {sp : Space} (v : View sig κ sp S1024x1 .f32) (w : S1024x1.Idx → Elt F .f32) :
    v.readCov [(⟨Rect.unit ![0, 0] ![1024, 1] inb_S1024x1_S1024x1_0_0, w⟩ : View.Piece (Elt F) S1024x1 .f32)]
      (Rect.unit ![0, 0] ![1024, 1] inb_S1024x1_S1024x1_0_0).toLoadRect = w :=
  View.readCov_unit_zero (S := S1024x1) v hz2 _ w

/-- A scratch column read back through its whole view is what it was said to hold. -/
theorem ru0 (h : scM0_0.IsWhole) (x : Vec F S1024x1 .f32) : View.read (Elt F) (View.whole cc0_scratch0) (h.unread x) = x := h.read_unread x
theorem ru1 (h : scM0_1.IsWhole) (x : Vec F S1024x1 .f32) : View.read (Elt F) (View.whole cc0_scratch1) (h.unread x) = x := h.read_unread x

theorem stA_s0 (c : Dev nD) (t : Fin cfg0.N) (h0 : t.val % 8 = 0) (h1 : ¬t.val % 8 = 7) :
    (stA V c t h0 h1).2.1 = k0_pay7 (iblk0 V c 0 t) (iblk0 V c 1 t) (iblk0 V c 2 t) (k0_pay2 (F := F)) := by
  unfold stA
  dsimp only
  rw [View.read_writes_eq_canon _ _ _ (scoverA_0 V c t h0 h1)]
  unfold kernelRun0_A
  dsimp only
  sl_unfold_words
  refine (View.canon_cons_unit_zero (S := S1024x1) hz2 _ _ _).trans ?_
  simp only [View.readAt_eq_ld, Memref.IsWhole.read_unread, View.ld_unit_zero (S := S1024x64) hz2, View.ld_unit_zero (S := S1024x1) hz2, rc1, ru0, ru1]

theorem stA_s1 (c : Dev nD) (t : Fin cfg0.N) (h0 : t.val % 8 = 0) (h1 : ¬t.val % 8 = 7) :
    (stA V c t h0 h1).2.2 = k0_pay6 (iblk0 V c 0 t) (iblk0 V c 1 t) (iblk0 V c 2 t) (k0_pay2 (F := F)) (k0_pay2 (F := F)) (k0_pay3 (F := F)) := by
  unfold stA
  dsimp only
  rw [View.read_writes_eq_canon _ _ _ (scoverA_1 V c t h0 h1)]
  unfold kernelRun0_A
  dsimp only
  sl_unfold_words
  refine (View.canon_cons_unit_zero (S := S1024x1) hz2 _ _ _).trans ?_
  simp only [View.readAt_eq_ld, Memref.IsWhole.read_unread, View.ld_unit_zero (S := S1024x64) hz2, View.ld_unit_zero (S := S1024x1) hz2, rc1, ru0, ru1]

theorem stB_s0 (c : Dev nD) (t : Fin cfg0.N) (h0 : ¬t.val % 8 = 0) (h1 : ¬t.val % 8 = 7) (xs0 xs1 : Vec F S1024x1 .f32) :
    (stB V c t h0 h1 xs0 xs1).2.1 = k0_pay7 (iblk0 V c 0 t) (iblk0 V c 1 t) (iblk0 V c 2 t) xs0 := by
  unfold stB
  dsimp only
  rw [View.read_writes_eq_canon _ _ _ (scoverB_0 V c t h0 h1 xs0 xs1)]
  unfold kernelRun0_B
  dsimp only
  sl_unfold_words
  refine (View.canon_cons_unit_zero (S := S1024x1) hz2 _ _ _).trans ?_
  simp only [View.readAt_eq_ld, Memref.IsWhole.read_unread, View.ld_unit_zero (S := S1024x64) hz2, View.ld_unit_zero (S := S1024x1) hz2, rc1, ru0, ru1]

theorem stB_s1 (c : Dev nD) (t : Fin cfg0.N) (h0 : ¬t.val % 8 = 0) (h1 : ¬t.val % 8 = 7) (xs0 xs1 : Vec F S1024x1 .f32) :
    (stB V c t h0 h1 xs0 xs1).2.2 = k0_pay6 (iblk0 V c 0 t) (iblk0 V c 1 t) (iblk0 V c 2 t) xs0 xs0 xs1 := by
  unfold stB
  dsimp only
  rw [View.read_writes_eq_canon _ _ _ (scoverB_1 V c t h0 h1 xs0 xs1)]
  unfold kernelRun0_B
  dsimp only
  sl_unfold_words
  refine (View.canon_cons_unit_zero (S := S1024x1) hz2 _ _ _).trans ?_
  simp only [View.readAt_eq_ld, Memref.IsWhole.read_unread, View.ld_unit_zero (S := S1024x64) hz2, View.ld_unit_zero (S := S1024x1) hz2, rc1, ru0, ru1]

theorem stC_s0 (c : Dev nD) (t : Fin cfg0.N) (h0 : ¬t.val % 8 = 0) (h1 : t.val % 8 = 7) (xs0 xs1 : Vec F S1024x1 .f32) :
    (stC V c t h0 h1 xs0 xs1).2.1 = k0_pay7 (iblk0 V c 0 t) (iblk0 V c 1 t) (iblk0 V c 2 t) xs0 := by
  unfold stC
  dsimp only
  rw [View.read_writes_eq_canon _ _ _ (scoverC_0 V c t h0 h1 xs0 xs1)]
  unfold kernelRun0_C
  dsimp only
  sl_unfold_words
  refine (View.canon_cons_unit_zero (S := S1024x1) hz2 _ _ _).trans ?_
  simp only [View.readAt_eq_ld, Memref.IsWhole.read_unread, View.ld_unit_zero (S := S1024x64) hz2, View.ld_unit_zero (S := S1024x1) hz2, rc1, ru0, ru1]

theorem stC_s1 (c : Dev nD) (t : Fin cfg0.N) (h0 : ¬t.val % 8 = 0) (h1 : t.val % 8 = 7) (xs0 xs1 : Vec F S1024x1 .f32) :
    (stC V c t h0 h1 xs0 xs1).2.2 = k0_pay6 (iblk0 V c 0 t) (iblk0 V c 1 t) (iblk0 V c 2 t) xs0 xs0 xs1 := by
  unfold stC
  dsimp only
  rw [View.read_writes_eq_canon _ _ _ (scoverC_1 V c t h0 h1 xs0 xs1)]
  unfold kernelRun0_C
  dsimp only
  sl_unfold_words
  refine (View.canon_cons_unit_zero (S := S1024x1) hz2 _ _ _).trans ?_
  simp only [View.readAt_eq_ld, Memref.IsWhole.read_unread, View.ld_unit_zero (S := S1024x64) hz2, View.ld_unit_zero (S := S1024x1) hz2, rc1, ru0, ru1]

theorem stC_o (c : Dev nD) (t : Fin cfg0.N) (h0 : ¬t.val % 8 = 0) (h1 : t.val % 8 = 7) (xs0 xs1 : Vec F S1024x1 .f32) :
    (stC V c t h0 h1 xs0 xs1).1 = k0_pay1 (k0_pay7 (iblk0 V c 0 t) (iblk0 V c 1 t) (iblk0 V c 2 t) xs0) (k0_pay6 (iblk0 V c 0 t) (iblk0 V c 1 t) (iblk0 V c 2 t) xs0 xs0 xs1) := by
  unfold stC
  dsimp only
  rw [View.read_writes_eq_canon _ _ _ (coverC_3 V c t h0 h1 xs0 xs1)]
  unfold kernelRun0_C
  dsimp only
  sl_unfold_words
  refine (View.canon_cons_unit_zero (S := S1024x1) hz2 _ _ _).trans ?_
  simp only [View.readAt_eq_ld, Memref.IsWhole.read_unread, View.ld_unit_zero (S := S1024x64) hz2, View.ld_unit_zero (S := S1024x1) hz2, rc1, ru0, ru1]

end
end Cert.KernelIdeal.Hand
end
-- ==== Proof.IStep.lean ====
/-
  One grid point of the first kernel's body, at the ideal values (a float is an extended real): the values the body
  computes stay REAL.

  The body keeps, per row, a running maximum `m` and a running sum `l`. With `s = q·kᵀ − d` (a 1024 × 1024 tile of
  reals when `q`, `k`, `d` are real), one point replaces
    `m ← max m (max_j s_j)`,   `l ← exp (m_old − m_new) · l + ∑_j exp (s_j − m_new)`.
  The facts proved here, element by element:
  * every entry of `s` is a real (a finite sum of products of reals, minus a real);
  * the maximum over a non-empty row of reals, started from `⊥`, is a real (`max ⊥ x = x`), so `m_new` is a real
    whenever the old `m` is not `⊤` (it is `⊥` or a real);
  * `exp` of a real is a positive real and `exp ⊥ = 0`; `m_old − m_new` is `⊥` or a real, so the rescaling factor
    is a real `≥ 0`, its product with `l ≥ 0` a real `≥ 0`; the row sum of positive reals over a non-empty row is a
    positive real: the new `l` is a positive real;
  * `log` of a positive real is a real, so `m + log l` is a real;
  * the values a row of blocks starts from, `⊥` for `m` and `0` for `l`, satisfy the hypotheses of the step.
  No exact value is computed: a layout operation (shape cast, transpose, broadcast) reads its operand at SOME index,
  which is all that "every element is a real" needs.
-/
import proofs.«118869_j12807592476698_2_alg».proof.Proof.Gen.KernelIdeal.Skeleton
import Idealize.ShloMosaic.PureOps.Ideal.Laws
import Idealize.ShloMosaic.Lib.ValueIdx
import Idealize.ShloMosaic.Lib.ValueLayout

noncomputable section

namespace Cert.KernelIdeal.StepVal

open Idealize.ShloMosaic Cert.KernelIdeal Cert.KernelIdeal.Gen
open scoped BigOperators

/-! ## Extended reals that are reals -/

/-- A sum of two reals is a real. -/
theorem real_add {x y : EReal} (hx : ∃ r : ℝ, x = (r : EReal)) (hy : ∃ r : ℝ, y = (r : EReal)) :
    ∃ r : ℝ, x + y = (r : EReal) := by
  obtain ⟨a, rfl⟩ := hx; obtain ⟨b, rfl⟩ := hy
  exact ⟨a + b, (EReal.coe_add a b).symm⟩

/-- A difference of two reals is a real. -/
theorem real_sub {x y : EReal} (hx : ∃ r : ℝ, x = (r : EReal)) (hy : ∃ r : ℝ, y = (r : EReal)) :
    ∃ r : ℝ, x - y = (r : EReal) := by
  obtain ⟨a, rfl⟩ := hx; obtain ⟨b, rfl⟩ := hy
  exact ⟨a - b, (EReal.coe_sub a b).symm⟩

/-- A product of two reals is a real. -/
theorem real_mul {x y : EReal} (hx : ∃ r : ℝ, x = (r : EReal)) (hy : ∃ r : ℝ, y = (r : EReal)) :
    ∃ r : ℝ, x * y = (r : EReal) := by
  obtain ⟨a, rfl⟩ := hx; obtain ⟨b, rfl⟩ := hy
  exact ⟨a * b, (EReal.coe_mul a b).symm⟩

/-- The inclusion of the reals commutes with finite sums. -/
theorem coe_sum {ι : Type*} (s : Finset ι) (f : ι → ℝ) : ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- A finite sum of reals is a real. -/
theorem real_sum {ι : Type*} (s : Finset ι) (f : ι → EReal) (hf : ∀ i, ∃ r : ℝ, f i = (r : EReal)) :
    ∃ r : ℝ, ∑ i ∈ s, f i = (r : EReal) := by
  choose g hg using hf
  exact ⟨∑ i ∈ s, g i, by rw [coe_sum]; exact Finset.sum_congr rfl fun i _ => hg i⟩

/-- A sum of positive reals over a non-empty set is a positive real. -/
theorem pos_sum {ι : Type*} (s : Finset ι) (hs : s.Nonempty) (f : ι → EReal)
    (hf : ∀ i, ∃ r : ℝ, 0 < r ∧ f i = (r : EReal)) : ∃ r : ℝ, 0 < r ∧ ∑ i ∈ s, f i = (r : EReal) := by
  choose g hg using hf
  exact ⟨∑ i ∈ s, g i, Finset.sum_pos (fun i _ => (hg i).1) hs,
    by rw [coe_sum]; exact Finset.sum_congr rfl fun i _ => (hg i).2⟩

/-- The maximum of a value below `⊤` and a real is a real: the value is `⊥` (and the maximum the real) or a real. -/
theorem real_max {x y : EReal} (hx : x ≠ ⊤) (hy : ∃ r : ℝ, y = (r : EReal)) : ∃ r : ℝ, max x y = (r : EReal) := by
  obtain ⟨b, rfl⟩ := hy
  induction x using EReal.rec with
  | bot => exact ⟨b, max_eq_right bot_le⟩
  | top => exact absurd rfl hx
  | coe a =>
    rcases max_choice (a : EReal) (b : EReal) with h | h
    · exact ⟨a, h⟩
    · exact ⟨b, h⟩

/-- The fold of `max` from `⊥` over a non-empty set of reals is a real. -/
theorem real_fold_max {ι : Type*} (s : Finset ι) (hs : s.Nonempty) (f : ι → EReal)
    (hf : ∀ i, ∃ r : ℝ, f i = (r : EReal)) : ∃ r : ℝ, s.fold max ⊥ f = (r : EReal) := by
  classical
  induction hs using Finset.Nonempty.cons_induction with
  | singleton a =>
    obtain ⟨r, hr⟩ := hf a
    exact ⟨r, by rw [Finset.fold_singleton, hr]; exact max_eq_left bot_le⟩
  | cons a s ha _ ih =>
    obtain ⟨r, hr⟩ := ih
    rw [Finset.fold_cons, hr, max_comm]
    exact real_max (EReal.coe_ne_top r) (hf a)

/-- `exp` of a real is a positive real. -/
theorem exp_pos_of_real {x : EReal} (hx : ∃ r : ℝ, x = (r : EReal)) : ∃ r : ℝ, 0 < r ∧ Ideal.exp x = (r : EReal) := by
  obtain ⟨a, rfl⟩ := hx
  exact ⟨Real.exp a, Real.exp_pos a, Ideal.exp_coe a⟩

/-- `exp (x − y)` for `x` below `⊤` and `y` a real is a real `≥ 0`: `x − y` is `⊥` (and the value `0`) or a real. -/
theorem exp_sub_nonneg {x y : EReal} (hx : x ≠ ⊤) (hy : ∃ r : ℝ, y = (r : EReal)) :
    ∃ r : ℝ, 0 ≤ r ∧ Ideal.exp (x - y) = (r : EReal) := by
  obtain ⟨b, rfl⟩ := hy
  induction x using EReal.rec with
  | bot => exact ⟨0, le_rfl, by rw [EReal.bot_sub, Ideal.exp_bot, EReal.coe_zero]⟩
  | top => exact absurd rfl hx
  | coe a => exact ⟨Real.exp (a - b), (Real.exp_pos _).le, by rw [← EReal.coe_sub, Ideal.exp_coe]⟩

/-- A product of two reals `≥ 0` is a real `≥ 0`. -/
theorem nonneg_mul {x y : EReal} (hx : ∃ r : ℝ, 0 ≤ r ∧ x = (r : EReal)) (hy : ∃ r : ℝ, 0 ≤ r ∧ y = (r : EReal)) :
    ∃ r : ℝ, 0 ≤ r ∧ x * y = (r : EReal) := by
  obtain ⟨a, ha, rfl⟩ := hx; obtain ⟨b, hb, rfl⟩ := hy
  exact ⟨a * b, mul_nonneg ha hb, (EReal.coe_mul a b).symm⟩

/-- A real `≥ 0` plus a positive real is a positive real. -/
theorem nonneg_add_pos {x y : EReal} (hx : ∃ r : ℝ, 0 ≤ r ∧ x = (r : EReal)) (hy : ∃ r : ℝ, 0 < r ∧ y = (r : EReal)) :
    ∃ r : ℝ, 0 < r ∧ x + y = (r : EReal) := by
  obtain ⟨a, ha, rfl⟩ := hx; obtain ⟨b, hb, rfl⟩ := hy
  exact ⟨a + b, add_pos_of_nonneg_of_pos ha hb, (EReal.coe_add a b).symm⟩

/-- `log` of a positive real is a real. -/
theorem log_real_of_pos {x : EReal} (hx : ∃ r : ℝ, 0 < r ∧ x = (r : EReal)) : ∃ r : ℝ, Ideal.log x = (r : EReal) := by
  obtain ⟨a, ha, rfl⟩ := hx
  exact ⟨Real.log a, by rw [Ideal.log_coe, if_neg (not_le.mpr ha)]⟩

/-- The f32 word `0xFF800000` denotes `⊥`. -/
theorem ofBits_neg_inf_f32 : Ideal.ofBits .f32 0xFF800000#32 = ⊥ := by simp [Ideal.ofBits, Ideal.ieee]

/-! ## Vectors whose every element has a property -/

/-- "Is a real", "is a positive real", "is a real `≥ 0`". -/
abbrev IsR (x : EReal) : Prop := ∃ r : ℝ, x = (r : EReal)
abbrev IsPos (x : EReal) : Prop := ∃ r : ℝ, 0 < r ∧ x = (r : EReal)
abbrev IsNN (x : EReal) : Prop := ∃ r : ℝ, 0 ≤ r ∧ x = (r : EReal)

variable {α : Type}

/-- A shape cast reads its operand at some index. -/
theorem all_shapeCast {s t : Shape} {P : α → Prop} (v : s.Idx → α) (h : s.ShapeCasts t) (hv : ∀ i, P (v i)) :
    ∀ j, P (shapeCast t v h j) := fun _ => hv _

/-- A transpose reads its operand at some index. -/
theorem all_transpose {s t : Shape} {P : α → Prop} (perm : List (Fin s.rank)) (v : s.Idx → α) (h : s.Transposes perm t)
    (hv : ∀ i, P (v i)) : ∀ j, P (transpose t perm v h j) := fun _ => hv _

/-- A broadcast reads its operand at some index. -/
theorem all_broadcastTo {s t : Shape} {P : α → Prop} (v : s.Idx → α) (h : s.Broadcasts t) (hv : ∀ i, P (v i)) :
    ∀ j, P (broadcastTo t v h j) := fun _ => hv _

/-- A contraction of two real operands into the zero accumulator is real at every index: a finite sum of products. -/
theorem real_matmul_zero {sl sr so : Shape} {φ₁ φ₂ : FTy} (d : DotDims sl sr so) (prec : Option ContractPrecision)
    (lhs : FVec Ideal sl φ₁) (rhs : FVec Ideal sr φ₂) (hl : ∀ i, IsR (lhs i)) (hr : ∀ i, IsR (rhs i)) (j : so.Idx) :
    IsR (matmul d prec lhs rhs (constant so .f32 0x00000000#32) j) := by
  show ∃ r : ℝ, FloatOps.matmul d prec lhs rhs (constant so .f32 0x00000000#32) j = (r : EReal)
  rw [Ideal.matmul_constant_zero_apply]
  exact real_sum _ _ fun k => real_mul (hl _) (hr _)

/-- The maximum along one non-empty axis of a real vector, started from a word that denotes `⊥`, is real. -/
theorem real_rowmax {s t : Shape} {φ : FTy} {a : Fin s.rank} (src : FVec Ideal s φ) (acc : BitVec φ.bits)
    (h : s.Reduces [a] t) (hφ : FKind.Formats φ) (hacc : acc = FKind.maximumf.neutral φ hφ)
    (hb : Ideal.ofBits φ acc = ⊥) (hn : 0 < s.size a) (hsrc : ∀ i, IsR (src i)) (j : t.Idx) :
    IsR (multiReduction .maximumf [a] t src acc h hφ hacc j) := by
  show ∃ r : ℝ, multiReduction .maximumf [a] t src acc h hφ hacc j = (r : EReal)
  rw [Ideal.multiReduction_maximumf_single src acc h hφ hacc j]
  show ∃ r : ℝ, (Finset.univ : Finset (Fin (s.size a))).fold max (Ideal.ofBits φ acc) (src ∘ h.lift j) = (r : EReal)
  rw [hb]
  exact real_fold_max _ ⟨⟨0, hn⟩, Finset.mem_univ _⟩ _ fun k => hsrc _

/-- The sum along one non-empty axis of a vector of positive reals is a positive real. -/
theorem pos_rowsum {s t : Shape} {φ : FTy} {a : Fin s.rank} (src : FVec Ideal s φ) (acc : BitVec φ.bits)
    (h : s.Reduces [a] t) (hφ : FKind.Formats φ) (hacc : acc = FKind.add.neutral φ hφ)
    (hn : 0 < s.size a) (hsrc : ∀ i, IsPos (src i)) (j : t.Idx) :
    IsPos (multiReduction .add [a] t src acc h hφ hacc j) := by
  show ∃ r : ℝ, 0 < r ∧ multiReduction .add [a] t src acc h hφ hacc j = (r : EReal)
  rw [Ideal.multiReduction_add_single src acc h hφ hacc j]
  exact pos_sum _ ⟨⟨0, hn⟩, Finset.mem_univ _⟩ _ fun k => hsrc _

/-! ## The payloads -/

/-- Every entry of `s = q·kᵀ − d` is a real. -/
theorem pay4_real (q k : Vec Ideal S1024x64 .bf16) (d : Vec Ideal S1024x1 .f32)
    (hq : ∀ i, IsR (q i)) (hk : ∀ i, IsR (k i)) (hd : ∀ i, IsR (d i)) :
    ∀ j, IsR (k0_pay4 (F := Ideal) q k d j) := by
  intro j
  unfold k0_pay4
  rw [ValueIdx.subf_apply]
  refine real_sub ?_ ?_
  · refine real_matmul_zero _ _ _ _ (fun i => ?_) (fun i => ?_) j
    · exact all_shapeCast (P := IsR) _ _ hq i
    · exact all_transpose (P := IsR) _ _ _ (all_shapeCast (P := IsR) _ _ hk) i
  · exact all_broadcastTo (P := IsR) _ _ (all_shapeCast (P := IsR) _ _ hd) j

/-- The new running maximum is a real when the old one is below `⊤`. -/
theorem pay5_real (q k : Vec Ideal S1024x64 .bf16) (d m_in : Vec Ideal S1024x1 .f32)
    (hs : ∀ j, IsR (k0_pay4 (F := Ideal) q k d j)) (hm : ∀ i, (m_in i : EReal) ≠ ⊤) :
    ∀ i, IsR (k0_pay5 (F := Ideal) q k d m_in i) := by
  intro i
  unfold k0_pay5
  generalize k0_pay4 (F := Ideal) q k d = s at hs ⊢
  rw [ValueIdx.maximumf_apply]
  refine real_max (hm i) ?_
  refine all_shapeCast (P := IsR) _ _ (fun j => ?_) i
  exact real_rowmax s _ _ _ _ ofBits_neg_inf_f32 (by decide) hs j

/-- The new running sum is a positive real. -/
theorem pay6_pos (q k : Vec Ideal S1024x64 .bf16) (d m_in l_in : Vec Ideal S1024x1 .f32)
    (hs : ∀ j, IsR (k0_pay4 (F := Ideal) q k d j)) (hm : ∀ i, (m_in i : EReal) ≠ ⊤) (hl : ∀ i, IsNN (l_in i)) :
    ∀ i, IsPos (k0_pay6 (F := Ideal) q k d m_in m_in l_in i) := by
  have h5 := pay5_real q k d m_in hs hm
  intro i
  unfold k0_pay6
  generalize k0_pay5 (F := Ideal) q k d m_in = mn at h5 ⊢
  generalize k0_pay4 (F := Ideal) q k d = s at hs ⊢
  refine all_shapeCast (P := IsPos) _ _ (fun i => ?_) i
  rw [ValueIdx.addf_apply, ValueIdx.mulf_apply]
  refine nonneg_add_pos (nonneg_mul ?_ (hl i)) ?_
  · show ∃ r : ℝ, 0 ≤ r ∧ Ideal.exp (m_in i - mn i) = (r : EReal)
    exact exp_sub_nonneg (hm i) (h5 i)
  · refine all_shapeCast (P := IsPos) _ _ (fun j => ?_) i
    refine pos_rowsum _ _ _ _ _ (by decide) (fun j' => ?_) j
    show ∃ r : ℝ, 0 < r ∧ Ideal.exp (s j' - broadcastTo S1024x1024 mn _ j') = (r : EReal)
    exact exp_pos_of_real (real_sub (hs j') (all_broadcastTo (P := IsR) _ _ h5 j'))

/-! ## The three facts of one step -/

/-- ONE POINT: from real inputs, a running maximum below `⊤` and a running sum that is a real `≥ 0`, the point
    stores a real maximum and a positive real sum. -/
theorem step_real (q k : Vec Ideal S1024x64 .bf16) (d m_in l_in : Vec Ideal S1024x1 .f32)
    (hq : ∀ i, ∃ r : ℝ, (q i : EReal) = (r : EReal)) (hk : ∀ i, ∃ r : ℝ, (k i : EReal) = (r : EReal))
    (hd : ∀ i, ∃ r : ℝ, (d i : EReal) = (r : EReal))
    (hm : ∀ i, (m_in i : EReal) ≠ ⊤) (hl : ∀ i, ∃ r : ℝ, 0 ≤ r ∧ (l_in i : EReal) = (r : EReal)) :
    (∀ i, ∃ r : ℝ, (k0_pay7 (F := Ideal) q k d m_in i : EReal) = (r : EReal))
    ∧ (∀ i, ∃ r : ℝ, 0 < r ∧ (k0_pay6 (F := Ideal) q k d m_in m_in l_in i : EReal) = (r : EReal)) := by
  have hs := pay4_real q k d hq hk hd
  refine ⟨fun i => ?_, pay6_pos q k d m_in l_in hs hm hl⟩
  unfold k0_pay7
  exact all_shapeCast (P := IsR) _ _ (pay5_real q k d m_in hs hm) i

/-- THE START of a row of blocks: the maximum column holds `⊥` (below `⊤`), the sum column `0` (a real `≥ 0`). -/
theorem init_ok : (∀ i, (k0_pay2 (F := Ideal) i : EReal) ≠ ⊤)
    ∧ (∀ i, ∃ r : ℝ, 0 ≤ r ∧ (k0_pay3 (F := Ideal) i : EReal) = (r : EReal)) := by
  refine ⟨fun i => ?_, fun i => ?_⟩
  · unfold k0_pay2
    refine all_shapeCast (P := fun x : EReal => x ≠ ⊤) _ _ (fun _ => ?_) i
    show Ideal.ofBits .f32 0xFF800000#32 ≠ ⊤
    rw [ofBits_neg_inf_f32]; exact bot_ne_top
  · unfold k0_pay3
    refine all_shapeCast (P := IsNN) _ _ (fun _ => ?_) i
    show ∃ r : ℝ, 0 ≤ r ∧ Ideal.ofBits .f32 0x00000000#32 = (r : EReal)
    exact ⟨0, le_rfl, by rw [Ideal.ofBits_zero_f32, EReal.coe_zero]⟩

/-- THE END of a row of blocks: `m + log l` is a real when `m` is a real and `l` a positive real. -/
theorem out_real (m l : Vec Ideal S1024x1 .f32) (hm : ∀ i, ∃ r : ℝ, (m i : EReal) = (r : EReal))
    (hl : ∀ i, ∃ r : ℝ, 0 < r ∧ (l i : EReal) = (r : EReal)) :
    ∀ i, ∃ r : ℝ, (k0_pay1 (F := Ideal) m l i : EReal) = (r : EReal) := by
  intro i
  unfold k0_pay1
  rw [ValueIdx.addf_apply]
  refine real_add (hm i) ?_
  show ∃ r : ℝ, Ideal.log (l i) = (r : EReal)
  exact log_real_of_pos (hl i)

end Cert.KernelIdeal.StepVal

end
-- ==== Proof.IValue0.lean ====
/-
  The first kernel at the ideal instance: when the scaled inputs and the squared norms it is handed are real
  numbers, after every grid point the running maximum is a real and the running sum a positive real, and at the
  last point of each row of blocks the stored block — the maximum plus the log of the sum — is real.
  By induction along the grid: a row's first point starts from the reset columns (−∞ and 0), every later point
  from what the point before left.
-/
import proofs.«118869_j12807592476698_2_alg».proof.Proof.IPieces0
import proofs.«118869_j12807592476698_2_alg».proof.Proof.IStep

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Cert.KernelIdeal.StepVal

section
variable (V : (c : Dev nD) → (b : Ref sig .tc) → Buf (Elt Ideal) ((c : Thread nD τ).loc b))

/-- A window's block holds entries of the array it is cut from. -/
theorem blk0_real (c : Dev nD) (t : Fin cfg0.N) (h : ∀ i, ∃ r : ℝ, (V c main_v5 i : EReal) = (r : EReal)) (y) :
    ∃ r : ℝ, (iblk0 V c 0 t y : EReal) = (r : EReal) := by
  show ∃ r : ℝ, (V c main_v5 (((cfg0.win 0).blk t).view.emb y) : EReal) = (r : EReal)
  exact h _
theorem blk1_real (c : Dev nD) (t : Fin cfg0.N) (h : ∀ i, ∃ r : ℝ, (V c main_v5 i : EReal) = (r : EReal)) (y) :
    ∃ r : ℝ, (iblk0 V c 1 t y : EReal) = (r : EReal) := by
  show ∃ r : ℝ, (V c main_v5 (((cfg0.win 1).blk t).view.emb y) : EReal) = (r : EReal)
  exact h _
theorem blk2_real (c : Dev nD) (t : Fin cfg0.N) (h : ∀ i, ∃ r : ℝ, (V c main_v4 i : EReal) = (r : EReal)) (y) :
    ∃ r : ℝ, (iblk0 V c 2 t y : EReal) = (r : EReal) := by
  show ∃ r : ℝ, (V c main_v4 (((cfg0.win 2).blk t).view.emb y) : EReal) = (r : EReal)
  exact h _

/-- What the grid leaves after each point. -/
theorem outs_inv (c : Dev nD) (hq : ∀ i, ∃ r : ℝ, (V c main_v5 i : EReal) = (r : EReal)) (hd : ∀ i, ∃ r : ℝ, (V c main_v4 i : EReal) = (r : EReal)) :
    ∀ (n : ℕ) (hn : n < cfg0.N),
      (∀ y, ∃ r : ℝ, ((outsAt0 V c n hn).2.1 y : EReal) = (r : EReal))
      ∧ (∀ y, ∃ r : ℝ, 0 < r ∧ ((outsAt0 V c n hn).2.2 y : EReal) = (r : EReal))
      ∧ (n % 8 = 7 → ∀ y, ∃ r : ℝ, ((outsAt0 V c n hn).1 y : EReal) = (r : EReal)) := by
  intro n
  induction n with
  | zero =>
    intro hn
    have h0 : (⟨0, hn⟩ : Fin cfg0.N).val % 8 = 0 := rfl
    have h1 : ¬ (⟨0, hn⟩ : Fin cfg0.N).val % 8 = 7 := by show ¬ (0 % 8 = 7); decide
    have e := outsAt0_A V c ⟨0, hn⟩ h0 h1
    have hs := step_real _ _ _ _ _ (blk0_real V c ⟨0, hn⟩ hq) (blk1_real V c ⟨0, hn⟩ hq) (blk2_real V c ⟨0, hn⟩ hd) init_ok.1 init_ok.2
    refine ⟨?_, ?_, fun h => absurd h (by decide)⟩
    · rw [show outsAt0 V c 0 hn = stA V c ⟨0, hn⟩ h0 h1 from e, stA_s0]; exact hs.1
    · rw [show outsAt0 V c 0 hn = stA V c ⟨0, hn⟩ h0 h1 from e, stA_s1]; exact hs.2
  | succ k ih =>
    intro hn
    have ihk := ih (Nat.lt_of_succ_lt hn)
    by_cases h0 : (k + 1) % 8 = 0
    · have h1 : ¬ (k + 1) % 8 = 7 := by omega
      have e := outsAt0_A V c ⟨k + 1, hn⟩ h0 h1
      have hs := step_real _ _ _ _ _ (blk0_real V c ⟨k + 1, hn⟩ hq) (blk1_real V c ⟨k + 1, hn⟩ hq) (blk2_real V c ⟨k + 1, hn⟩ hd) init_ok.1 init_ok.2
      refine ⟨?_, ?_, fun h => absurd h h1⟩
      · rw [show outsAt0 V c (k + 1) hn = stA V c ⟨k + 1, hn⟩ h0 h1 from e, stA_s0]; exact hs.1
      · rw [show outsAt0 V c (k + 1) hn = stA V c ⟨k + 1, hn⟩ h0 h1 from e, stA_s1]; exact hs.2
    · have hm : ∀ i, ((outsAt0 V c k (Nat.lt_of_succ_lt hn)).2.1 i : EReal) ≠ ⊤ := fun i => by
        obtain ⟨r, hr⟩ := ihk.1 i; rw [hr]; exact EReal.coe_ne_top r
      have hl : ∀ i, ∃ r : ℝ, 0 ≤ r ∧ ((outsAt0 V c k (Nat.lt_of_succ_lt hn)).2.2 i : EReal) = (r : EReal) := fun i => by
        obtain ⟨r, hr0, hr⟩ := ihk.2.1 i; exact ⟨r, hr0.le, hr⟩
      have hs := step_real _ _ _ _ _ (blk0_real V c ⟨k + 1, hn⟩ hq) (blk1_real V c ⟨k + 1, hn⟩ hq) (blk2_real V c ⟨k + 1, hn⟩ hd) hm hl
      by_cases h1 : (k + 1) % 8 = 7
      · have e := outsAt0_C V c ⟨k + 1, hn⟩ h0 h1
        refine ⟨?_, ?_, fun _ => ?_⟩
        · rw [show outsAt0 V c (k + 1) hn = _ from e, stC_s0]; exact hs.1
        · rw [show outsAt0 V c (k + 1) hn = _ from e, stC_s1]; exact hs.2
        · rw [show outsAt0 V c (k + 1) hn = _ from e, stC_o]; exact out_real _ _ hs.1 hs.2
      · have e := outsAt0_B V c ⟨k + 1, hn⟩ h0 h1
        refine ⟨?_, ?_, fun h => absurd h h1⟩
        · rw [show outsAt0 V c (k + 1) hn = _ from e, stB_s0]; exact hs.1
        · rw [show outsAt0 V c (k + 1) hn = _ from e, stB_s1]; exact hs.2

end

end Cert.KernelIdeal.Hand

end
-- ==== Proof.IValue0Cover.lean ====
/-
  The first pallas_call: its result array after the run, read back from the blocks the points wrote.
  The result is an [8192, 1] column written in 1024 × 1 blocks; point (i, k) holds block i, and the block is written
  back at k = 7 only, so the eight points 8·i + 7 write the eight blocks, which tile the 8192 rows: row r lies in the
  block of point 8·(r / 1024) + 7. Every entry of the array after the run is therefore an entry of the block SOME
  writing point left, and a property every entry of every such block has, every entry of the array has.
-/
import proofs.«118869_j12807592476698_2_alg».proof.Proof.IFrame0
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## Where the result's blocks lie -/

/-- The result window's block index at point `t` = (i, k) is (i, 0), and i = t / 8. -/
theorem idx_facts0_3 : ∀ t : Fin cfg0.N, win0_3.index t (0 : Fin 2) = t.val / 8 ∧ win0_3.index t (1 : Fin 2) = 0 :=
  (by decide +kernel : ∀ t : Fin grid0.N, _)

/-- A row of the array is in point `t`'s block iff each coordinate is in the block's range on its axis. -/
theorem mem_blk0_3 (t : Fin cfg0.N) (i : S8192x1.Idx) :
    i ∈ ((cfg0.win 3).blk t).view.set ↔ ∀ a : Fin 2, win0_3.index t a * S1024x1.size a ≤ (i a).val ∧ (i a).val < win0_3.index t a * S1024x1.size a + S1024x1.size a := by
  show i ∈ ((View.whole main_v6).slice (win0_3.rect t)).set ↔ _
  rw [View.set_slice_whole, Rect.mem_set_unit]
  exact Iff.rfl

/-- THE BLOCKS TILE THE ARRAY: row r lies in the block the point 8·(r / 1024) + 7 writes back. -/
theorem cover0_3 (i : S8192x1.Idx) :
    ∃ t : Fin cfg0.N, (cfg0.win 3).flush t = true ∧ i ∈ ((cfg0.win 3).blk t).view.set := by
  have hi0 : (i 0).val < 8192 := (i 0).isLt
  have hi1 : (i 1).val < 1 := (i 1).isLt
  have hN : cfg0.N = 64 := N_0
  have hlt : 8 * ((i 0).val / 1024) + 7 < cfg0.N := by omega
  obtain ⟨e0, e1⟩ := idx_facts0_3 ⟨8 * ((i 0).val / 1024) + 7, hlt⟩
  refine ⟨⟨8 * ((i 0).val / 1024) + 7, hlt⟩, (flush0_3 _).mpr (by show (8 * ((i 0).val / 1024) + 7) % 8 = 7; omega), ?_⟩
  rw [mem_blk0_3]
  intro a
  match a with
  | ⟨0, _⟩ =>
    show win0_3.index ⟨8 * ((i 0).val / 1024) + 7, hlt⟩ (0 : Fin 2) * 1024 ≤ (i 0).val
      ∧ (i 0).val < win0_3.index ⟨8 * ((i 0).val / 1024) + 7, hlt⟩ (0 : Fin 2) * 1024 + 1024
    rw [e0]
    show (8 * ((i 0).val / 1024) + 7) / 8 * 1024 ≤ (i 0).val ∧ (i 0).val < (8 * ((i 0).val / 1024) + 7) / 8 * 1024 + 1024
    omega
  | ⟨1, _⟩ =>
    show win0_3.index ⟨8 * ((i 0).val / 1024) + 7, hlt⟩ (1 : Fin 2) * 1 ≤ (i 1).val
      ∧ (i 1).val < win0_3.index ⟨8 * ((i 0).val / 1024) + 7, hlt⟩ (1 : Fin 2) * 1 + 1
    rw [e1]
    omega

section
variable (V : (c : Dev nD) → (b : Ref sig .tc) → Buf (Elt F) ((c : Thread nD τ).loc b))

/-- THE RESULT ARRAY, ENTRY BY ENTRY: a property of every entry of the block each writing point (k = 7) left is a
    property of every entry of the array after the run. -/
theorem arrAt0_all (P : Elt F .f32 → Prop) (c : Dev nD)
    (h : ∀ (t : Fin cfg0.N), t.val % 8 = 7 → ∀ y : S1024x1.Idx, P ((outsAt0 V c t.val t.isLt).1 y)) :
    ∀ i, P ((dat0 V c).arrAt 3 cfg0.N i) := by
  intro i
  refine (dat0 V c).arrAt_forall_of_cover 3 (fun _ x => P x) (fun t hf y => ?_) cover0_3 i
  show P ((cfg0.win 3).cut (grid0.coords t) ((dat0 V c).after 3 t) y)
  rw [after0_3]
  exact h t ((flush0_3 t).mp hf) _

end

end Cert.KernelIdeal.Hand

end
-- ==== Proof.IFrame1Value.lean ====
/-
  The second pallas_call of the kernel program (custom_call 1, `cc1__ir_log_sum_kernel`, pipeline 1, a 16×16 grid):
  WHAT ITS RESULT ARRAY ENDS HOLDING at the ideal instance — `⊥`, that is −∞.

  First, at any float instance, each case of the body read back as a value: the body's last store covers the 1×1
  output block, so what a point leaves there is that store's payload `k1_pay2` — the accumulator read back plus the
  sum over the point's 512×512 tile of the logarithms of its entries — of the point's two input blocks and of the
  accumulator the body found: the zero block it has just stored (case A, the first point) or what the buffer held
  on entry (case B).

  Then the mathematics, over the extended reals. The tile's entry at row r and column c is the zero word where
  r + 512·i = c + 512·j (i, j the grid coordinates) and −(a_r·(a_r + b_c)) elsewhere. At the first point i = j = 0,
  so the entry (0, 0) is the zero word, whose logarithm is `⊥`. In the extended reals `⊥` absorbs under addition
  (`⊥ + x = x + ⊥ = ⊥` for every x), so a finite sum with one term `⊥` is `⊥` whatever its other terms are: the sum
  along row 0 is `⊥`, hence the sum of the rows' sums is `⊥`, hence the value stored at the first point is
  (accumulator) + `⊥` = `⊥` — whatever the blocks a and b hold; no finiteness of the inputs is used. At every later
  point the value stored is (accumulator found) + (tile's sum) with the accumulator found equal to what the point
  before left, so by induction on the point it is `⊥` + (anything) = `⊥`. The output block is the whole 1×1 result
  array and is written back once, after the last point: the array ends at `⊥`.
-/
import proofs.«118869_j12807592476698_2_alg».proof.Proof.IFrame1
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.SL.Sem
open Idealize.ShloMosaic.Pipeline (Dat)
open Idealize.ShloMosaic.ValueIdx
open Cert.KernelIdeal Cert.KernelIdeal.Gen
open Idealize.ShloMosaic.Tactic

/-! ## Each case read back as a value, at any float instance -/

section Generic
variable {F : FTy → Type} [FloatOps F]

theorem hz2 : (![0, 0] : Fin 2 → Nat) = fun _ => 0 := funext fun a => by fin_cases a <;> rfl

theorem out1_B_2_eq (c : Dev nD) (i : grid1.Coords) (a2 : Memref sig .tc .vmem S512x1 .f32) (h2 : a2.IsWhole) (a3 : Memref sig .tc .vmem S1x512 .f32) (h3 : a3.IsWhole) (a4 : Memref sig .tc .vmem S1x1 .f32) (h4 : a4.IsWhole) (hc : ¬cond1_0 i)
    (x0 : Vec F S512x1 .f32) (x1 : Vec F S1x512 .f32) (xo : Vec F S1x1 .f32) :
    out1_B_2 c i a2 h2 a3 h3 a4 h4 hc x0 x1 xo = k1_pay2 i x0 x1 xo := by
  unfold out1_B_2
  rw [View.read_writes_eq_canon _ _ _ (cover1_B_2 c i a2 h2 a3 h3 a4 h4 hc x0 x1 xo)]
  unfold kernelRun1_B
  dsimp only
  rw [View.canon_unit_zero hz2]
  simp only [View.readAt_eq_ld, h2.read_unread, h3.read_unread, h4.read_unread, View.ld_unit_zero (S := S512x1) hz2, View.ld_unit_zero (S := S1x512) hz2, View.ld_unit_zero (S := S1x1) hz2]

theorem out1_A_2_eq (c : Dev nD) (i : grid1.Coords) (a2 : Memref sig .tc .vmem S512x1 .f32) (h2 : a2.IsWhole) (a3 : Memref sig .tc .vmem S1x512 .f32) (h3 : a3.IsWhole) (a4 : Memref sig .tc .vmem S1x1 .f32) (h4 : a4.IsWhole) (hc : cond1_0 i)
    (x0 : Vec F S512x1 .f32) (x1 : Vec F S1x512 .f32) :
    out1_A_2 c i a2 h2 a3 h3 a4 h4 hc x0 x1 = k1_pay2 i x0 x1 (k1_pay1 (F := F)) := by
  unfold out1_A_2
  rw [View.read_writes_eq_canon _ _ _ (cover1_A_2 c i a2 h2 a3 h3 a4 h4 hc x0 x1)]
  unfold kernelRun1_A
  dsimp only
  sl_unfold_words
  rw [View.canon_cons_unit_zero (S := S1x1) hz2, View.readCov_unit_zero (S := S1x1) _ hz2]
  simp only [View.readAt_eq_ld, h2.read_unread, h3.read_unread, View.ld_unit_zero (S := S512x1) hz2, View.ld_unit_zero (S := S1x512) hz2]

end Generic

/-! ## At the ideal instance: the accumulator is −∞ from the first point on -/

section AtIdeal
open scoped BigOperators

/-- Over the extended reals `⊥` absorbs in a sum: a finite sum with one term `⊥` is `⊥`, whatever the other terms. -/
theorem sum_eq_bot_of_mem {ι : Type*} (s : Finset ι) (f : ι → EReal) (a : ι) (ha : a ∈ s) (h : f a = ⊥) :
    ∑ x ∈ s, f x = ⊥ := by
  classical
  rw [← Finset.add_sum_erase s f ha, h, EReal.bot_add]

/-- A sum over ONE axis, at the reduced index under a source index whose entry is `⊥`, is `⊥`: that entry is one
    of its terms. -/
theorem reduce_single_bot {s t : Shape} {a : Fin s.rank} (src : FVec Ideal s .f32) (acc : BitVec 32) (h : s.Reduces [a] t)
    (hφ : FKind.Formats .f32) (hacc : acc = FKind.add.neutral .f32 hφ) (i : s.Idx) (hi : src i = (⊥ : EReal)) :
    multiReduction .add [a] t src acc h hφ hacc (h.drop i) = (⊥ : EReal) :=
  (Ideal.multiReduction_add_single src acc h hφ hacc (h.drop i)).trans
    (sum_eq_bot_of_mem _ _ (i a) (Finset.mem_univ _) (by rw [h.lift_drop]; exact hi))

/-- A sum over every axis that is not a unit axis of the result — so a TOTAL sum — of a source with an entry `⊥` is `⊥`
    at every index of the result. -/
theorem reduce_total_bot {s t : Shape} {axes : List (Fin s.rank)} (src : FVec Ideal s .f32) (acc : BitVec 32) (h : s.Reduces axes t)
    (ht : ∀ b, t.size b = 1) (hφ : FKind.Formats .f32) (hacc : acc = FKind.add.neutral .f32 hφ) (i : s.Idx) (hi : src i = (⊥ : EReal))
    (j : t.Idx) : multiReduction .add axes t src acc h hφ hacc j = (⊥ : EReal) :=
  (Ideal.multiReduction_add_total src acc h ht hφ hacc j).trans (sum_eq_bot_of_mem _ _ i (Finset.mem_univ _) hi)

/-- A shape cast keeps every entry: if the operand has an entry `⊥`, so has the result. -/
theorem shapeCast_exists_bot {s t : Shape} (x : s.Idx → EReal) (h : s.ShapeCasts t) (k : s.Idx) (hk : x k = ⊥) :
    ∃ j : t.Idx, shapeCast t x h j = ⊥ :=
  ⟨(Shape.reshapeEquiv h).symm k, by unfold shapeCast; rw [Equiv.apply_symm_apply]; exact hk⟩

/-- and if every entry of the operand is `⊥`, so is every entry of the result. -/
theorem shapeCast_forall_bot {s t : Shape} (x : s.Idx → EReal) (h : s.ShapeCasts t) (hx : ∀ k, x k = ⊥) (j : t.Idx) :
    shapeCast t x h j = ⊥ := by unfold shapeCast; exact hx _

/-- THE ENTRY. At the grid point whose two coordinates are 0, the tile's entry (0, 0) lies on the diagonal (row index
    0 + 512·0 equals column index 0 + 512·0), so the select takes the zero word there, and the logarithm of 0 is `⊥`. -/
theorem entry00 (i : grid1.Coords) (hi0 : (i 0).val = 0) (hi1 : (i 1).val = 0) (v15 : FVec Ideal S512x512 .f32)
    (hio0 : S512x512.Iotas .tc 32 [0]) (hio1 : S512x512.Iotas .tc 32 [1]) :
    Idealize.ShloMosaic.log (F := Ideal)
      (select (cmpi .eq (addi (iota .tc S512x512 32 [0] hio0) (broadcast S512x512 (Scalar.muli (BitVec.ofNat 32 (i 0).val) 512#32)))
                        (addi (iota .tc S512x512 32 [1] hio1) (broadcast S512x512 (Scalar.muli (BitVec.ofNat 32 (i 1).val) 512#32))))
        (broadcast S512x512 (Scalar.ofBits (F := Ideal) .f32 0x00000000#32)) v15) (ix2 (0 : Fin 512) (0 : Fin 512)) = (⊥ : EReal) := by
  rw [hi0, hi1]
  have hc : cmpi .eq (addi (iota .tc S512x512 32 [0] hio0) (broadcast S512x512 (Scalar.muli (BitVec.ofNat 32 0) 512#32)))
                     (addi (iota .tc S512x512 32 [1] hio1) (broadcast S512x512 (Scalar.muli (BitVec.ofNat 32 0) 512#32)))
              (ix2 (0 : Fin 512) (0 : Fin 512)) = 1#1 := by decide +revert
  have hlog : ∀ (x : FVec Ideal S512x512 .f32) (k : S512x512.Idx), Idealize.ShloMosaic.log x k = Ideal.log (x k) := fun _ _ => rfl
  rw [hlog, select_apply, hc, select_one, broadcast_apply]
  have h0 : (Scalar.ofBits (F := Ideal) .f32 0x00000000#32 : EReal) = 0 := Ideal.ofBits_zero_f32
  rw [h0]
  show Ideal.log ((0 : ℝ) : EReal) = ⊥
  rw [Ideal.log_coe, if_pos le_rfl]

/-- THE TILE'S SUM. If the tile's logarithms have the entry (0, 0) at `⊥`, the sum along the rows has `⊥` in row 0, so
    the sum of the rows' sums is `⊥`, in whatever shape it is read. -/
theorem tile_sum_bot (v27 : FVec Ideal S512x512 .f32) (h27 : v27 (ix2 (0 : Fin 512) (0 : Fin 512)) = (⊥ : EReal))
    (h1 : S512x512.Reduces [1] S512) (p1 : FKind.Formats .f32) (q1 : (0x00000000#32 : BitVec 32) = FKind.add.neutral .f32 p1)
    (h2 : S512.ShapeCasts S512x1) (h3 : S512x1.Reduces [0] S1) (p3 : FKind.Formats .f32)
    (q3 : (0x00000000#32 : BitVec 32) = FKind.add.neutral .f32 p3) (h4 : S1.ShapeCasts S1x1) (j : S1x1.Idx) :
    shapeCast S1x1 (multiReduction .add [0] S1 (shapeCast S512x1 (multiReduction .add [1] S512 v27 0x00000000#32 h1 p1 q1) h2)
      0x00000000#32 h3 p3 q3) h4 j = (⊥ : EReal) := by
  refine shapeCast_forall_bot _ _ (fun k => ?_) j
  obtain ⟨j', hj'⟩ := shapeCast_exists_bot _ h2 _ (reduce_single_bot v27 _ h1 p1 q1 (ix2 (0 : Fin 512) (0 : Fin 512)) h27)
  exact reduce_total_bot _ _ h3 (by decide) p3 q3 j' hj' k

/-- AT THE FIRST POINT the stored value is `⊥` whatever the accumulator read back and whatever the two blocks hold:
    it is the accumulator plus the tile's sum, the tile's sum is `⊥`, and `x + ⊥ = ⊥`. -/
theorem k1_pay2_bot_first (i : grid1.Coords) (hi0 : (i 0).val = 0) (hi1 : (i 1).val = 0)
    (x0 : Vec Ideal S512x1 .f32) (x1 : Vec Ideal S1x512 .f32) (xo : Vec Ideal S1x1 .f32) (j : S1x1.Idx) :
    k1_pay2 (F := Ideal) i x0 x1 xo j = (⊥ : EReal) := by
  unfold k1_pay2
  dsimp only
  rw [addf_apply]
  refine (congrArg (_ + ·) ?_).trans (EReal.add_bot _)
  exact tile_sum_bot _ (entry00 i hi0 hi1 _ _ _) _ _ _ _ _ _ _ _ j

/-- AT A LATER POINT the stored value is `⊥` as soon as the accumulator read back is: `⊥ + x = ⊥`. -/
theorem k1_pay2_bot_of_acc (i : grid1.Coords) (x0 : Vec Ideal S512x1 .f32) (x1 : Vec Ideal S1x512 .f32) (xo : Vec Ideal S1x1 .f32)
    (hxo : ∀ k, xo k = (⊥ : EReal)) (j : S1x1.Idx) : k1_pay2 (F := Ideal) i x0 x1 xo j = (⊥ : EReal) := by
  unfold k1_pay2
  dsimp only
  rw [addf_apply, shapeCast_forall_bot _ _ hxo]
  exact EReal.bot_add _

/-- The first point of the grid has both coordinates 0 — decided over the grid. -/
theorem coords_first : ∀ t : Fin cfg1.N, t.val % 256 = 0 → (grid1.coords t 0).val = 0 ∧ (grid1.coords t 1).val = 0 :=
  (by decide +kernel : ∀ t : Fin grid1.N, t.val % 256 = 0 → (grid1.coords t 0).val = 0 ∧ (grid1.coords t 1).val = 0)

variable (V : (c : Dev nD) → (b : Ref sig .tc) → Buf (Elt Ideal) ((c : Thread nD τ).loc b))

/-- THE ACCUMULATOR IS `⊥` AFTER EVERY POINT — by induction on the point: at the first the tile's sum is `⊥`; at a later
    one the accumulator found is the one the point before left, `⊥`. -/
theorem outsAt1_bot (c : Dev nD) : ∀ (n : ℕ) (h : n < cfg1.N) (j : S1x1.Idx), outsAt1 V c n h j = (⊥ : EReal)
  | 0, h, j => by
    rw [outsAt1_A V c ⟨0, h⟩ rfl, out1_A_2_eq]
    exact k1_pay2_bot_first _ (coords_first ⟨0, h⟩ rfl).1 (coords_first ⟨0, h⟩ rfl).2 _ _ _ j
  | n + 1, h, j => by
    have hN : cfg1.N = 256 := N_1
    have hB : ¬(⟨n + 1, h⟩ : Fin cfg1.N).val % 256 = 0 := by dsimp only; omega
    rw [outsAt1_B V c ⟨n + 1, h⟩ hB, out1_B_2_eq]
    exact k1_pay2_bot_of_acc _ _ _ _ (fun k => outsAt1_bot c n _ k) j

/-- What the one write-back writes: the accumulator after its point, `⊥`. -/
theorem flushed1_bot (c : Dev nD) (t : Fin cfg1.N) (hf : (cfg1.win 2).flush t = true) :
    (dat1 (F := Ideal) V c).flushed 2 t = ((cfg1.win 2).blk t).view.read (Elt Ideal) (fun _ => (⊥ : EReal)) := by
  show (cfg1.win 2).cut (grid1.coords t) ((dat1 (F := Ideal) V c).after 2 t) = _
  rw [after1_2, show outsAt1 V c t.val t.isLt = fun _ => (⊥ : EReal) from funext fun j => outsAt1_bot V c _ _ j]
  rfl

/-- The last point of the grid, the one point after which the output block is written back. -/
abbrev tLast : Fin cfg1.N := ⟨255, by decide⟩

/-- THE RESULT ARRAY ENDS AT `⊥`: its one block is the whole 1×1 array and is written back once, after the last point. -/
theorem arrAt1_bot (c : Dev nD) : (dat1 (F := Ideal) V c).arrAt 2 cfg1.N = fun _ => (⊥ : EReal) :=
  (dat1 (F := Ideal) V c).arrAt_eq_of_cover 2 (fun _ => (⊥ : EReal)) (flushed1_bot V c) fun i =>
    ⟨tLast, (flush1_2 tLast).mpr rfl, by
      show i ∈ ((View.whole main_v8).slice (win1_2.rect tLast)).set
      rw [View.set_slice_whole, Rect.mem_set_unit]
      intro a
      have h0 : (i 0 : Nat) < 1 := (i 0).isLt
      have h1 : (i 1 : Nat) < 1 := (i 1).isLt
      match a with
      | ⟨0, _⟩ => show win1_2.index tLast 0 * win1_2.size 0 ≤ (i 0 : Nat) ∧ (i 0 : Nat) < win1_2.index tLast 0 * win1_2.size 0 + win1_2.xsize (grid1.coords tLast) 0
                  rw [show win1_2.index tLast 0 * win1_2.size 0 = 0 from by decide +kernel, show win1_2.xsize (grid1.coords tLast) 0 = 1 from by decide +kernel]; omega
      | ⟨1, _⟩ => show win1_2.index tLast 1 * win1_2.size 1 ≤ (i 1 : Nat) ∧ (i 1 : Nat) < win1_2.index tLast 1 * win1_2.size 1 + win1_2.xsize (grid1.coords tLast) 1
                  rw [show win1_2.index tLast 1 * win1_2.size 1 = 0 from by decide +kernel, show win1_2.xsize (grid1.coords tLast) 1 = 1 from by decide +kernel]; omega⟩

end AtIdeal

end Cert.KernelIdeal.Hand

end
-- ==== Proof.LibFiniteEntry.lean ====
/-
  Reading a precondition's conjuncts back, at the ideal instance.

  A precondition over float arrays is printed as a conjunction of `jnp.all` tests, each an elementwise comparison
  reduced by `and` over every axis. Two tests are read back here, for an array of ANY shape:
  * `jnp.all(jnp.abs(x) < inf)` — every entry's absolute value below the word `0x7F800000`, which at the ideal
    instance is `⊤` — says every entry of `x` is a REAL (`all_real_of_all_abs_lt_inf`; one value:
    `real_of_hostAbsf_olt_inf`): an extended real is `⊥`, a real or `⊤`, and `max x (−x) < ⊤` excludes both ends.
  * `jnp.all(x != 0)` — every entry unequal to the word `0x00000000`, the ideal `0` — says no entry is zero
    (`all_ne_zero_of_all_une_zero`; one value: `ne_zero_of_une_zero`).
  The conjunction itself is an `and` of one-bit words: it is 1 exactly when both sides are (`andi_eq_one`).
-/
import Idealize.ShloMosaic.PureOps.Ideal.Laws
import Idealize.ShloMosaic.Lib.ReduceAll

noncomputable section

namespace ProofLib.Finite

open Idealize.ShloMosaic

/-- The f32 word of `+∞` denotes the top of the extended reals. -/
theorem ofBits_inf_f32 : Ideal.ofBits .f32 0x7F800000#32 = ⊤ := by simp [Ideal.ofBits, Ideal.ieee]

/-- An extended real whose absolute value `max x (−x)` is below `⊤` is a real. -/
theorem exists_real_of_abs_lt_top (x : EReal) (hlt : max x (-x) < ⊤) : ∃ r : ℝ, x = (r : EReal) := by
  have hx_top : x ≠ ⊤ := fun e => by rw [e] at hlt; simp at hlt
  have hx_bot : x ≠ ⊥ := fun e => by rw [e] at hlt; simp at hlt
  exact ⟨x.toReal, (EReal.coe_toReal hx_top hx_bot).symm⟩

/-- One value: the host's `|x| < +∞`, true, says `x` is a real. -/
theorem real_of_hostAbsf_olt_inf (x : Ideal .f32)
    (h : FloatOps.cmpf .olt (FloatOps.hostAbsf x) (FloatOps.ofBits (F := Ideal) .f32 0x7F800000#32) = 1#1) :
    ∃ r : ℝ, (x : EReal) = (r : EReal) := by
  have h' : Ideal.cmp .olt (max (x : EReal) (-(x : EReal))) (Ideal.ofBits .f32 0x7F800000#32) = 1#1 := h
  rw [ofBits_inf_f32] at h'
  unfold Ideal.cmp at h'
  refine exists_real_of_abs_lt_top x ?_
  by_contra hn
  simp [hn] at h'

/-- One value: the host's `x != 0`, true, says `x` is not zero. -/
theorem ne_zero_of_une_zero (x : Ideal .f32)
    (h : FloatOps.cmpf .une x (FloatOps.ofBits (F := Ideal) .f32 0x00000000#32) = 1#1) : (x : EReal) ≠ 0 := by
  have h' : Ideal.cmp .une (x : EReal) (Ideal.ofBits .f32 0x00000000#32) = 1#1 := h
  rw [Ideal.ofBits_zero_f32] at h'
  unfold Ideal.cmp at h'
  intro hx
  simp [hx] at h'

variable {s t u : Shape} {axes : List (Fin s.rank)}

/-- `jnp.all(jnp.abs(x) < inf)`, true: every entry of `x` is a real. `bound` is the comparison's right operand, the
    `+∞` word at every index (a broadcast of the scalar constant). -/
theorem all_real_of_all_abs_lt_inf [Subsingleton t.Idx] (x bound : FVec Ideal s .f32)
    (hbound : ∀ i, bound i = FloatOps.ofBits (F := Ideal) .f32 0x7F800000#32)
    (init : u.Idx → BitVec 1) (h : s.ReducesTo axes t) (hu : 0 < u.numel) (j : t.Idx)
    (e : Host.reduce IntOp.andi (cmpf .olt (Host.absf x) bound) init h hu j = 1#1) (i : s.Idx) :
    ∃ r : ℝ, (x i : EReal) = (r : EReal) := by
  have hi : cmpf .olt (Host.absf x) bound i = 1#1 := Host.reduce_andi_all _ init h hu j e i
  refine real_of_hostAbsf_olt_inf (x i) ?_
  rw [← hbound i]
  exact hi

/-- `jnp.all(x != 0)`, true: no entry of `x` is zero. `zero` is the comparison's right operand, the zero word at every
    index. -/
theorem all_ne_zero_of_all_une_zero [Subsingleton t.Idx] (x zero : FVec Ideal s .f32)
    (hzero : ∀ i, zero i = FloatOps.ofBits (F := Ideal) .f32 0x00000000#32)
    (init : u.Idx → BitVec 1) (h : s.ReducesTo axes t) (hu : 0 < u.numel) (j : t.Idx)
    (e : Host.reduce IntOp.andi (cmpf .une x zero) init h hu j = 1#1) (i : s.Idx) : (x i : EReal) ≠ 0 := by
  have hi : cmpf .une x zero i = 1#1 := Host.reduce_andi_all _ init h hu j e i
  refine ne_zero_of_une_zero (x i) ?_
  rw [← hzero i]
  exact hi

/-- The conjunction of two one-bit flags is 1 exactly when both are. -/
theorem andi_eq_one (a b : BitVec 1) : a &&& b = 1#1 ↔ a = 1#1 ∧ b = 1#1 := by
  revert a b; decide

end ProofLib.Finite

end
-- ==== Proof.LibRealOps.lean ====
/-
  The reals are closed under the ideal operations a normalisation uses.

  At the ideal instance a float is an extended real, and most laws that join two spellings of one formula (a variance,
  a product moved across a sum) hold only where every value is a REAL. These lemmas carry "is a real" through the
  operations, one value at a time, each naming the real the result is:
  * `rsqrt_coe_of_pos`: the reciprocal square root of a real `r > 0` is the real `(√r)⁻¹`, which is positive
    (`inv_sqrt_pos`); `rsqrt_add_eps`: so is that of `v + ε` for `v ≥ 0`, `ε > 0` (a variance plus its epsilon);
  * `coe_max`: the maximum of two reals; `dot_coe`: the inner product of two real rows; `sum_ones`: a sum of ones
    over a finite set is the number of its elements (a node's degree, counted by scattering ones);
  * `cmp_ogt_eq_one_iff`: the comparison `x > y` is the flag 1 exactly when `y < x`;
  * `gcn_coeff_coe`: the symmetric-normalisation coefficient `where(d > 0, rsqrt(max(d, 1)), 0)` of a real degree
    `d` is a real, and `gcn_coeff_nonneg`: it is non-negative — what lets it move across a neighbourhood sum.
-/
import Idealize.ShloMosaic.PureOps.Ideal
import Mathlib.Algebra.BigOperators.Fin
import Mathlib.Tactic.Linarith

noncomputable section

namespace ProofLib.RealOps

open Idealize.ShloMosaic

variable {ι : Type*}

/-- The inclusion of the reals in the extended reals commutes with finite sums. -/
theorem coe_sum (s : Finset ι) (f : ι → ℝ) : ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- The reciprocal square root of a positive real is the real `(√r)⁻¹`. -/
theorem rsqrt_coe_of_pos {r : ℝ} (hr : 0 < r) : Ideal.rsqrt (r : EReal) = (((Real.sqrt r)⁻¹ : ℝ) : EReal) := by
  rw [Ideal.rsqrt_coe, if_neg (not_lt.mpr hr.le), if_neg hr.ne']

/-- That real is positive. -/
theorem inv_sqrt_pos {r : ℝ} (hr : 0 < r) : 0 < (Real.sqrt r)⁻¹ := inv_pos.mpr (Real.sqrt_pos.mpr hr)

/-- The reciprocal square root of `v + ε`, `v ≥ 0` and `ε > 0` reals: a variance plus its epsilon. -/
theorem rsqrt_add_eps {v eps : ℝ} (hv : 0 ≤ v) (he : 0 < eps) :
    Ideal.rsqrt ((v : EReal) + (eps : EReal)) = (((Real.sqrt (v + eps))⁻¹ : ℝ) : EReal) := by
  rw [← EReal.coe_add, rsqrt_coe_of_pos (add_pos_of_nonneg_of_pos hv he)]

/-- The maximum of two reals, in the extended reals, is their real maximum. -/
theorem coe_max (x y : ℝ) : ((max x y : ℝ) : EReal) = max (x : EReal) (y : EReal) :=
  EReal.coe_strictMono.monotone.map_max

/-- The inner product of two real rows is the real inner product. -/
theorem dot_coe (s : Finset ι) (a b : ι → ℝ) :
    ∑ k ∈ s, (a k : EReal) * (b k : EReal) = ((∑ k ∈ s, a k * b k : ℝ) : EReal) := by
  rw [coe_sum]; exact Finset.sum_congr rfl fun k _ => (EReal.coe_mul _ _).symm

/-- A sum of ones over a finite set is the number of its elements. -/
theorem sum_ones (s : Finset ι) : ∑ _i ∈ s, (1 : EReal) = ((s.card : ℝ) : EReal) := by
  have h1 : ∑ _i ∈ s, (1 : EReal) = ∑ _i ∈ s, ((1 : ℝ) : EReal) := by simp
  rw [h1, ← coe_sum]; simp

/-- The comparison `x > y` is the flag 1 exactly when `y < x`. -/
theorem cmp_ogt_eq_one_iff (x y : EReal) : Ideal.cmp .ogt x y = 1#1 ↔ y < x := by
  unfold Ideal.cmp
  by_cases h : y < x <;> simp [h]

/-- The symmetric-normalisation coefficient of a real degree `d`: `(√(max d 1))⁻¹` where `d > 0`, else `0`. -/
def gcnCoeff (d : ℝ) : ℝ := if 0 < d then (Real.sqrt (max d 1))⁻¹ else 0

/-- `where(d > 0, rsqrt(max(d, 1)), 0)` at a real `d` is the real `gcnCoeff d`. -/
theorem gcn_coeff_coe (d : ℝ) :
    Scalar.select (Ideal.cmp .ogt (d : EReal) 0) (Ideal.rsqrt (max (d : EReal) 1)) (0 : EReal) = ((gcnCoeff d : ℝ) : EReal) := by
  have h1 : (1 : EReal) = ((1 : ℝ) : EReal) := EReal.coe_one.symm
  have hpos : (0 : ℝ) < max d 1 := lt_of_lt_of_le one_pos (le_max_right d 1)
  unfold Scalar.select gcnCoeff
  by_cases hd : 0 < d
  · have hc : Ideal.cmp .ogt (d : EReal) 0 = (1 : BitVec 1) := (cmp_ogt_eq_one_iff _ _).mpr (by exact_mod_cast hd)
    rw [if_pos hc, if_pos hd, h1, ← coe_max, rsqrt_coe_of_pos hpos]
  · have hc : ¬ Ideal.cmp .ogt (d : EReal) 0 = (1 : BitVec 1) := fun e => hd (by exact_mod_cast (cmp_ogt_eq_one_iff _ _).mp e)
    rw [if_neg hc, if_neg hd, EReal.coe_zero]

/-- The coefficient is non-negative. -/
theorem gcn_coeff_nonneg (d : ℝ) : 0 ≤ gcnCoeff d := by
  unfold gcnCoeff
  split
  · exact inv_nonneg.mpr (Real.sqrt_nonneg _)
  · exact le_rfl

end ProofLib.RealOps

end
-- ==== Proof.IHost.lean ====
/-
  The host operations of the kernel program, at the ideal instance (a float is an extended real).

  Before its first region the program scales the argument `x` ([8192, 64] after a reshape) by a constant `c`,
  `v2 = x · c`; takes each row's norm, `v3 = √(∑ₖ v2[r, k]²)`, and its square `v4 = v3 · v3`; and changes the
  format of `v2` (`v5`, the identity here). Where every entry of `x` is a real, so is every entry of `v5` and of `v4`
  (`entry_real`): products of reals are reals, a finite sum of squares of reals is a non-negative real, and the
  square root of a non-negative real is the real square root.

  After its last region the program sums the [8192, 1] array `v6` to a scalar `s`, and returns
  `(8192 · s − v8) / 8192³`, `v8` the one entry of a [1, 1] array. Where `v6` is real and `v8 = −∞`, the result is `+∞`
  (`tail_top`): `8192 · s` is a real, a real minus `−∞` is `+∞`, and `+∞` divided by a positive real is `+∞`.

  The precondition `jnp.all(|x| < inf)`, all ones, says every entry of the argument is a real (`finite_real`).
-/
import proofs.«118869_j12807592476698_2_alg».proof.Proof.Gen.KernelIdeal.Launch
import proofs.«118869_j12807592476698_2_alg».proof.Pre_finite_inputs
import proofs.«118869_j12807592476698_2_alg».proof.Proof.LibFiniteEntry
import proofs.«118869_j12807592476698_2_alg».proof.Proof.LibRealOps
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.HostVal

open Cert.KernelIdeal Cert.KernelIdeal.Gen Idealize.ShloMosaic Idealize.ShloMosaic.TcCoe Idealize.SL.Sem Idealize.ShloMosaic.StableHlo

/-! ## Reals among the extended reals

At the ideal instance a float is an extended real. The host operations of this program keep the reals closed:
a product of reals, a finite sum of reals, the square root of a non-negative real are reals. Each lemma names
the real the result is. -/

/-- The product of two reals is a real. -/
theorem real_mul {a b : EReal} (ha : ∃ r : ℝ, a = (r : EReal)) (hb : ∃ r : ℝ, b = (r : EReal)) :
    ∃ r : ℝ, a * b = (r : EReal) := by
  obtain ⟨p, rfl⟩ := ha
  obtain ⟨q, rfl⟩ := hb
  exact ⟨p * q, (EReal.coe_mul p q).symm⟩

/-- The square of a real is a non-negative real. -/
theorem sq_real_nonneg {a : EReal} (ha : ∃ r : ℝ, a = (r : EReal)) : ∃ r : ℝ, 0 ≤ r ∧ a * a = (r : EReal) := by
  obtain ⟨p, rfl⟩ := ha
  exact ⟨p * p, mul_self_nonneg p, (EReal.coe_mul p p).symm⟩

/-- A finite sum of reals is a real. -/
theorem sum_real {ι : Type*} (s : Finset ι) (f : ι → EReal) (hf : ∀ i ∈ s, ∃ r : ℝ, f i = (r : EReal)) :
    ∃ r : ℝ, ∑ i ∈ s, f i = (r : EReal) := by
  classical
  revert hf
  refine Finset.induction_on s ?_ ?_
  · intro _
    exact ⟨0, by simp⟩
  · intro a s ha ih hf
    obtain ⟨p, ep⟩ := hf a (Finset.mem_insert_self a s)
    obtain ⟨q, eq⟩ := ih fun i hi => hf i (Finset.mem_insert_of_mem hi)
    exact ⟨p + q, by rw [Finset.sum_insert ha, ep, eq, EReal.coe_add]⟩

/-- A finite sum of non-negative reals is a non-negative real. -/
theorem sum_real_nonneg {ι : Type*} (s : Finset ι) (f : ι → EReal)
    (hf : ∀ i ∈ s, ∃ r : ℝ, 0 ≤ r ∧ f i = (r : EReal)) : ∃ r : ℝ, 0 ≤ r ∧ ∑ i ∈ s, f i = (r : EReal) := by
  classical
  revert hf
  refine Finset.induction_on s ?_ ?_
  · intro _
    exact ⟨0, le_rfl, by simp⟩
  · intro a s ha ih hf
    obtain ⟨p, hp, ep⟩ := hf a (Finset.mem_insert_self a s)
    obtain ⟨q, hq, eq⟩ := ih fun i hi => hf i (Finset.mem_insert_of_mem hi)
    exact ⟨p + q, add_nonneg hp hq, by rw [Finset.sum_insert ha, ep, eq, EReal.coe_add]⟩

/-- The square root of a non-negative real is the real square root. -/
theorem sqrt_real_of_nonneg {a : EReal} (ha : ∃ r : ℝ, 0 ≤ r ∧ a = (r : EReal)) :
    ∃ r : ℝ, Ideal.sqrt a = (r : EReal) := by
  obtain ⟨p, hp, rfl⟩ := ha
  exact ⟨Real.sqrt p, by rw [Ideal.sqrt_coe, if_neg (not_lt.mpr hp)]⟩

/-! ## The literals -/

/-- The scale word 0x3EB504F3 denotes the real 11863283 · 2⁻²⁵. -/
theorem ofBits_scale : Ideal.ofBits .f32 0x3EB504F3#32 = (((11863283 : ℝ) * (2 : ℝ) ^ (-25 : ℤ) : ℝ) : EReal) := by
  simp [Ideal.ofBits, Ideal.ieee, -EReal.coe_mul]

/-- The word 0x46000000 denotes 8192 = 2¹³. -/
theorem ofBits_8192 : Ideal.ofBits .f32 0x46000000#32 = ((8192 : ℝ) : EReal) := by
  simp [Ideal.ofBits, Ideal.ieee, -EReal.coe_mul]; norm_num

/-- The word 0x53000000 denotes 8192³ = 2³⁹. -/
theorem ofBits_8192_cube : Ideal.ofBits .f32 0x53000000#32 = ((549755813888 : ℝ) : EReal) := by
  simp [Ideal.ofBits, Ideal.ieee, -EReal.coe_mul]; norm_num

/-- For a real `a`: `(8192 · a − (−∞)) / 8192³ = +∞`. The difference is `8192 · a + ∞ = +∞`, and `+∞` divided by a
    positive real is `+∞`. -/
theorem tail_scalar {a : EReal} (ha : ∃ r : ℝ, a = (r : EReal)) :
    Ideal.div (Ideal.ofBits .f32 0x46000000#32 * a - ⊥) (Ideal.ofBits .f32 0x53000000#32) = ⊤ := by
  obtain ⟨p, rfl⟩ := ha
  rw [ofBits_8192, ofBits_8192_cube, ← EReal.coe_mul, Ideal.div_coe (by norm_num), sub_eq_add_neg, EReal.neg_bot,
    EReal.coe_add_top, EReal.top_mul_coe_of_pos (by norm_num)]

/-! ## The operations on arrays, entry by entry -/

section Arrays

variable {s t u : Shape} {φ : FTy}

/-- A host sum of reals from the initial value zero is a real at every index. -/
theorem hostReduceAdd_real {axes : List (Fin s.rank)} (x : FVec Ideal s φ)
    (hx : ∀ i, ∃ r : ℝ, (x i : EReal) = (r : EReal)) (init : u.Idx → Ideal φ) (hinit : ∀ k, (init k : EReal) = 0)
    (h : s.ReducesTo axes t) (hu : 0 < u.numel) (j : t.Idx) :
    ∃ r : ℝ, (Host.reduceAdd x init h hu j : EReal) = (r : EReal) := by
  show ∃ r : ℝ, Ideal.hostReduceAdd h x (init (Shape.Idx.first hu)) j = (r : EReal)
  unfold Ideal.hostReduceAdd
  rw [hinit, zero_add]
  exact sum_real _ _ fun i _ => hx i

/-- A host sum of squares of reals from the initial value zero is a non-negative real at every index. -/
theorem hostReduceAdd_sq_nonneg {axes : List (Fin s.rank)} (x : FVec Ideal s φ)
    (hx : ∀ i, ∃ r : ℝ, (x i : EReal) = (r : EReal)) (init : u.Idx → Ideal φ) (hinit : ∀ k, (init k : EReal) = 0)
    (h : s.ReducesTo axes t) (hu : 0 < u.numel) (j : t.Idx) :
    ∃ r : ℝ, 0 ≤ r ∧ (Host.reduceAdd (mulf x x) init h hu j : EReal) = (r : EReal) := by
  show ∃ r : ℝ, 0 ≤ r ∧ Ideal.hostReduceAdd h (mulf x x) (init (Shape.Idx.first hu)) j = (r : EReal)
  unfold Ideal.hostReduceAdd
  rw [hinit, zero_add]
  exact sum_real_nonneg _ _ fun i _ => sq_real_nonneg (hx i)

/-- A property of every entry of an array holds of every entry of a broadcast of it. -/
theorem broadcastInDim_forall {α : Type} (P : α → Prop) (dims : Fin s.rank → Fin t.rank) (h : s.BroadcastsInDim t dims)
    (x : s.Idx → α) (hx : ∀ i, P (x i)) (j : t.Idx) : P (broadcastInDim t dims h x j) := hx _

/-- The host square root of an array of non-negative reals is an array of reals. -/
theorem hostSqrt_real (x : FVec Ideal s φ) (hx : ∀ i, ∃ r : ℝ, 0 ≤ r ∧ (x i : EReal) = (r : EReal)) (i : s.Idx) :
    ∃ r : ℝ, (Host.sqrt x i : EReal) = (r : EReal) :=
  sqrt_real_of_nonneg (hx i)

end Arrays

/-! ## The program's host stretches -/

/-- The scaled argument `main_v2` (the reshaped argument times the scale constant) is real where the argument is. -/
theorem v2_real (Y : Valuation τ sig (Elt Ideal))
    (hx : ∀ i, ∃ r : ℝ, (Y (Proc.devRef .tc main_arg0) i : EReal) = (r : EReal)) (i : S8192x64.Idx) :
    ∃ r : ℝ, ((StableHlo.after hostOps0 Y) (Proc.devRef .tc main_v2) i : EReal) = (r : EReal) := by
  dsimp only [hostOps0]
  after_results
  exact real_mul (hx _) ⟨_, ofBits_scale⟩

/-- The second stretch does not write `main_v2`. -/
theorem v2_after1 (Y : Valuation τ sig (Elt Ideal)) :
    (StableHlo.after hostOps0_1 Y) (Proc.devRef .tc main_v2) = Y (Proc.devRef .tc main_v2) := by
  dsimp only [hostOps0_1]
  after_results

/-- The row norms `main_v3`: the square root of each row's sum of squares of `main_v2`, a real where `main_v2` is. -/
theorem v3_real (Y : Valuation τ sig (Elt Ideal))
    (h2 : ∀ i, ∃ r : ℝ, (Y (Proc.devRef .tc main_v2) i : EReal) = (r : EReal)) (i : S8192x1.Idx) :
    ∃ r : ℝ, ((StableHlo.after hostOps0_1 Y) (Proc.devRef .tc main_v3) i : EReal) = (r : EReal) := by
  dsimp only [hostOps0_1]
  after_results
  show ∃ r : ℝ, (Host.sqrt (broadcastInDim S8192x1 ![0] bcast_S8192_S8192x1_0
    (Host.reduceAdd (mulf (Y (Proc.devRef .tc main_v2)) (Y (Proc.devRef .tc main_v2))) (constant (F := Ideal) S_ .f32 0x00000000#32)
      reducesTo_S8192x64_S8192_d1 h_S_)) i : EReal) = (r : EReal)
  exact hostSqrt_real _ (fun k => broadcastInDim_forall (fun a : EReal => ∃ r : ℝ, 0 ≤ r ∧ a = (r : EReal)) _ _ _
    (fun j => hostReduceAdd_sq_nonneg _ h2 _ (fun _ => Ideal.ofBits_zero_f32) _ _ j) k) i

/-- The format change `main_v5` of `main_v2` is the identity at the ideal instance. -/
theorem v5_real (Y : Valuation τ sig (Elt Ideal))
    (h2 : ∀ i, ∃ r : ℝ, (Y (Proc.devRef .tc main_v2) i : EReal) = (r : EReal)) (i : S8192x64.Idx) :
    ∃ r : ℝ, ((StableHlo.after hostOps0_2 Y) (Proc.devRef .tc main_v5) i : EReal) = (r : EReal) := by
  dsimp only [hostOps0_2]
  after_results
  exact h2 i

/-- The squared row norms `main_v4 = main_v3 · main_v3`. -/
theorem v4_real (Y : Valuation τ sig (Elt Ideal))
    (h3 : ∀ i, ∃ r : ℝ, (Y (Proc.devRef .tc main_v3) i : EReal) = (r : EReal)) (i : S8192x1.Idx) :
    ∃ r : ℝ, ((StableHlo.after hostOps0_2 Y) (Proc.devRef .tc main_v4) i : EReal) = (r : EReal) := by
  dsimp only [hostOps0_2]
  after_results
  exact real_mul (h3 i) (h3 i)

/-- The scaled inputs `main_v5` and the squared row norms `main_v4` are real when the argument is: products of
    reals, a finite sum of squares of reals (non-negative), its square root, products again. -/
theorem entry_real (Y : Valuation τ sig (Elt Ideal))
    (hx : ∀ i, ∃ r : ℝ, (Y (Proc.devRef .tc main_arg0) i : EReal) = (r : EReal)) :
    (∀ i, ∃ r : ℝ, ((StableHlo.after hostOps0_2 (StableHlo.after hostOps0_1 (StableHlo.after hostOps0 Y)))
        (Proc.devRef .tc main_v5) i : EReal) = (r : EReal))
    ∧ (∀ i, ∃ r : ℝ, ((StableHlo.after hostOps0_2 (StableHlo.after hostOps0_1 (StableHlo.after hostOps0 Y)))
        (Proc.devRef .tc main_v4) i : EReal) = (r : EReal)) := by
  have h2 := v2_real Y hx
  generalize StableHlo.after hostOps0 Y = Y1 at h2 ⊢
  have h2' : ∀ i : S8192x64.Idx, ∃ r : ℝ, ((StableHlo.after hostOps0_1 Y1) (Proc.devRef .tc main_v2) i : EReal) = (r : EReal) := by
    rw [v2_after1]; exact h2
  have h3 := v3_real Y1 h2
  generalize StableHlo.after hostOps0_1 Y1 = Y2 at h2' h3 ⊢
  exact ⟨v5_real Y2 h2', v4_real Y2 h3⟩

/-- The tail of the program: with `main_v6` real and `main_v8` the bottom element, the result `main_v13` is `+∞`.
    The sum `s` of the reals of `main_v6` is a real; `main_v13 = (8192 · s − (−∞)) / 8192³`. -/
theorem tail_top (Y : Valuation τ sig (Elt Ideal))
    (h6 : ∀ i, ∃ r : ℝ, (Y (Proc.devRef .tc main_v6) i : EReal) = (r : EReal))
    (h8 : ∀ i, (Y (Proc.devRef .tc main_v8) i : EReal) = (⊥ : EReal)) :
    ∀ i, ((StableHlo.after hostOps2 Y) (Proc.devRef .tc main_v13) i : EReal) = (⊤ : EReal) := by
  intro i
  dsimp only [hostOps2]
  after_results
  show Ideal.div (Ideal.ofBits .f32 0x46000000#32
      * (Host.reduceAdd (Y (Proc.devRef .tc main_v6)) (constant (F := Ideal) S_ .f32 0x00000000#32) reducesTo_S8192x1_S_d0_1 h_S_ i : EReal)
      - (Y (Proc.devRef .tc main_v8) _ : EReal)) (Ideal.ofBits .f32 0x53000000#32) = (⊤ : EReal)
  rw [h8]
  exact tail_scalar (hostReduceAdd_real _ h6 _ (fun _ => Ideal.ofBits_zero_f32) _ _ i)

/-! ## The precondition read back -/

/-- The printed precondition `jnp.all(|x| < inf)`, all ones, says every entry of the argument is a real. -/
theorem finite_real [Cert.Pre_finite_inputs.Facts] (x : (⟨S1x1x8192x64, .f32⟩ : BufTy).Contents (Elt Ideal))
    (h : Cert.Pre_finite_inputs.fn (F := Ideal) x = fun _ => 1#1) : ∀ i, ∃ r : ℝ, (x i : EReal) = (r : EReal) := by
  haveI : Subsingleton Cert.Pre_finite_inputs.S_.Idx := ⟨fun a b => funext fun d => d.elim0⟩
  have h0 := congrFun h ValueIdx.ix0
  dsimp only [Cert.Pre_finite_inputs.fn] at h0
  exact ProofLib.Finite.all_real_of_all_abs_lt_inf x _ (fun _ => rfl) _ _ _ ValueIdx.ix0 h0

end Cert.KernelIdeal.HostVal

end
-- ==== Proof.IKernelTop.lean ====
/-
  The kernel program's scalar result at the ideal instance, for a real-valued argument: +∞.
  The second kernel's accumulator is −∞ from its first tile on (the tile's diagonal entry is log 0); the first
  kernel's result array is real everywhere; so the closing host operations compute a real minus −∞, which is +∞,
  and its quotient by the positive constant is +∞.
-/
import proofs.«118869_j12807592476698_2_alg».proof.Proof.IRun
import proofs.«118869_j12807592476698_2_alg».proof.Proof.IValue0
import proofs.«118869_j12807592476698_2_alg».proof.Proof.IValue0Cover
import proofs.«118869_j12807592476698_2_alg».proof.Proof.IFrame1Value
import proofs.«118869_j12807592476698_2_alg».proof.Proof.IHost

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Cert.KernelIdeal.HostVal

theorem kernel_top (m : (ℓ : Loc nD τ sig) → Buf (Elt Ideal) ℓ) (c : Dev nD)
    (hx : ∀ i, ∃ r : ℝ, (m ((c : Thread nD τ).loc main_arg0) i : EReal) = (r : EReal)) :
    W7 m c (Proc.devRef .tc main_v13) = fun _ => (⊤ : EReal) := by
  have hent := entry_real (W0 m c) hx
  have h6 : ∀ i, ∃ r : ℝ, (W6 m c (Proc.devRef .tc main_v6) i : EReal) = (r : EReal) := by
    intro i
    rw [W6_of_ne m c main_v6 (by decide),
      show W5 m c (Proc.devRef .tc main_v6) = W4 m c (Proc.devRef .tc main_v6) from
        StableHlo.after_of_writes_sub hostOps1 _ hostOps1_writes (by decide : main_v6 ∉ hostOps1_W), W4_v6]
    exact arrAt0_all (VA m) (fun e => ∃ r : ℝ, (e : EReal) = (r : EReal)) c
      (fun t ht y => (outs_inv (VA m) c hent.1 hent.2 t.val t.isLt).2.2 ht y) i
  have h8 : ∀ i, (W6 m c (Proc.devRef .tc main_v8) i : EReal) = (⊥ : EReal) := fun i => by
    rw [W6_v8]; unfold X8; rw [arrAt1_bot]
  funext i
  exact tail_top (W6 m c) h6 h8 i

end Cert.KernelIdeal.Hand

end
-- ==== Proof.RefTopReal.lean ====
/-
  Reals among the extended reals, and the sums that reach +∞.

  At the ideal instance a float is an extended real. The reference's result is decided by three kinds of fact about
  its intermediate values: "is a real" (closed under product, sum, difference and finite sums), "is a non-negative
  real" (a sum of squares, whose square root is then a real) and "is a positive real" (an exponential, a non-empty
  sum of them, whose logarithm is then a real). Beside them: the logarithm of a real is never +∞ and that of zero is
  -∞; a difference `a - b` with `a ≠ -∞` and `b ≠ +∞` is not -∞; a finite sum none of whose terms is -∞ and one of
  whose terms is +∞ is +∞; and +∞ divided by a positive real is +∞.
-/
import Idealize.ShloMosaic.PureOps.Ideal.Laws
import Mathlib.Algebra.BigOperators.Fin
import Mathlib.Tactic.Linarith
import Mathlib.Tactic.Positivity

noncomputable section

namespace Cert.ReferenceIdeal.RefTop

open Idealize.ShloMosaic

variable {ι : Type*}

/-- An extended real that is a real. -/
def IsReal (e : EReal) : Prop := ∃ r : ℝ, e = (r : EReal)

/-- An extended real that is a non-negative real. -/
def IsNonneg (e : EReal) : Prop := ∃ r : ℝ, 0 ≤ r ∧ e = (r : EReal)

/-- An extended real that is a positive real. -/
def IsPos (e : EReal) : Prop := ∃ r : ℝ, 0 < r ∧ e = (r : EReal)

theorem IsReal.coe (r : ℝ) : IsReal (r : EReal) := ⟨r, rfl⟩

theorem IsReal.zero : IsReal 0 := ⟨0, EReal.coe_zero.symm⟩

theorem IsReal.one : IsReal 1 := ⟨1, EReal.coe_one.symm⟩

theorem IsReal.mul {a b : EReal} (ha : IsReal a) (hb : IsReal b) : IsReal (a * b) := by
  obtain ⟨r, rfl⟩ := ha
  obtain ⟨s, rfl⟩ := hb
  exact ⟨r * s, (EReal.coe_mul r s).symm⟩

theorem IsReal.add {a b : EReal} (ha : IsReal a) (hb : IsReal b) : IsReal (a + b) := by
  obtain ⟨r, rfl⟩ := ha
  obtain ⟨s, rfl⟩ := hb
  exact ⟨r + s, (EReal.coe_add r s).symm⟩

theorem IsReal.sub {a b : EReal} (ha : IsReal a) (hb : IsReal b) : IsReal (a - b) := by
  obtain ⟨r, rfl⟩ := ha
  obtain ⟨s, rfl⟩ := hb
  exact ⟨r - s, (EReal.coe_sub r s).symm⟩

theorem IsReal.sum (s : Finset ι) (f : ι → EReal) (h : ∀ i ∈ s, IsReal (f i)) : IsReal (∑ i ∈ s, f i) := by
  classical
  induction s using Finset.induction_on with
  | empty => rw [Finset.sum_empty]; exact IsReal.zero
  | insert a s ha ih =>
    rw [Finset.sum_insert ha]
    exact (h a (Finset.mem_insert_self a s)).add (ih fun i hi => h i (Finset.mem_insert_of_mem hi))

theorem IsReal.ne_bot {a : EReal} (h : IsReal a) : a ≠ ⊥ := by
  obtain ⟨r, rfl⟩ := h
  exact EReal.coe_ne_bot r

theorem IsReal.ne_top {a : EReal} (h : IsReal a) : a ≠ ⊤ := by
  obtain ⟨r, rfl⟩ := h
  exact EReal.coe_ne_top r

/-- A real minus itself is zero (not so at an infinity). -/
theorem IsReal.sub_self {a : EReal} (h : IsReal a) : a - a = 0 := by
  obtain ⟨r, rfl⟩ := h
  rw [← EReal.coe_sub, _root_.sub_self, EReal.coe_zero]

theorem IsNonneg.isReal {a : EReal} (h : IsNonneg a) : IsReal a := by
  obtain ⟨r, _, rfl⟩ := h
  exact ⟨r, rfl⟩

theorem IsPos.isReal {a : EReal} (h : IsPos a) : IsReal a := by
  obtain ⟨r, _, rfl⟩ := h
  exact ⟨r, rfl⟩

theorem IsNonneg.zero : IsNonneg 0 := ⟨0, le_rfl, EReal.coe_zero.symm⟩

/-- The square of a real is a non-negative real. -/
theorem IsReal.mul_self {a : EReal} (h : IsReal a) : IsNonneg (a * a) := by
  obtain ⟨r, rfl⟩ := h
  exact ⟨r * r, mul_self_nonneg r, (EReal.coe_mul r r).symm⟩

theorem IsNonneg.add {a b : EReal} (ha : IsNonneg a) (hb : IsNonneg b) : IsNonneg (a + b) := by
  obtain ⟨r, hr, rfl⟩ := ha
  obtain ⟨s, hs, rfl⟩ := hb
  exact ⟨r + s, add_nonneg hr hs, (EReal.coe_add r s).symm⟩

theorem IsNonneg.sum (s : Finset ι) (f : ι → EReal) (h : ∀ i ∈ s, IsNonneg (f i)) : IsNonneg (∑ i ∈ s, f i) := by
  classical
  induction s using Finset.induction_on with
  | empty => rw [Finset.sum_empty]; exact IsNonneg.zero
  | insert a s ha ih =>
    rw [Finset.sum_insert ha]
    exact (h a (Finset.mem_insert_self a s)).add (ih fun i hi => h i (Finset.mem_insert_of_mem hi))

/-- The square root of a non-negative real is a real. -/
theorem IsNonneg.sqrt {a : EReal} (h : IsNonneg a) : IsReal (Ideal.sqrt a) := by
  obtain ⟨r, hr, rfl⟩ := h
  rw [Ideal.sqrt_coe, if_neg (not_lt.mpr hr)]
  exact ⟨_, rfl⟩

/-- The exponential of a real is a positive real. -/
theorem IsReal.exp {a : EReal} (h : IsReal a) : IsPos (Ideal.exp a) := by
  obtain ⟨r, rfl⟩ := h
  exact ⟨Real.exp r, Real.exp_pos r, Ideal.exp_coe r⟩

theorem IsPos.add {a b : EReal} (ha : IsPos a) (hb : IsPos b) : IsPos (a + b) := by
  obtain ⟨r, hr, rfl⟩ := ha
  obtain ⟨s, hs, rfl⟩ := hb
  exact ⟨r + s, add_pos hr hs, (EReal.coe_add r s).symm⟩

/-- A non-empty finite sum of positive reals is a positive real. -/
theorem IsPos.sum (s : Finset ι) (hs : s.Nonempty) (f : ι → EReal) (h : ∀ i ∈ s, IsPos (f i)) :
    IsPos (∑ i ∈ s, f i) := by
  classical
  induction hs using Finset.Nonempty.cons_induction with
  | singleton a => rw [Finset.sum_singleton]; exact h a (Finset.mem_singleton_self a)
  | cons a s ha _ ih =>
    rw [Finset.sum_cons]
    exact (h a (Finset.mem_cons_self a s)).add (ih fun i hi => h i (Finset.mem_cons.mpr (Or.inr hi)))

/-- The logarithm of a positive real is a real. -/
theorem IsPos.log {a : EReal} (h : IsPos a) : IsReal (Ideal.log a) := by
  obtain ⟨r, hr, rfl⟩ := h
  rw [Ideal.log_coe, if_neg (not_le.mpr hr)]
  exact ⟨_, rfl⟩

/-- The logarithm of zero is -∞. -/
theorem log_zero : Ideal.log 0 = ⊥ := by
  rw [← EReal.coe_zero, Ideal.log_coe, if_pos le_rfl]

/-- The logarithm of a real, of either sign, is never +∞. -/
theorem IsReal.log_ne_top {a : EReal} (h : IsReal a) : Ideal.log a ≠ ⊤ := by
  obtain ⟨r, rfl⟩ := h
  rw [Ideal.log_coe]
  split_ifs
  · exact bot_ne_top
  · exact EReal.coe_ne_top _

/-- A difference whose first term is not -∞ and whose second is not +∞ is not -∞. -/
theorem sub_ne_bot {a b : EReal} (ha : a ≠ ⊥) (hb : b ≠ ⊤) : a - b ≠ ⊥ := by
  rw [sub_eq_add_neg]
  exact EReal.add_ne_bot_iff.mpr ⟨ha, fun h => hb (EReal.neg_eq_bot_iff.mp h)⟩

/-- A finite sum none of whose terms is -∞ is not -∞. -/
theorem sum_ne_bot (s : Finset ι) (f : ι → EReal) (h : ∀ i ∈ s, f i ≠ ⊥) : ∑ i ∈ s, f i ≠ ⊥ := by
  classical
  induction s using Finset.induction_on with
  | empty => rw [Finset.sum_empty]; exact EReal.zero_ne_bot
  | insert a s ha ih =>
    rw [Finset.sum_insert ha]
    exact EReal.add_ne_bot_iff.mpr
      ⟨h a (Finset.mem_insert_self a s), ih fun i hi => h i (Finset.mem_insert_of_mem hi)⟩

/-- A finite sum none of whose terms is -∞ and one of whose terms is +∞ is +∞. -/
theorem sum_eq_top (s : Finset ι) (f : ι → EReal) (h : ∀ i ∈ s, f i ≠ ⊥) {a : ι} (ha : a ∈ s) (hat : f a = ⊤) :
    ∑ i ∈ s, f i = ⊤ := by
  classical
  rw [← Finset.add_sum_erase s f ha, hat]
  exact EReal.top_add_of_ne_bot (sum_ne_bot _ f fun i hi => h i (Finset.mem_of_mem_erase hi))

/-- +∞ divided by a positive real is +∞. -/
theorem top_div_pos {c : EReal} (hc : IsPos c) : Ideal.div ⊤ c = ⊤ := by
  obtain ⟨r, hr, rfl⟩ := hc
  rw [Ideal.div_coe hr.ne', EReal.top_mul_coe_of_pos (by positivity)]

end Cert.ReferenceIdeal.RefTop

end
-- ==== Proof.RefTopStages.lean ====
/-
  The reference's intermediate values at a real input, one operation at a time.

  The reference scales its input `x` by a constant, `Is = x · c`; takes row norms `Inorm n = √(Σ_c Is[n,c]²)`; builds
  the identity mask (1 on the diagonal, 0 off it) from two index arrays; forms `dot[n,m] = Σ_c Is[n,c] · Is[m,c]` and
  `ir[n,m] = Inorm n · Inorm m`, then `ir' = ir · mask − ir · (1 − mask)`, and subtracts from each row of `ir'` and of
  `dot` that row's masked sum. The result is the sum over all `(n, m)` of `lse[m] − log (ir'' [n,m])`, with
  `lse[m] = log Σ_k exp (dot' [m,k])`, divided by two positive constants.

  With every entry of `x` a real: every value up to `ir''` and `dot'` is a real; `lse` is a real, being the
  logarithm of a non-empty sum of exponentials; and the logarithm of the real `ir'' [n,m]` is never +∞, so no term of the
  final sum is -∞. A row's masked sum keeps only its diagonal term, so `ir'' [0,0] = ir' [0,0] − ir' [0,0] = 0`,
  whose logarithm is -∞: the term at `(0,0)` is a real minus -∞, that is +∞.
-/
import proofs.«118869_j12807592476698_2_alg».proof.Proof.Gen.ReferenceIdeal.Read
import proofs.«118869_j12807592476698_2_alg».proof.Proof.RefTopReal

noncomputable section

namespace Cert.ReferenceIdeal.RefTop

open Cert.ReferenceIdeal Cert.ReferenceIdeal.Gen Idealize.ShloMosaic Idealize.ShloMosaic.TcCoe Idealize.SL.Sem Idealize.ShloMosaic.StableHlo

/-- The argument array: `[1, 1, 8192, 64]` extended reals. -/
abbrev Arg : Type := (⟨S1x1x8192x64, .f32⟩ : BufTy).Contents (Elt Ideal)

/-! ### The constants -/

/-- The scale `c` is a real. -/
theorem lit_scale_real : IsReal (Ideal.ofBits .f32 0x3EB504F3#32) := by
  unfold IsReal
  simp [Ideal.ofBits, Ideal.ieee, -EReal.coe_mul]

theorem lit_one : Ideal.ofBits .f32 0x3F800000#32 = 1 := by
  simp [Ideal.ofBits, Ideal.ieee, -EReal.coe_mul]; norm_num

/-- The first divisor, `2 ^ 26`, is a positive real. -/
theorem lit_numel_pos : IsPos (Ideal.ofBits .f32 0x4C800000#32) := by
  unfold IsPos
  simp [Ideal.ofBits, Ideal.ieee, -EReal.coe_mul]

/-- The second divisor, `8192`, is a positive real. -/
theorem lit_rows_pos : IsPos (Ideal.ofBits .f32 0x46000000#32) := by
  unfold IsPos
  simp [Ideal.ofBits, Ideal.ieee, -EReal.coe_mul]

/-! ### The mask -/

/-- The comparison of two indices below `8192`, as 32-bit words, converted to a float: 1 where they agree, else 0. -/
theorem mask_word (m n : Nat) (hm : m < 8192) (hn : n < 8192) :
    FloatOps.uitofp (F := Ideal) .f32
        (IntOp.cmpi .eq (IntOp.addi (BitVec.ofNat 32 m) 0#32) (BitVec.ofNat 32 n))
      = if m = n then (1 : EReal) else 0 := by
  show (((IntOp.cmpi .eq (IntOp.addi (BitVec.ofNat 32 m) 0#32) (BitVec.ofNat 32 n)).toNat : ℝ) : EReal) = _
  unfold IntOp.cmpi IntOp.addi
  by_cases h : m = n
  · subst h
    simp
  · have hne : ¬ (BitVec.ofNat 32 m = BitVec.ofNat 32 n) := by
      intro hh
      have := congrArg BitVec.toNat hh
      simp only [BitVec.toNat_ofNat] at this
      omega
    simp [h, hne]

/-- The mask is 1 on the diagonal and 0 off it. -/
theorem v8_val (i : S8192x8192.Idx) :
    Read.val_main_v8 (F := Ideal) i = if (i 0).val = (i 1).val then (1 : EReal) else 0 := by
  rw [Read.val_main_v8_apply, Read.val_main_v7_apply, Read.val_main_v6_apply, Read.val_main_v3_apply,
    Read.val_main_v5_apply, Read.val_main_c_apply, Read.val_main_v4_apply]
  exact mask_word (i 0).val (i 1).val (i 0).isLt (i 1).isLt

theorem v8_real (i : S8192x8192.Idx) : IsReal (Read.val_main_v8 (F := Ideal) i) := by
  rw [v8_val]
  split_ifs
  · exact IsReal.one
  · exact IsReal.zero

theorem v15_real (i : S1x1x8192x8192.Idx) : IsReal (Read.val_main_v15 (F := Ideal) i) := by
  rw [Read.val_main_v15_apply]; exact v8_real _

theorem v22_real (i : S1x1x8192x8192.Idx) : IsReal (Read.val_main_v22 (F := Ideal) i) := by
  rw [Read.val_main_v22_apply]; exact v8_real _

theorem v28_real (i : S1x1x8192x8192.Idx) : IsReal (Read.val_main_v28 (F := Ideal) i) := by
  rw [Read.val_main_v28_apply]; exact v8_real _

/-- `1 − mask`. -/
theorem v18_real (i : S8192x8192.Idx) : IsReal (Read.val_main_v18 (F := Ideal) i) := by
  rw [Read.val_main_v18_apply, Read.val_main_v17_apply, Read.val_main_cst_0_apply, Ideal.subf_def, Ideal.ofBits_def,
    lit_one]
  exact IsReal.one.sub (v8_real _)

theorem v19_real (i : S1x1x8192x8192.Idx) : IsReal (Read.val_main_v19 (F := Ideal) i) := by
  rw [Read.val_main_v19_apply]; exact v18_real _

/-- In row `i` the mask is 1 at the column equal to the row's number, and 0 elsewhere. -/
theorem row_mask (i : S1x1x8192.Idx) (k : Fin 8192) :
    Read.val_main_v22 (F := Ideal) (Read.idx_main_v24 i k) = if (i 2).val = k.val then (1 : EReal) else 0 := by
  rw [Read.val_main_v22_apply, v8_val]

/-- A row's masked sum of `ir'` keeps only its diagonal term (`0 · a = 0` for every extended real `a`). -/
theorem v24_diag (x : Arg) (i : S1x1x8192.Idx) :
    Read.val_main_v24 (F := Ideal) x i
      = Read.val_main_v21 (F := Ideal) x (Read.idx_main_v24 i ⟨(i 2).val, (i 2).isLt⟩) := by
  rw [Read.val_main_v24_apply, Read.val_main_cst_1_apply, Ideal.ofBits_def, Ideal.ofBits_zero_f32, zero_add,
    Finset.sum_eq_single (⟨(i 2).val, (i 2).isLt⟩ : Fin 8192)]
  · rw [Read.val_main_v23_apply, Ideal.mulf_def, row_mask, if_pos rfl, mul_one]
  · intro k _ hk
    rw [Read.val_main_v23_apply, Ideal.mulf_def, row_mask, if_neg (fun h => hk (Fin.ext h.symm)), mul_zero]
  · intro h
    exact absurd (Finset.mem_univ _) h

/-! ### Every value up to `ir''` and `dot'` is a real -/

section Stages

variable (x : Arg) (hx : ∀ i, IsReal (x i))
include hx

/-- `Is = x · c`. -/
theorem v1_real (i : S1x1x8192x64.Idx) : IsReal (Read.val_main_v1 (F := Ideal) x i) := by
  rw [Read.val_main_v1_apply, Read.val_main_v0_apply, Read.val_main_cst_apply, Ideal.mulf_def, Ideal.ofBits_def]
  exact (hx i).mul lit_scale_real

theorem sqr_nonneg (i : S1x1x8192x64.Idx) : IsNonneg (Read.val_main_call0_v0 (F := Ideal) x i) := by
  rw [Read.val_main_call0_v0_apply, Ideal.mulf_def]
  exact (v1_real x hx i).mul_self

theorem sumsqr_nonneg (i : S1x1x8192.Idx) : IsNonneg (Read.val_main_call0_v1 (F := Ideal) x i) := by
  rw [Read.val_main_call0_v1_apply, Read.val_main_call0_cst_apply, Ideal.ofBits_def, Ideal.ofBits_zero_f32, zero_add]
  exact IsNonneg.sum _ _ fun k _ => sqr_nonneg x hx _

/-- `Inorm`, the square root of a sum of squares. -/
theorem v2_real (i : S1x1x8192x1.Idx) : IsReal (Read.val_main_v2 (F := Ideal) x i) := by
  rw [Read.val_main_v2_apply, Ideal.hostUnary_sqrt_def, Read.val_main_call0_v2_apply]
  exact (sumsqr_nonneg x hx _).sqrt

/-- `dot`. -/
theorem v9_real (i : S1x1x8192x8192.Idx) : IsReal (Read.val_main_v9 (F := Ideal) x i) := by
  rw [Read.val_main_v9_apply]
  exact IsReal.sum _ _ fun k _ => (v1_real x hx _).mul (v1_real x hx _)

theorem v11_real (i : S8192x1.Idx) : IsReal (Read.val_main_v11 (F := Ideal) x i) := by
  rw [Read.val_main_v11_apply]; exact v2_real x hx _

theorem v12_real (i : S1x8192.Idx) : IsReal (Read.val_main_v12 (F := Ideal) x i) := by
  rw [Read.val_main_v12_apply, Read.val_main_v10_apply]; exact v2_real x hx _

/-- `ir`. -/
theorem v13_real (i : S8192x8192.Idx) : IsReal (Read.val_main_v13 (F := Ideal) x i) := by
  rw [Read.val_main_v13_apply]
  exact IsReal.sum _ _ fun k _ => (v11_real x hx _).mul (v12_real x hx _)

theorem v14_real (i : S1x1x8192x8192.Idx) : IsReal (Read.val_main_v14 (F := Ideal) x i) := by
  rw [Read.val_main_v14_apply]; exact v13_real x hx _

/-- `ir' = ir · mask − ir · (1 − mask)`. -/
theorem v21_real (i : S1x1x8192x8192.Idx) : IsReal (Read.val_main_v21 (F := Ideal) x i) := by
  rw [Read.val_main_v21_apply, Read.val_main_v16_apply, Read.val_main_v20_apply, Ideal.subf_def, Ideal.mulf_def,
    Ideal.mulf_def]
  exact ((v14_real x hx i).mul (v15_real i)).sub ((v14_real x hx i).mul (v19_real i))

theorem v24_real (i : S1x1x8192.Idx) : IsReal (Read.val_main_v24 (F := Ideal) x i) := by
  rw [v24_diag]; exact v21_real x hx _

theorem v26_real (i : S1x1x8192x8192.Idx) : IsReal (Read.val_main_v26 (F := Ideal) x i) := by
  rw [Read.val_main_v26_apply, Read.val_main_v25_apply]; exact v24_real x hx _

/-- `ir''`. -/
theorem v27_real (i : S1x1x8192x8192.Idx) : IsReal (Read.val_main_v27 (F := Ideal) x i) := by
  rw [Read.val_main_v27_apply, Ideal.subf_def]
  exact (v21_real x hx i).sub (v26_real x hx i)

theorem v30_real (i : S1x1x8192.Idx) : IsReal (Read.val_main_v30 (F := Ideal) x i) := by
  rw [Read.val_main_v30_apply, Read.val_main_cst_2_apply, Ideal.ofBits_def, Ideal.ofBits_zero_f32, zero_add]
  refine IsReal.sum _ _ fun k _ => ?_
  rw [Read.val_main_v29_apply, Ideal.mulf_def]
  exact (v9_real x hx _).mul (v28_real _)

/-- `dot'`. -/
theorem v33_real (i : S1x1x8192x8192.Idx) : IsReal (Read.val_main_v33 (F := Ideal) x i) := by
  rw [Read.val_main_v33_apply, Ideal.subf_def, Read.val_main_v32_apply, Read.val_main_v31_apply]
  exact (v9_real x hx i).sub (v30_real x hx _)

/-- A row's sum of exponentials is a positive real. -/
theorem v35_pos (i : S1x1x8192.Idx) : IsPos (Read.val_main_v35 (F := Ideal) x i) := by
  rw [Read.val_main_v35_apply, Read.val_main_cst_3_apply, Ideal.ofBits_def, Ideal.ofBits_zero_f32, zero_add]
  refine IsPos.sum _ ⟨⟨0, by norm_num⟩, Finset.mem_univ _⟩ _ fun k _ => ?_
  rw [Read.val_main_v34_apply, Ideal.hostUnary_exp_def]
  exact (v33_real x hx _).exp

/-- `lse`. -/
theorem v36_real (i : S1x1x8192.Idx) : IsReal (Read.val_main_v36 (F := Ideal) x i) := by
  rw [Read.val_main_v36_apply, Ideal.hostUnary_log_def]
  exact (v35_pos x hx i).log

theorem v39_real (i : S1x1x8192x8192.Idx) : IsReal (Read.val_main_v39 (F := Ideal) x i) := by
  rw [Read.val_main_v39_apply, Read.val_main_v38_apply]; exact v36_real x hx _

/-! ### The terms of the final sum -/

/-- No term `lse[m] − log (ir'' [n,m])` is -∞. -/
theorem v40_ne_bot (i : S1x1x8192x8192.Idx) : Read.val_main_v40 (F := Ideal) x i ≠ ⊥ := by
  rw [Read.val_main_v40_apply, Ideal.subf_def, Read.val_main_v37_apply, Ideal.hostUnary_log_def]
  exact sub_ne_bot (v39_real x hx i).ne_bot (v27_real x hx i).log_ne_top

/-- The index `(0, 0, 0, 0)`. -/
abbrev origin : S1x1x8192x8192.Idx := ValueIdx.ix4 (0 : Fin 1) (0 : Fin 1) (0 : Fin 8192) (0 : Fin 8192)

/-- `ir'' [0,0] = 0`. -/
theorem v27_origin : Read.val_main_v27 (F := Ideal) x origin = 0 := by
  have e : Read.val_main_v26 (F := Ideal) x origin = Read.val_main_v21 (F := Ideal) x origin := by
    rw [Read.val_main_v26_apply, Read.val_main_v25_apply, v24_diag]
    generalize Read.val_main_v21 (F := Ideal) x = a
    exact congrArg a (funext fun d => by
      match d with
      | ⟨0, _⟩ => rfl
      | ⟨1, _⟩ => rfl
      | ⟨2, _⟩ => rfl
      | ⟨3, _⟩ => rfl)
  rw [Read.val_main_v27_apply, Ideal.subf_def, e]
  exact (v21_real x hx origin).sub_self

/-- The term at `(0, 0)` is +∞. -/
theorem v40_origin : Read.val_main_v40 (F := Ideal) x origin = ⊤ := by
  rw [Read.val_main_v40_apply, Ideal.subf_def, Read.val_main_v37_apply, Ideal.hostUnary_log_def, v27_origin x hx,
    log_zero]
  exact EReal.sub_bot (v39_real x hx origin).ne_bot

end Stages

end Cert.ReferenceIdeal.RefTop

end
-- ==== Proof.RefTop.lean ====
/-
  The reference's result at a real input is +∞.

  The result is `((0 + Σ_{n,m} (lse[m] − log (ir'' [n,m]))) / 2^26) / 8192`. With every input entry a real, no term of
  the sum is -∞ and the term at `(0, 0)` is +∞ (`ir'' [0,0] = 0`, whose logarithm is -∞), so the sum is +∞; and +∞
  divided by a positive real is +∞, twice.
-/
import proofs.«118869_j12807592476698_2_alg».proof.Proof.Gen.ReferenceIdeal.Run
import proofs.«118869_j12807592476698_2_alg».proof.Proof.Gen.ReferenceIdeal.Read
import proofs.«118869_j12807592476698_2_alg».proof.Proof.RefTopStages

noncomputable section

namespace Cert.ReferenceIdeal.RefTop

open Cert.ReferenceIdeal Cert.ReferenceIdeal.Gen Idealize.ShloMosaic Idealize.ShloMosaic.TcCoe Idealize.SL.Sem Idealize.ShloMosaic.StableHlo

/-- The sum over all `(n, m)` is +∞. -/
theorem v41_top (x : Arg) (hx : ∀ i, IsReal (x i)) (i : S_.Idx) : Read.val_main_v41 (F := Ideal) x i = ⊤ := by
  rw [Read.val_main_v41_apply, Read.val_main_cst_4_apply, Ideal.ofBits_def, Ideal.ofBits_zero_f32, zero_add]
  exact sum_eq_top Finset.univ _ (fun j _ => v40_ne_bot x hx j) (Finset.mem_univ origin) (v40_origin x hx)

/-- At the ideal instance, if every entry of the input is a real, the reference's result is +∞. -/
theorem result_top (x : (⟨Cert.ReferenceIdeal.S1x1x8192x64, .f32⟩ : BufTy).Contents (Elt Ideal))
    (hx : ∀ i, ∃ r : ℝ, (x i : EReal) = (r : EReal)) :
    Cert.ReferenceIdeal.Read.val_main_v43 (F := Ideal) x = fun _ => (⊤ : EReal) := by
  funext i
  rw [Read.val_main_v43_apply, Read.val_main_v42_apply, v41_top x hx, Read.val_main_cst_5_apply,
    Read.val_main_cst_6_apply, Ideal.hostDivf_def, Ideal.hostDivf_def, Ideal.ofBits_def, top_div_pos lit_numel_pos,
    Ideal.ofBits_def, top_div_pos lit_rows_pos]

end Cert.ReferenceIdeal.RefTop

end
-- ==== Proof.lean ====
/-
  The certificate's five claims.
  The kernel program — the scaled inputs and their row norms on the host, a tiled running log-sum-exp of the
  pairwise products less the squared norms, a tiled sum of logs of the "implicit redundancy" matrix, and a closing
  scalar combination — against the plain array program of the same loss.
  At the ideal instance both results are +∞ for every real-valued input, for one reason: the redundancy matrix is 0
  on its diagonal, and log 0 = −∞. In the kernel the sum of logs is −∞ from the first tile on, every log-sum-exp
  entry is a real, and a real minus −∞ is +∞. In the array program every summand (a real log-sum-exp minus the log
  of a real) is a real or +∞, and the summand at the origin is +∞. Dividing +∞ by a positive constant leaves +∞.
  The three frames: each program runs to the end on every weakly fair execution and leaves its argument untouched;
  for the kernel program this is read off its run, item by item (host operations, the two kernels), at the word
  instance and at the ideal one; for the array program off its list of host operations.
-/
import proofs.«118869_j12807592476698_2_alg».proof.Defs
import proofs.«118869_j12807592476698_2_alg».proof.Proof.Gen.Kernel
import proofs.«118869_j12807592476698_2_alg».proof.Proof.Gen.KernelIdeal
import proofs.«118869_j12807592476698_2_alg».proof.Proof.Gen.ReferenceIdeal
import proofs.«118869_j12807592476698_2_alg».proof.Proof.Gen.Pre_finite_inputs
import proofs.«118869_j12807592476698_2_alg».proof.Proof.Gen.ReferenceIdeal.Run
import proofs.«118869_j12807592476698_2_alg».proof.Proof.Gen.ReferenceIdeal.Read
import proofs.«118869_j12807592476698_2_alg».proof.Proof.BRun
import proofs.«118869_j12807592476698_2_alg».proof.Proof.IRun
import proofs.«118869_j12807592476698_2_alg».proof.Proof.IKernelTop
import proofs.«118869_j12807592476698_2_alg».proof.Proof.RefTop
import proofs.«118869_j12807592476698_2_alg».proof.Proof.IHost
import Idealize.ShloMosaic.Adequacy
import Idealize.ShloMosaic.Init

noncomputable section

namespace Cert.Proof

open Idealize.ShloMosaic Idealize.SL.Sem

theorem frame_p : @Cert.frame_Kernel Cert.Kernel.Gen.facts Cert.Pre_finite_inputs.Gen.facts := fun m ρ _ =>
  (θ_run Cert.Kernel.defs _ _).mono (fun _ h c => (h c).2) (Cert.Kernel.Hand.run_main (F := Bits) m ρ)

theorem frame_pi : @Cert.frame_KernelIdeal Cert.KernelIdeal.Gen.facts Cert.Pre_finite_inputs.Gen.facts := fun m ρ _ =>
  (θ_run Cert.KernelIdeal.defs _ _).mono (fun _ h c => (h c).2) (Cert.KernelIdeal.Hand.run_main (F := Ideal) m ρ)

theorem frame_ri : @Cert.frame_ReferenceIdeal Cert.ReferenceIdeal.Gen.facts Cert.Pre_finite_inputs.Gen.facts := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at +∞ on a real-valued argument. -/
theorem algebraic : @Cert.algebraic_KernelIdeal_ReferenceIdeal Cert.KernelIdeal.Gen.facts Cert.ReferenceIdeal.Gen.facts Cert.Pre_finite_inputs.Gen.facts := by
  intro m ρ m' ρ' hpre hagree
  haveI := Cert.Pre_finite_inputs.Gen.facts
  refine ⟨fun _ => fun _ => (⊤ : EReal), ?_, ?_⟩
  · refine (θ_run Cert.KernelIdeal.defs _ _).mono (fun _ h c => ⟨(h c).1.trans ?_, (h c).2⟩)
      (Cert.KernelIdeal.Hand.run_main (F := Ideal) m ρ)
    exact Cert.KernelIdeal.Hand.kernel_top m c (Cert.KernelIdeal.HostVal.finite_real _ (hpre c))
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v43_eq, hagree c]
    exact Cert.ReferenceIdeal.RefTop.result_top _ (Cert.KernelIdeal.HostVal.finite_real _ (hpre c))

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
